-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S1024x1 : Shape := ⟨2, ![1024, 1]⟩
abbrev S8192x1024 : Shape := ⟨2, ![8192, 1024]⟩
abbrev S8192x8192 : Shape := ⟨2, ![8192, 8192]⟩
abbrev S8192x1 : Shape := ⟨2, ![8192, 1]⟩
abbrev S1x1024 : Shape := ⟨2, ![1, 1024]⟩
abbrev S8192 : Shape := ⟨1, ![8192]⟩
abbrev S_ : Shape := ⟨0, ![]⟩

abbrev nBuf : Space → Nat
  | .hbm => 34
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096x1024, .bf16⟩
  | .hbm, ⟨4, _⟩ => ⟨S4096x1024, .bf16⟩
  | .hbm, ⟨5, _⟩ => ⟨S8192x1024, .bf16⟩
  | .hbm, ⟨6, _⟩ => ⟨S8192x8192, .f32⟩
  | .hbm, ⟨7, _⟩ => ⟨S8192x1, .f32⟩
  | .hbm, ⟨8, _⟩ => ⟨S8192, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc2_scratch1 : Ref sig .tc := ⟨.vmem, 17, rfl⟩
abbrev cc2_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_30 : BitVec 32 := 0#32
  let v69 : BitVec 1 := Scalar.cmpi .ne v68 c0_i32_30
  v69

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  concatenates_S4096x1024_S4096x1024_S8192x1024_d0 : Shape.Concatenates [S4096x1024, S4096x1024] S8192x1024 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  transposes_S1024x1024_p1_0_S1024x1024 : S1024x1024.Transposes [1, 0] S1024x1024
  iota_S1024x1_d0_w32 : S1024x1.Iotas .tc 32 [0]
  iota_S1x1024_d1_w32 : S1x1024.Iotas .tc 32 [1]
  broadcasts_S1x1024_S1024x1024 : S1x1024.Broadcasts S1024x1024
  shapeCasts_S8192x1_S8192 : S8192x1.ShapeCasts S8192
  bcast_S_S4096 : S_.BroadcastsInDim S4096 (![] : Fin 0 → Fin S4096.rank)
  concatenates_S4096_S4096_S8192_d0 : Shape.Concatenates [S4096, S4096] S8192 0
  bcast_S_S8192 : S_.BroadcastsInDim S8192 (![] : Fin 0 → Fin S8192.rank)
  bcast_S8192_S8192x1_0 : S8192.BroadcastsInDim S8192x1 (![0] : Fin 1 → Fin S8192x1.rank)
  reducesTo_S8192_S_d0 : S8192.ReducesTo [0] S_
  h_S_ : 0 < S_.numel
  dot_S1024x1024_S1024x1024_S1024x1024_1_0_0_1_n_n_wf : DotDims.WF S1024x1024 S1024x1024 S1024x1024 [1] [0] [0] [1] [] []
  gather_S8192_S8192x1_S8192_n_0_n_n_0_1_1_wf : GatherDims.WF S8192 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S1024x1024.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S1024x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x1, .i32⟩
  | .hbm, ⟨56, _⟩ => ⟨S_, .i32⟩
  | .hbm, ⟨57, _⟩ => ⟨S8192x1, .i32⟩
  | .hbm, ⟨58, _⟩ => ⟨S8192x1, .i1⟩
  | .hbm, ⟨59, _⟩ => ⟨S_, .i32⟩
  | .hbm, ⟨60, _⟩ => ⟨S8192x1, .i32⟩
  | .hbm, ⟨61, _⟩ => ⟨S8192x1, .i32⟩
  | .hbm, ⟨62, _⟩ => ⟨S8192x1, .i32⟩
  | .hbm, ⟨63, _⟩ => ⟨S8192x1x1, .i32⟩
  | .hbm, ⟨64, _⟩ => ⟨S1, .i32⟩
  | .hbm, ⟨65, _⟩ => ⟨S_, .i32⟩
  | .hbm, ⟨66, _⟩ => ⟨S8192x1x1, .i32⟩
  | .hbm, ⟨67, _⟩ => ⟨S8192x1x1, .i1⟩
  | .hbm, ⟨68, _⟩ => ⟨S1x1x1, .i32⟩
  | .hbm, ⟨69, _⟩ => ⟨S8192x1x1, .i32⟩
  | .hbm, ⟨70, _⟩ => ⟨S8192x1x1, .i1⟩
  | .hbm, ⟨71, _⟩ => ⟨S8192x1x1, .i1⟩
  | .hbm, ⟨72, _⟩ => ⟨S_, .i1⟩
  | .hbm, ⟨73, _⟩ => ⟨S8192x1, .i1⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192, .f32⟩
  | .hbm, ⟨79, _⟩ => ⟨S8192, .f32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v27 : Ref sig .tc := ⟨.hbm, 54, rfl⟩
abbrev main_v28 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_4 : Ref sig .tc := ⟨.hbm, 80, rfl⟩
abbrev main_v32 : Ref sig .tc := ⟨.hbm, 81, rfl⟩
abbrev main_v33 : Ref sig .tc := ⟨.hbm, 82, rfl⟩
abbrev main_c_5 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_6 : Ref sig .tc := ⟨.hbm, 90, rfl⟩
abbrev main_v40 : Ref sig .tc := ⟨.hbm, 91, rfl⟩
abbrev main_cst_7 : Ref sig .tc := ⟨.hbm, 92, rfl⟩
abbrev main_v41 : Ref sig .tc := ⟨.hbm, 93, rfl⟩
abbrev main_v42 : Ref sig .tc := ⟨.hbm, 94, rfl⟩

abbrev nD : Nat := 1
abbrev τ : Topo := Topo.v7x

variable {F : FTy → Type} [FloatOps F]

class Facts₀ : Prop where
  concatenates_S4096x1024_S4096x1024_S8192x1024_d0 : Shape.Concatenates [S4096x1024, S4096x1024] S8192x1024 0
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  bcast_S_S8192 : S_.BroadcastsInDim S8192 (![] : Fin 0 → Fin S8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x1x1_S8192x1_n_1_0_0_1_2_11_wf : GatherDims.WF S8192x8192 S8192x1x1 S8192x1 [] [1] [0] [1] [0] 2 ![1, 1]
  gather_S8192_S8192x1_S8192_n_0_n_n_0_1_1_wf : GatherDims.WF S8192 S8192x1 S8192 [] [0] [] [0] [] 1 ![1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

class Facts : Prop extends Facts₀ where

variable [Facts]
-- ==== Proof.KFrameA.lean ====
import proofs.«127180_j53961969107141_2_alg».proof.Proof.Gen.Kernel.Launch
import proofs.«127180_j53961969107141_2_alg».proof.Proof.Gen.Kernel.Skeleton
import proofs.«127180_j53961969107141_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two row-normalisation regions of the program, each at an arbitrary entry memory `V`:
    the block a window shows at a grid point, the buffer the body leaves in the output window,
    the body's triple, the pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the row normalisation `cc0__normalize_kernel`, entered at memory `V` -/

/-- The block window `w` shows at grid point `t`, read from the window's array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For any proof data whose input array is `V`'s and whose body leaves the input block in place,
    the input window's staging buffer holds the block of point `t` when the body starts there:
    the window is fetched whole at every point and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×1024 block as a rectangle: the one rectangle the body loads and stores. -/
abbrev r0_0 : Rect S1024x1024 := Rect.unit (s := S1024x1024) ![0, 0] S1024x1024.size inb_S1024x1024_S1024x1024_0_0

/-- The output window's buffer after the body, as a function of the input block `x0`: the single
    store of the normalised, rounded block over the whole rectangle. -/
def out0_1 (x0 : Vec F S1024x1024 .f32) : Vec F S1024x1024 .bf16 :=
  View.canon [⟨r0_0, k0_pay1 (View.ld x0 r0_0)⟩]

/-- The single stored rectangle is the whole block, so every index of the buffer lies in it. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging memrefs: with the input's at `x0` and the output's at anything, it
    runs to a state where the input's is still `x0` and the output's is `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: arrays as in `V`; after the body at point
    `t` the input buffer holds its block and the output buffer `out0_1` of it; the invariant keeps
    the rest of the core untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves in the input window: its block. -/
theorem after0_0 (c : Dev nD) (t : Fin cfg0.N) : (dat0 V c).after 0 t = iblk0 V c 0 t := by dsimp only [dat0]
/-- What the body leaves in the output window: `out0_1` of the input block. -/
theorem after0_1 (c : Dev nD) (t : Fin cfg0.N) : (dat0 V c).after 1 t = out0_1 (iblk0 V c 0 t) := by dsimp only [dat0]

/-- The input window's staging buffer holds the block of point `t` when the body starts there. -/
theorem before0_0 (c : Dev nD) (t : Fin cfg0.N) (d) : (dat0 V c).before 0 t d = iblk0 V c 0 t :=
  before0_0_of V (dat0 V c) (A_eq0 V c 0) (after0_0 V c) t d

/-- The body's precondition at point `t`, the two windows written out. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- The body's postcondition at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: its input memref holds the point's block, so `sound_kernel0` applies;
    the invariant and the owed amount are carried through unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row normalisation `cc1__normalize_kernel`, entered at memory `V` -/

/-- The block window `w` shows at grid point `t`, read from the window's array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- For any proof data whose input array is `V`'s and whose body leaves the input block in place,
    the input window's staging buffer holds the block of point `t` when the body starts there:
    the window is fetched whole at every point and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block as a rectangle: the one rectangle the body loads and stores. -/
abbrev r1_0 : Rect S1024x1024 := Rect.unit (s := S1024x1024) ![0, 0] S1024x1024.size inb_S1024x1024_S1024x1024_0_0

/-- The output window's buffer after the body, as a function of the input block `x0`: the single
    store of the normalised, rounded block over the whole rectangle. -/
def out1_1 (x0 : Vec F S1024x1024 .f32) : Vec F S1024x1024 .bf16 :=
  View.canon [⟨r1_0, k1_pay1 (View.ld x0 r1_0)⟩]

/-- The single stored rectangle is the whole block, so every index of the buffer lies in it. -/
theorem cover1_1 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
/-- The body on whole staging memrefs: with the input's at `x0` and the output's at anything, it
    runs to a state where the input's is still `x0` and the output's is `out1_1 x0`. -/
theorem sound_kernel1 (c : Dev nD) (E : Set ℕ) (i : grid1.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the region's pipeline on core `c`: arrays as in `V`; after the body at point
    `t` the input buffer holds its block and the output buffer `out1_1` of it; the invariant keeps
    the rest of the core untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves in the input window: its block. -/
theorem after1_0 (c : Dev nD) (t : Fin cfg1.N) : (dat1 V c).after 0 t = iblk1 V c 0 t := by dsimp only [dat1]
/-- What the body leaves in the output window: `out1_1` of the input block. -/
theorem after1_1 (c : Dev nD) (t : Fin cfg1.N) : (dat1 V c).after 1 t = out1_1 (iblk1 V c 0 t) := by dsimp only [dat1]

/-- The input window's staging buffer holds the block of point `t` when the body starts there. -/
theorem before1_0 (c : Dev nD) (t : Fin cfg1.N) (d) : (dat1 V c).before 0 t d = iblk1 V c 0 t :=
  before1_0_of V (dat1 V c) (A_eq1 V c 0) (after1_0 V c) t d

/-- The body's precondition at point `t`, the two windows written out. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- The body's postcondition at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: its input memref holds the point's block, so `sound_kernel1` applies;
    the invariant and the owed amount are carried through unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameR0.lean ====
/- The third kernel (a tile of scaled similarities per grid point; a running maximum, a running rescaled sum and a
   running target entry per row carried across the column steps): its windows' blocks, its two conditionals over the
   grid, what each point leaves, the invariant that carries the three running columns, and its proof data. -/
import proofs.«127180_j53961969107141_2_alg».proof.Proof.Gen.Kernel.Launch
import proofs.«127180_j53961969107141_2_alg».proof.Proof.Gen.Kernel.Skeleton
import proofs.«127180_j53961969107141_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three running columns, whole scoped buffers of the kernel's own. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1 .f32 := Memref.whole cc2_scratch2

/-! ## The body's two conditionals over the 8 × 8 grid -/

/-- The first conditional: the column step is the first one. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the column step is the last one. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- No input and not the first output ever rests; the per-row output rests except at the last column step, and is
    written back only there. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## What a point leaves -/

/-- What point `n` leaves: the tile, the per-row output's buffer, and the three running columns (maximum, rescaled
    sum, target entry). -/
structure Outs2 (F : FTy → Type) [FloatOps F] where
  tile : Vec F S1024x1024 .f32
  loss : Vec F S1024x1 .f32
  mx : Vec F S1024x1 .f32
  sm : Vec F S1024x1 .f32
  tg : Vec F S1024x1 .f32

/-- What a row block's first column step finds, in effect: it stores −∞, 0 and 0 into the three running columns
    before reading them. -/
def init2 : Outs2 F := { tile := k2_pay13, loss := k2_pay7, mx := k2_pay6, sm := k2_pay7, tg := k2_pay8 }

/-- One column step from the two input blocks and the running columns `p`: the tile of scaled similarities with the
    diagonal pushed down; the running maximum taking in the tile's row maxima; the running sum rescaled to the new
    maximum plus the tile's row sums of exponentials; the running target entry plus the tile's masked row sums; and
    what the last step stores in the per-row output, maximum + log sum − target. -/
def step2 (i : grid2.Coords) (x0 x1 : Vec F S1024x1024 .bf16) (p : Outs2 F) : Outs2 F where
  tile := k2_pay11 i x0 x1
  mx := k2_pay3 (k2_pay11 i x0 x1) p.mx
  sm := k2_pay2 (k2_pay11 i x0 x1) p.mx p.sm p.mx
  tg := k2_pay4 (k2_pay11 i x0 x1) (k2_pay12 i) k2_pay13 p.tg
  loss := k2_pay5 (k2_pay3 (k2_pay11 i x0 x1) p.mx) (k2_pay2 (k2_pay11 i x0 x1) p.mx p.sm p.mx) (k2_pay4 (k2_pay11 i x0 x1) (k2_pay12 i) k2_pay13 p.tg)

/-- What the point at position `n` leaves: one step from the blocks there, started afresh at the first column step of
    a row block and from the point before otherwise. -/
def outsAt2 (c : Dev nD) : (n : ℕ) → n < cfg2.N → Outs2 F
  | 0, hn => step2 (grid2.coords ⟨0, hn⟩) (iblk2 V c 0 ⟨0, hn⟩) (iblk2 V c 1 ⟨0, hn⟩) init2
  | n + 1, hn => step2 (grid2.coords ⟨n + 1, hn⟩) (iblk2 V c 0 ⟨n + 1, hn⟩) (iblk2 V c 1 ⟨n + 1, hn⟩)
      (if (n + 1) % 8 = 0 then init2 else outsAt2 c n (Nat.lt_of_succ_lt hn))

/-- At a first column step: one step from the fresh columns. -/
theorem outsAt2_first (c : Dev nD) (t : Fin cfg2.N) (h0 : t.val % 8 = 0) :
    outsAt2 V c t.val t.isLt = step2 (grid2.coords t) (iblk2 V c 0 t) (iblk2 V c 1 t) init2 := by
  obtain ⟨n, hn⟩ := t
  cases n with
  | zero => rfl
  | succ n => show step2 _ _ _ (if (n + 1) % 8 = 0 then init2 else _) = _; rw [if_pos h0]

/-- At any other column step: one step from what the point before left. -/
theorem outsAt2_next (c : Dev nD) (t : Fin cfg2.N) (h0 : ¬t.val % 8 = 0) :
    outsAt2 V c t.val t.isLt = step2 (grid2.coords t) (iblk2 V c 0 t) (iblk2 V c 1 t)
      (outsAt2 V c (t.val - 1) (Nat.lt_of_le_of_lt (Nat.sub_le _ _) t.isLt)) := by
  obtain ⟨n, hn⟩ := t
  cases n with
  | zero => exact absurd (Nat.zero_mod _) h0
  | succ n => show step2 _ _ _ (if (n + 1) % 8 = 0 then init2 else _) = _; rw [if_neg h0]; rfl

/-! ## Reading a whole-rectangle store back -/

theorem hz0 : (![0, 0] : Fin 2 → ℕ) = fun _ => 0 := by funext a; fin_cases a <;> rfl

/-- A store through the whole rectangle, last, covers the buffer. -/
theorem cover_one {S : Shape} {e : EltTy} (off : Fin S.rank → ℕ) (inb : ∀ a, off a + S.size a ≤ S.size a) (hoff : off = fun _ => 0)
    (p : S.Idx → Elt F e) (L : List (View.Piece (Elt F) S e)) :
    ∀ y : S.Idx, ∃ pc ∈ ((⟨Rect.unit off S.size inb, p⟩ : View.Piece (Elt F) S e) :: L), y ∈ pc.1.set := by
  subst hoff
  intro y
  refine ⟨_, List.mem_cons_self, ?_⟩
  rw [Rect.mem_set_unit]
  intro a
  exact ⟨Nat.zero_le _, by simpa using (y a).isLt⟩

/-! ## The invariant and the proof data -/

/-- The scoped rest with the three running columns owned at some contents: what the launch hands the region. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA; rw [scopedRest2_eq]; simp only [scM2_0, scM2_1, scM2_2, owns_whole]; try rfl

/-- The region's invariant before position `n`: before the first point every scoped buffer at anything; afterwards
    the three running columns at what the point before left in them, the other regions' staging buffers at anything. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c n hn).mx ∗ owns (c : Thread nD τ) scM2_1 fullShare (outsAt2 V c n hn).sm ∗ owns (c : Thread nD τ) scM2_2 fullShare (outsAt2 V c n hn).tg) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c n hn).mx ∗ owns (c : Thread nD τ) scM2_1 fullShare (outsAt2 V c n hn).sm ∗ owns (c : Thread nD τ) scM2_2 fullShare (outsAt2 V c n hn).tg) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c (n - 1) (by omega)).mx ∗ owns (c : Thread nD τ) scM2_1 fullShare (outsAt2 V c (n - 1) (by omega)).sm ∗ owns (c : Thread nD τ) scM2_2 fullShare (outsAt2 V c (n - 1) (by omega)).tg) ∗ (∃ r, prngReg c r)) := by
  cases n with
  | zero => exact absurd rfl hz
  | succ n => rfl

/-- The proof data of the third pipeline on core `c`. The two input windows read ONE array (the stacked normalized
    rows): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).tile
    | ⟨3, _⟩ => (outsAt2 V c t.val t.isLt).loss
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).tile := by dsimp only [dat2]
theorem after2_3 (c : Dev nD) (t : Fin cfg2.N) : (dat2 V c).after 3 t = (outsAt2 V c t.val t.isLt).loss := by dsimp only [dat2]

/-- Each input's current staging buffer holds its block at every point, fetched there or not: where it is not
    fetched its block index has not moved. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the scoped rest back, the running columns' contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HS0, HS1, HS2⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    isplitl [HS1]; · iexists _; iexact HS1
    iexists _; iexact HS2
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.KFrameR2A.lean ====
/- The third kernel's body run on whole staging buffers at a first column step. -/
import proofs.«127180_j53961969107141_2_alg».proof.Proof.KFrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first column step (the first conditional holds, the second does not): whatever the three running columns held, the body first stores −∞, 0 and 0 into them, then steps as at a middle column step from those; the per-row output is left as found. -/
theorem kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 x1 : Vec F S1024x1024 .bf16) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare (step2 i x0 x1 init2).tile ∗ owns (c : Thread nD τ) arg5 fullShare xi3
            ∗ owns (c : Thread nD τ) arg6 fullShare (step2 i x0 x1 init2).mx ∗ owns (c : Thread nD τ) arg7 fullShare (step2 i x0 x1 init2).sm ∗ owns (c : Thread nD τ) arg8 fullShare (step2 i x0 x1 init2).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%f3, %hf3, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; · ipureintro; exact harg5.read_unread _
    iexact H3
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.Kernel.Hand

end
-- ==== Proof.KFrameR2B.lean ====
/- The third kernel's body run on whole staging buffers at a middle column step. -/
import proofs.«127180_j53961969107141_2_alg».proof.Proof.KFrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column step (neither conditional holds): from the two input blocks and the three running columns as the step before left them, the body stores the tile and the three updated columns, and leaves the per-row output as it found it. -/
theorem kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 x1 : Vec F S1024x1024 .bf16) (p : Outs2 F) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3
        ∗ owns (c : Thread nD τ) arg6 fullShare p.mx ∗ owns (c : Thread nD τ) arg7 fullShare p.sm ∗ owns (c : Thread nD τ) arg8 fullShare p.tg
        ∗ (iprop(owns (c : Thread nD τ) arg2 fullShare x0 ∗ owns (c : Thread nD τ) arg3 fullShare x1 ∗ owns (c : Thread nD τ) arg4 fullShare (step2 i x0 x1 p).tile ∗ owns (c : Thread nD τ) arg5 fullShare xi3
            ∗ owns (c : Thread nD τ) arg6 fullShare (step2 i x0 x1 p).mx ∗ owns (c : Thread nD τ) arg7 fullShare (step2 i x0 x1 p).sm ∗ owns (c : Thread nD τ) arg8 fullShare (step2 i x0 x1 p).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg5.eq_unread hf3
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; · ipureintro; exact harg5.read_unread _
    iexact H3
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.Kernel.Hand

end
-- ==== Proof.KFrameR2C.lean ====
/- The third kernel's body run on whole staging buffers at a last column step. -/
import proofs.«127180_j53961969107141_2_alg».proof.Proof.KFrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A last column step (the second conditional holds, the first does not): the body steps as at a middle column step and then stores maximum + log sum − target into the per-row output. -/
theorem kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 x1 : Vec F S1024x1024 .bf16) (p : Outs2 F) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ owns (c : Thread nD τ) arg6 fullShare p.mx ∗ owns (c : Thread nD τ) arg7 fullShare p.sm ∗ owns (c : Thread nD τ) arg8 fullShare p.tg
        ∗ (iprop(owns (c : Thread nD τ) arg2 fullShare x0 ∗ owns (c : Thread nD τ) arg3 fullShare x1 ∗ owns (c : Thread nD τ) arg4 fullShare (step2 i x0 x1 p).tile ∗ owns (c : Thread nD τ) arg5 fullShare (step2 i x0 x1 p).loss
            ∗ owns (c : Thread nD τ) arg6 fullShare (step2 i x0 x1 p).mx ∗ owns (c : Thread nD τ) arg7 fullShare (step2 i x0 x1 p).sm ∗ owns (c : Thread nD τ) arg8 fullShare (step2 i x0 x1 p).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; swap; · iexact H3
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.Kernel.Hand

end
-- ==== Proof.KFrameR.lean ====
/- The third kernel's obligation at every grid point: the point's case is read off its position, the body's run
   for that case applies, and the invariant takes the three running columns back at what the point leaves. -/
import proofs.«127180_j53961969107141_2_alg».proof.Proof.KFrameR2A
import proofs.«127180_j53961969107141_2_alg».proof.Proof.KFrameR2B
import proofs.«127180_j53961969107141_2_alg».proof.Proof.KFrameR2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position modulo 8 says which case the point is
    in; the invariant hands the body the three running columns at what the point before left (at anything at the very
    first point) and takes them back at this point's; the per-row output rests, handed back as found, except at a last
    column step, where it is stored whole. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [outsAt2_first V c t h0]
    by_cases hz : t.val = 0
    ·
      rw [PhiS2_castSucc V c t, PhiS2_zero V c _ _ hz, PhiA2_eq]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_A c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    ·
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_A c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [outsAt2_next V c t h0]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, outsAt2_next V c t h0]
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_C c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_B c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrameRun.lean ====
/- The run of the whole program. @main is five items in order: the two row normalisations, the host operation that
   stacks their outputs, the third kernel, and the host operations that reduce its per-row output to the result.
   Below: what the core's unscoped buffers hold at each of the six boundaries (a fold from the launch memory), the
   arguments read back through that fold, each item as a segment entered from one boundary's contents and left at the
   next one's, and the run of the segments from the launch to the last boundary. -/
import proofs.«127180_j53961969107141_2_alg».proof.Proof.KFrameA
import proofs.«127180_j53961969107141_2_alg».proof.Proof.KFrameR
import proofs.«127180_j53961969107141_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Boundary 0, the launch: the memory the program is started on. -/
abbrev W0 : Dev nD → Valuation τ sig (Elt F) := fun c b => (s₀ m ρ).mem ((c : Dev nD), b)
/-- Boundary 0 read at the TensorCore's references: the contents the first kernel is entered at. -/
abbrev V0 : (c : Dev nD) → (b : Ref sig .tc) → Buf (Elt F) ((c : Thread nD τ).loc b) := fun c b => W0 m ρ c b
/-- Boundary 1, after the first kernel: its two arrays hold what its write-backs leave after the last grid point
    (the input as entered, the output every block written), every other buffer is as at boundary 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Boundary 1 read at the TensorCore's references: the contents the second kernel is entered at. -/
abbrev V1 : (c : Dev nD) → (b : Ref sig .tc) → Buf (Elt F) ((c : Thread nD τ).loc b) := fun c b => W1 m ρ c b
/-- Boundary 1 has the first kernel's arrays at their final contents -/
theorem hF0 (c : Dev nD) (w : Fin cfg0.W) : (dat0 (V0 m ρ) c).arrAt w cfg0.N = V1 m ρ c (Pipeline.arrRef spec0 w) :=
  (W1_arr m ρ c w).symm
/-- and agrees with boundary 0 at every other reference. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- Boundary 2, after the second kernel: its two arrays at their final contents, the rest as at boundary 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- Boundary 2 read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- Boundary 3, after the host operation stacking the two normalised arrays. -/
abbrev W3 : Dev nD → Valuation τ sig (Elt F) := fun c => StableHlo.after hostOps2 (W2 m ρ c)
/-- Boundary 3 read at the TensorCore's references: the contents the third kernel is entered at. -/
abbrev V3 : (c : Dev nD) → (b : Ref sig .tc) → Buf (Elt F) ((c : Thread nD τ).loc b) := fun c b => W3 m ρ c b
/-- Boundary 4, after the third kernel. Its two input windows read one array, which no write-back touches; its two
    output arrays are distinct buffers, each at what its write-backs leave after the last grid point. So the contents
    are boundary 3's updated at those two buffers. -/
def W4 (c : Dev nD) : Valuation τ sig (Elt F) :=
  Function.update (Function.update (W3 m ρ c) (Proc.devRef .tc main_v3_0) ((dat2 (V3 m ρ) c).arrAt 2 cfg2.N))
    (Proc.devRef .tc main_v3_1) ((dat2 (V3 m ρ) c).arrAt 3 cfg2.N)
theorem W4_v3_0 (c : Dev nD) : W4 m ρ c (Proc.devRef .tc main_v3_0) = (dat2 (V3 m ρ) c).arrAt 2 cfg2.N := by
  unfold W4
  rw [Function.update_of_ne (StableHlo.devRef_ne_of_ne (by decide : main_v3_0 ≠ main_v3_1)), Function.update_self]
theorem W4_v3_1 (c : Dev nD) : W4 m ρ c (Proc.devRef .tc main_v3_1) = (dat2 (V3 m ρ) c).arrAt 3 cfg2.N := by
  unfold W4; rw [Function.update_self]
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1), Function.update_of_ne (StableHlo.devRef_ne_of_ne h0)]
/-- Boundary 4 read at the TensorCore's references. -/
abbrev V4 : (c : Dev nD) → (b : Ref sig .tc) → Buf (Elt F) ((c : Thread nD τ).loc b) := fun c b => W4 m ρ c b
/-- Boundary 5, the return: after the host operations that follow the third kernel. -/
abbrev W5 : Dev nD → Valuation τ sig (Elt F) := fun c => StableHlo.after hostOps3 (W4 m ρ c)

/-! ### The arguments end as launched

No host operation writes an argument and no kernel has one as an output array (a kernel reads it through an input
window or does not touch it), so the fold at an argument's buffer walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide) (by decide)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide) (by decide)
    _ = W2 m ρ c (Proc.devRef .tc main_arg1) := StableHlo.after_of_writes_sub hostOps2 _ hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide) (by decide)
    _ = W2 m ρ c (Proc.devRef .tc main_arg2) := StableHlo.after_of_writes_sub hostOps2 _ hostOps2_writes (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-! ## The proof data of the three pipelines and what rides beside the buffers -/

/-- No pipeline has a prefetched table. -/
abbrev adm : (p : Fin 3) → (pcfgs (F := F) p).Adm := fun p => (cfgs p).toPCfg_adm
/-- Each pipeline's proof data at the contents its kernel is entered at: boundaries 0, 1 and 3. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over all the unscoped buffers: entered at the contents `W`, left at
    `StableHlo.after ops (W c)`, `R` unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at boundary 5's contents and the generator register. -/
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- The first kernel, from boundary 0 to boundary 1. At entry its two arrays are split out of the unscoped buffers
    and the rest bypasses the region; the generator register goes into the region's invariant and comes back; at exit
    the arrays, at their final contents, rejoin the rest as the unscoped buffers at boundary 1's contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel, from boundary 1 to boundary 2, by the same steps. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third kernel's arrays among the unscoped buffers

Its four windows name three buffers: the stacked array, read by both input windows, and the two output arrays. -/

/-- The buffers behind the third kernel's arrays. -/
theorem arrImage2 : Finset.univ.image (Pipeline.arrRef spec2) = ({main_v2, main_v3_0, main_v3_1} : Finset (Ref sig .tc)) := by decide

/-- The pipeline's arrays at contents `G`, window by window: the stacked array's left half share at the first input
    window's contents and its right half at the second's, each output array whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v2) ↦{fullShare.left} G 0) ∗ (((c : Thread nD τ).loc main_v2) ↦{fullShare.right} G 1)
          ∗ (((c : Thread nD τ).loc main_v3_0) ↦{fullShare} G 2) ∗ (((c : Thread nD τ).loc main_v3_1) ↦{fullShare} G 3)) := by
  unfold Pipeline.Dat.arrays
  rw [bigSep_W2, (arr_whole2 0).set_eq_univ, (arr_whole2 2).set_eq_univ, (arr_whole2 3).set_eq_univ]
  rfl

/-- The three buffers, each whole at contents `V`, one by one. -/
theorem arrBufs2_eq (c : Dev nD) (V : (b : Ref sig .tc) → Buf (Elt F) ((c : Thread nD τ).loc b)) :
    (Pipeline.arrBufs spec2 c V : sProp 𝕄)
      = iprop((((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs
  rw [arrImage2, bigSep_insert (by decide), bigSep_insert (by decide), bigSep_singleton]
  rfl

/-- ENTRY. The three buffers whole at boundary 3's contents make the pipeline's arrays at their entry contents: the
    stacked array's full share splits into its two halves, one per input window, both at the same contents. -/
theorem arrays2_entry (c : Dev nD) :
    (Pipeline.arrBufs spec2 c (V3 m ρ c) : sProp 𝕄) ⊢ (dat2 (V3 m ρ) c).arrays ((dat2 (V3 m ρ) c).arrAt · 0) := by
  rw [arrays2_eq, arrBufs2_eq]
  iintro ⟨H2, H30, H31⟩
  ihave H2 := (pointsTo_share (PosShare.mem_left_op_right fullShare)).1 $$ H2
  icases H2 with ⟨H2l, H2r⟩
  isplitl [H2l]; · iexact H2l
  isplitl [H2r]; · iexact H2r
  isplitl [H30]; · iexact H30
  iexact H31

/-- What the third kernel leaves in its arrays is what boundary 4 holds at their buffers: an input window's array is
    never written, so both input windows end at the stacked array as entered, which boundary 4 keeps; each output
    array ends at its last write-back's contents, which is boundary 4's update there. -/
theorem arrAt2_0 (c : Dev nD) : (dat2 (V3 m ρ) c).arrAt 0 cfg2.N = V4 m ρ c main_v2 :=
  ((dat2 (V3 m ρ) c).arrAt_in 0 rfl _).trans ((A_eq2 (V3 m ρ) c 0).trans (W4_of_ne m ρ c main_v2 (by decide) (by decide)).symm)
theorem arrAt2_1 (c : Dev nD) : (dat2 (V3 m ρ) c).arrAt 1 cfg2.N = V4 m ρ c main_v2 :=
  ((dat2 (V3 m ρ) c).arrAt_in 1 rfl _).trans ((A_eq2 (V3 m ρ) c 1).trans (W4_of_ne m ρ c main_v2 (by decide) (by decide)).symm)

/-- EXIT. The pipeline's arrays at their final contents are the three buffers whole at boundary 4's contents: the two
    halves of the stacked array, at the same contents, rejoin to its full share. -/
theorem arrays2_exit (c : Dev nD) :
    ((dat2 (V3 m ρ) c).arrays ((dat2 (V3 m ρ) c).arrAt · cfg2.N) : sProp 𝕄) ⊢ Pipeline.arrBufs spec2 c (V4 m ρ c) := by
  rw [arrays2_eq, arrBufs2_eq, arrAt2_0, arrAt2_1, ← W4_v3_0, ← W4_v3_1]
  iintro ⟨H2l, H2r, H30, H31⟩
  ihave H2 := (pointsTo_share (PosShare.mem_left_op_right fullShare)).2 $$ [H2l H2r]
  · isplitl [H2l] <;> iassumption
  isplitl [H2]; · iexact H2
  isplitl [H30]; · iexact H30
  iexact H31

/-- Off those three buffers boundary 4 agrees with boundary 3. -/
theorem unscopedRest2_congr (c : Dev nD) :
    (Pipeline.unscopedRest spec2 c (V4 m ρ c) : sProp 𝕄) = Pipeline.unscopedRest spec2 c (V3 m ρ c) := by
  unfold Pipeline.unscopedRest
  refine bigSep_congr fun b hb => ?_
  have hb' := (Finset.mem_sdiff.mp hb).2
  rw [arrImage2] at hb'
  rw [show V4 m ρ c b = V3 m ρ c b from
    W4_of_ne m ρ c b (fun e => hb' (by subst e; decide)) (fun e => hb' (by subst e; decide))]

set_option backward.isDefEq.respectTransparency.types false in
/-- The third kernel, from boundary 3 to boundary 4. At entry the three buffers behind its arrays are split out of the
    unscoped buffers and made its arrays (`arrays2_entry`), the rest bypasses the region; the generator register goes
    into the region's invariant before the first point and comes back from the invariant after the last; at exit the
    arrays give the three buffers back at boundary 4's contents (`arrays2_exit`), which rejoin the rest, unchanged
    between the two boundaries (`unscopedRest2_congr`). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit : (unscopedBufs c (V3 m ρ c) : sProp 𝕄)
        = iprop(Pipeline.arrBufs spec2 c (V3 m ρ c) ∗ Pipeline.unscopedRest spec2 c (V3 m ρ c)) :=
      Pipeline.unscopedBufs_split₀ cfgs 2 winFacts₀2.arr_unscoped c (V3 m ρ c)
    rw [Pipeline.unscopedBufs_held] at hsplit
    iintro ⟨⟨Hub, Hp, HO⟩, -, -⟩
    ihave H := (Entails.of_eq hsplit) $$ Hub
    icases H with ⟨Ha, Hrest⟩
    ihave Ha := (arrays2_entry m ρ c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    rw [Pipeline.ownSems0_none]
    refine BIBase.Entails.trans (hout2 (V3 m ρ) c) ?_
    unfold Pipeline.ΦA
    iintro ⟨Hr, Hp⟩
    isplitl [Hp]; · iexact Hp
    isplitr; · iempintro
    iexact Hr
  hexit c := by
    have hjoin : (unscopedBufs c (V4 m ρ c) : sProp 𝕄)
        = iprop(Pipeline.arrBufs spec2 c (V4 m ρ c) ∗ Pipeline.unscopedRest spec2 c (V4 m ρ c)) :=
      Pipeline.unscopedBufs_split₀ cfgs 2 winFacts₀2.arr_unscoped c (V4 m ρ c)
    rw [Pipeline.unscopedBufs_held, unscopedRest2_congr] at hjoin
    iintro ⟨Ha, HO, HY, Hrest⟩
    ihave Ha := (show ((pdats m ρ 2 c).arrays (fun w => (pdats m ρ 2 c).arrAt w (Pipeline.pin (pcfgs (F := F)) adm 2).N) : sProp 𝕄)
        ⊢ Pipeline.arrBufs spec2 c (V4 m ρ c) from arrays2_exit m ρ c) $$ Ha
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- @main is the run of those segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final memory holds, at each unscoped buffer of each core, boundary 5's contents: each
    segment is entered from the thread state the one before it left, the launch makes the first, and the last is read
    against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME. Every weakly fair execution of @main terminates, nothing faulting, and the three argument arrays end as
    launched: each is an unscoped buffer, which the run leaves at boundary 5's contents, and those are the launch
    memory's there. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.FrameA.lean ====
import proofs.«127180_j53961969107141_2_alg».proof.Proof.Gen.KernelIdeal.Launch
import proofs.«127180_j53961969107141_2_alg».proof.Proof.Gen.KernelIdeal.Skeleton
import proofs.«127180_j53961969107141_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two row-normalisation regions of the program, each at an arbitrary entry memory `V`:
    the block a window shows at a grid point, the buffer the body leaves in the output window,
    the body's triple, the pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: the row normalisation `cc0__normalize_kernel`, entered at memory `V` -/

/-- The block window `w` shows at grid point `t`, read from the window's array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For any proof data whose input array is `V`'s and whose body leaves the input block in place,
    the input window's staging buffer holds the block of point `t` when the body starts there:
    the window is fetched whole at every point and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×1024 block as a rectangle: the one rectangle the body loads and stores. -/
abbrev r0_0 : Rect S1024x1024 := Rect.unit (s := S1024x1024) ![0, 0] S1024x1024.size inb_S1024x1024_S1024x1024_0_0

/-- The output window's buffer after the body, as a function of the input block `x0`: the single
    store of the normalised, rounded block over the whole rectangle. -/
def out0_1 (x0 : Vec F S1024x1024 .f32) : Vec F S1024x1024 .bf16 :=
  View.canon [⟨r0_0, k0_pay1 (View.ld x0 r0_0)⟩]

/-- The single stored rectangle is the whole block, so every index of the buffer lies in it. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging memrefs: with the input's at `x0` and the output's at anything, it
    runs to a state where the input's is still `x0` and the output's is `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: arrays as in `V`; after the body at point
    `t` the input buffer holds its block and the output buffer `out0_1` of it; the invariant keeps
    the rest of the core untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves in the input window: its block. -/
theorem after0_0 (c : Dev nD) (t : Fin cfg0.N) : (dat0 V c).after 0 t = iblk0 V c 0 t := by dsimp only [dat0]
/-- What the body leaves in the output window: `out0_1` of the input block. -/
theorem after0_1 (c : Dev nD) (t : Fin cfg0.N) : (dat0 V c).after 1 t = out0_1 (iblk0 V c 0 t) := by dsimp only [dat0]

/-- The input window's staging buffer holds the block of point `t` when the body starts there. -/
theorem before0_0 (c : Dev nD) (t : Fin cfg0.N) (d) : (dat0 V c).before 0 t d = iblk0 V c 0 t :=
  before0_0_of V (dat0 V c) (A_eq0 V c 0) (after0_0 V c) t d

/-- The body's precondition at point `t`, the two windows written out. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- The body's postcondition at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: its input memref holds the point's block, so `sound_kernel0` applies;
    the invariant and the owed amount are carried through unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row normalisation `cc1__normalize_kernel`, entered at memory `V` -/

/-- The block window `w` shows at grid point `t`, read from the window's array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- For any proof data whose input array is `V`'s and whose body leaves the input block in place,
    the input window's staging buffer holds the block of point `t` when the body starts there:
    the window is fetched whole at every point and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block as a rectangle: the one rectangle the body loads and stores. -/
abbrev r1_0 : Rect S1024x1024 := Rect.unit (s := S1024x1024) ![0, 0] S1024x1024.size inb_S1024x1024_S1024x1024_0_0

/-- The output window's buffer after the body, as a function of the input block `x0`: the single
    store of the normalised, rounded block over the whole rectangle. -/
def out1_1 (x0 : Vec F S1024x1024 .f32) : Vec F S1024x1024 .bf16 :=
  View.canon [⟨r1_0, k1_pay1 (View.ld x0 r1_0)⟩]

/-- The single stored rectangle is the whole block, so every index of the buffer lies in it. -/
theorem cover1_1 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
/-- The body on whole staging memrefs: with the input's at `x0` and the output's at anything, it
    runs to a state where the input's is still `x0` and the output's is `out1_1 x0`. -/
theorem sound_kernel1 (c : Dev nD) (E : Set ℕ) (i : grid1.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the region's pipeline on core `c`: arrays as in `V`; after the body at point
    `t` the input buffer holds its block and the output buffer `out1_1` of it; the invariant keeps
    the rest of the core untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves in the input window: its block. -/
theorem after1_0 (c : Dev nD) (t : Fin cfg1.N) : (dat1 V c).after 0 t = iblk1 V c 0 t := by dsimp only [dat1]
/-- What the body leaves in the output window: `out1_1` of the input block. -/
theorem after1_1 (c : Dev nD) (t : Fin cfg1.N) : (dat1 V c).after 1 t = out1_1 (iblk1 V c 0 t) := by dsimp only [dat1]

/-- The input window's staging buffer holds the block of point `t` when the body starts there. -/
theorem before1_0 (c : Dev nD) (t : Fin cfg1.N) (d) : (dat1 V c).before 0 t d = iblk1 V c 0 t :=
  before1_0_of V (dat1 V c) (A_eq1 V c 0) (after1_0 V c) t d

/-- The body's precondition at point `t`, the two windows written out. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- The body's postcondition at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: its input memref holds the point's block, so `sound_kernel1` applies;
    the invariant and the owed amount are carried through unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameR0.lean ====
/- The third kernel (a tile of scaled similarities per grid point; a running maximum, a running rescaled sum and a
   running target entry per row carried across the column steps): its windows' blocks, its two conditionals over the
   grid, what each point leaves, the invariant that carries the three running columns, and its proof data. -/
import proofs.«127180_j53961969107141_2_alg».proof.Proof.Gen.KernelIdeal.Launch
import proofs.«127180_j53961969107141_2_alg».proof.Proof.Gen.KernelIdeal.Skeleton
import proofs.«127180_j53961969107141_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three running columns, whole scoped buffers of the kernel's own. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1 .f32 := Memref.whole cc2_scratch2

/-! ## The body's two conditionals over the 8 × 8 grid -/

/-- The first conditional: the column step is the first one. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the column step is the last one. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- No input and not the first output ever rests; the per-row output rests except at the last column step, and is
    written back only there. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## What a point leaves -/

/-- What point `n` leaves: the tile, the per-row output's buffer, and the three running columns (maximum, rescaled
    sum, target entry). -/
structure Outs2 (F : FTy → Type) [FloatOps F] where
  tile : Vec F S1024x1024 .f32
  loss : Vec F S1024x1 .f32
  mx : Vec F S1024x1 .f32
  sm : Vec F S1024x1 .f32
  tg : Vec F S1024x1 .f32

/-- What a row block's first column step finds, in effect: it stores −∞, 0 and 0 into the three running columns
    before reading them. -/
def init2 : Outs2 F := { tile := k2_pay13, loss := k2_pay7, mx := k2_pay6, sm := k2_pay7, tg := k2_pay8 }

/-- One column step from the two input blocks and the running columns `p`: the tile of scaled similarities with the
    diagonal pushed down; the running maximum taking in the tile's row maxima; the running sum rescaled to the new
    maximum plus the tile's row sums of exponentials; the running target entry plus the tile's masked row sums; and
    what the last step stores in the per-row output, maximum + log sum − target. -/
def step2 (i : grid2.Coords) (x0 x1 : Vec F S1024x1024 .bf16) (p : Outs2 F) : Outs2 F where
  tile := k2_pay11 i x0 x1
  mx := k2_pay3 (k2_pay11 i x0 x1) p.mx
  sm := k2_pay2 (k2_pay11 i x0 x1) p.mx p.sm p.mx
  tg := k2_pay4 (k2_pay11 i x0 x1) (k2_pay12 i) k2_pay13 p.tg
  loss := k2_pay5 (k2_pay3 (k2_pay11 i x0 x1) p.mx) (k2_pay2 (k2_pay11 i x0 x1) p.mx p.sm p.mx) (k2_pay4 (k2_pay11 i x0 x1) (k2_pay12 i) k2_pay13 p.tg)

/-- What the point at position `n` leaves: one step from the blocks there, started afresh at the first column step of
    a row block and from the point before otherwise. -/
def outsAt2 (c : Dev nD) : (n : ℕ) → n < cfg2.N → Outs2 F
  | 0, hn => step2 (grid2.coords ⟨0, hn⟩) (iblk2 V c 0 ⟨0, hn⟩) (iblk2 V c 1 ⟨0, hn⟩) init2
  | n + 1, hn => step2 (grid2.coords ⟨n + 1, hn⟩) (iblk2 V c 0 ⟨n + 1, hn⟩) (iblk2 V c 1 ⟨n + 1, hn⟩)
      (if (n + 1) % 8 = 0 then init2 else outsAt2 c n (Nat.lt_of_succ_lt hn))

/-- At a first column step: one step from the fresh columns. -/
theorem outsAt2_first (c : Dev nD) (t : Fin cfg2.N) (h0 : t.val % 8 = 0) :
    outsAt2 V c t.val t.isLt = step2 (grid2.coords t) (iblk2 V c 0 t) (iblk2 V c 1 t) init2 := by
  obtain ⟨n, hn⟩ := t
  cases n with
  | zero => rfl
  | succ n => show step2 _ _ _ (if (n + 1) % 8 = 0 then init2 else _) = _; rw [if_pos h0]

/-- At any other column step: one step from what the point before left. -/
theorem outsAt2_next (c : Dev nD) (t : Fin cfg2.N) (h0 : ¬t.val % 8 = 0) :
    outsAt2 V c t.val t.isLt = step2 (grid2.coords t) (iblk2 V c 0 t) (iblk2 V c 1 t)
      (outsAt2 V c (t.val - 1) (Nat.lt_of_le_of_lt (Nat.sub_le _ _) t.isLt)) := by
  obtain ⟨n, hn⟩ := t
  cases n with
  | zero => exact absurd (Nat.zero_mod _) h0
  | succ n => show step2 _ _ _ (if (n + 1) % 8 = 0 then init2 else _) = _; rw [if_neg h0]; rfl

/-! ## Reading a whole-rectangle store back -/

theorem hz0 : (![0, 0] : Fin 2 → ℕ) = fun _ => 0 := by funext a; fin_cases a <;> rfl

/-- A store through the whole rectangle, last, covers the buffer. -/
theorem cover_one {S : Shape} {e : EltTy} (off : Fin S.rank → ℕ) (inb : ∀ a, off a + S.size a ≤ S.size a) (hoff : off = fun _ => 0)
    (p : S.Idx → Elt F e) (L : List (View.Piece (Elt F) S e)) :
    ∀ y : S.Idx, ∃ pc ∈ ((⟨Rect.unit off S.size inb, p⟩ : View.Piece (Elt F) S e) :: L), y ∈ pc.1.set := by
  subst hoff
  intro y
  refine ⟨_, List.mem_cons_self, ?_⟩
  rw [Rect.mem_set_unit]
  intro a
  exact ⟨Nat.zero_le _, by simpa using (y a).isLt⟩

/-! ## The invariant and the proof data -/

/-- The scoped rest with the three running columns owned at some contents: what the launch hands the region. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA; rw [scopedRest2_eq]; simp only [scM2_0, scM2_1, scM2_2, owns_whole]; try rfl

/-- The region's invariant before position `n`: before the first point every scoped buffer at anything; afterwards
    the three running columns at what the point before left in them, the other regions' staging buffers at anything. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c n hn).mx ∗ owns (c : Thread nD τ) scM2_1 fullShare (outsAt2 V c n hn).sm ∗ owns (c : Thread nD τ) scM2_2 fullShare (outsAt2 V c n hn).tg) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c n hn).mx ∗ owns (c : Thread nD τ) scM2_1 fullShare (outsAt2 V c n hn).sm ∗ owns (c : Thread nD τ) scM2_2 fullShare (outsAt2 V c n hn).tg) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare (outsAt2 V c (n - 1) (by omega)).mx ∗ owns (c : Thread nD τ) scM2_1 fullShare (outsAt2 V c (n - 1) (by omega)).sm ∗ owns (c : Thread nD τ) scM2_2 fullShare (outsAt2 V c (n - 1) (by omega)).tg) ∗ (∃ r, prngReg c r)) := by
  cases n with
  | zero => exact absurd rfl hz
  | succ n => rfl

/-- The proof data of the third pipeline on core `c`. The two input windows read ONE array (the stacked normalized
    rows): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).tile
    | ⟨3, _⟩ => (outsAt2 V c t.val t.isLt).loss
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).tile := by dsimp only [dat2]
theorem after2_3 (c : Dev nD) (t : Fin cfg2.N) : (dat2 V c).after 3 t = (outsAt2 V c t.val t.isLt).loss := by dsimp only [dat2]

/-- Each input's current staging buffer holds its block at every point, fetched there or not: where it is not
    fetched its block index has not moved. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the scoped rest back, the running columns' contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HS0, HS1, HS2⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    isplitl [HS1]; · iexists _; iexact HS1
    iexists _; iexact HS2
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.FrameR2A.lean ====
/- The third kernel's body run on whole staging buffers at a first column step. -/
import proofs.«127180_j53961969107141_2_alg».proof.Proof.FrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A first column step (the first conditional holds, the second does not): whatever the three running columns held, the body first stores −∞, 0 and 0 into them, then steps as at a middle column step from those; the per-row output is left as found. -/
theorem kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 x1 : Vec F S1024x1024 .bf16) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare (step2 i x0 x1 init2).tile ∗ owns (c : Thread nD τ) arg5 fullShare xi3
            ∗ owns (c : Thread nD τ) arg6 fullShare (step2 i x0 x1 init2).mx ∗ owns (c : Thread nD τ) arg7 fullShare (step2 i x0 x1 init2).sm ∗ owns (c : Thread nD τ) arg8 fullShare (step2 i x0 x1 init2).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%f3, %hf3, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; · ipureintro; exact harg5.read_unread _
    iexact H3
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.KernelIdeal.Hand

end
-- ==== Proof.FrameR2B.lean ====
/- The third kernel's body run on whole staging buffers at a middle column step. -/
import proofs.«127180_j53961969107141_2_alg».proof.Proof.FrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A middle column step (neither conditional holds): from the two input blocks and the three running columns as the step before left them, the body stores the tile and the three updated columns, and leaves the per-row output as it found it. -/
theorem kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 x1 : Vec F S1024x1024 .bf16) (p : Outs2 F) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3
        ∗ owns (c : Thread nD τ) arg6 fullShare p.mx ∗ owns (c : Thread nD τ) arg7 fullShare p.sm ∗ owns (c : Thread nD τ) arg8 fullShare p.tg
        ∗ (iprop(owns (c : Thread nD τ) arg2 fullShare x0 ∗ owns (c : Thread nD τ) arg3 fullShare x1 ∗ owns (c : Thread nD τ) arg4 fullShare (step2 i x0 x1 p).tile ∗ owns (c : Thread nD τ) arg5 fullShare xi3
            ∗ owns (c : Thread nD τ) arg6 fullShare (step2 i x0 x1 p).mx ∗ owns (c : Thread nD τ) arg7 fullShare (step2 i x0 x1 p).sm ∗ owns (c : Thread nD τ) arg8 fullShare (step2 i x0 x1 p).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg5.eq_unread hf3
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; · ipureintro; exact harg5.read_unread _
    iexact H3
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.KernelIdeal.Hand

end
-- ==== Proof.FrameR2C.lean ====
/- The third kernel's body run on whole staging buffers at a last column step. -/
import proofs.«127180_j53961969107141_2_alg».proof.Proof.FrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A last column step (the second conditional holds, the first does not): the body steps as at a middle column step and then stores maximum + log sum − target into the per-row output. -/
theorem kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 x1 : Vec F S1024x1024 .bf16) (p : Outs2 F) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ owns (c : Thread nD τ) arg6 fullShare p.mx ∗ owns (c : Thread nD τ) arg7 fullShare p.sm ∗ owns (c : Thread nD τ) arg8 fullShare p.tg
        ∗ (iprop(owns (c : Thread nD τ) arg2 fullShare x0 ∗ owns (c : Thread nD τ) arg3 fullShare x1 ∗ owns (c : Thread nD τ) arg4 fullShare (step2 i x0 x1 p).tile ∗ owns (c : Thread nD τ) arg5 fullShare (step2 i x0 x1 p).loss
            ∗ owns (c : Thread nD τ) arg6 fullShare (step2 i x0 x1 p).mx ∗ owns (c : Thread nD τ) arg7 fullShare (step2 i x0 x1 p).sm ∗ owns (c : Thread nD τ) arg8 fullShare (step2 i x0 x1 p).tg) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel; simp only [k2_part1_eq_skeleton]; unfold k2_part1_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    rw [View.read_writes_eq_canon _ _ _ (cover_one (S := S1024x1024) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [H3]
  · iexists _; isplitr; swap; · iexact H3
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS0]
  · iexists _; isplitr; swap; · iexact HS0
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  isplitl [HS1]
  · iexists _; isplitr; swap; · iexact HS1
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl
  · iexists _; isplitr; swap; · iexact HS2
    ipureintro
    sl_unfold_run_names
    rw [View.read_writes_eq_canon _ _ _ (cover_one (S := S1024x1) _ _ hz0 _ _)]
    sl_unfold_run_names
    simp only [View.canon_cons_unit_zero (S := S1024x1024) hz0, View.canon_cons_unit_zero (S := S1024x1) hz0, View.canon_unit_zero (S := S1024x1024) hz0, View.canon_unit_zero (S := S1024x1) hz0, View.readAt_eq_ld, Memref.IsWhole.read_unread, View.ld_unit_zero (S := S1024x1024) hz0, View.ld_unit_zero (S := S1024x1) hz0, View.readCov_unit_zero (S := S1024x1) _ hz0, step2, init2]
    try rfl

end Cert.KernelIdeal.Hand

end
-- ==== Proof.FrameR.lean ====
/- The third kernel's obligation at every grid point: the point's case is read off its position, the body's run
   for that case applies, and the invariant takes the three running columns back at what the point leaves. -/
import proofs.«127180_j53961969107141_2_alg».proof.Proof.FrameR2A
import proofs.«127180_j53961969107141_2_alg».proof.Proof.FrameR2B
import proofs.«127180_j53961969107141_2_alg».proof.Proof.FrameR2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position modulo 8 says which case the point is
    in; the invariant hands the body the three running columns at what the point before left (at anything at the very
    first point) and takes them back at this point's; the per-row output rests, handed back as found, except at a last
    column step, where it is stored whole. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [outsAt2_first V c t h0]
    by_cases hz : t.val = 0
    ·
      rw [PhiS2_castSucc V c t, PhiS2_zero V c _ _ hz, PhiA2_eq]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_A c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    ·
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_A c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [outsAt2_next V c t h0]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, outsAt2_next V c t h0]
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_C c (grid2.coords t) _ _ _ _ _ _ _ _ _ _ _ _ _ _ hc0 hc1 (iblk2 V c 0 t) (iblk2 V c 1 t) _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      rw [PhiS2_castSucc V c t, PhiS2_pos V c _ _ hz]
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
      iapply (kernelRun2_B c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [HR0 HR1 HR2 HR3 HR4 HR5 HR6 HR7 HS0 HS1 HS2 Hg]
      · isplitr [Hg]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameRun.lean ====
/- The run of the whole program. @main is five items in order: the two row normalisations, the host operation that
   stacks their outputs, the third kernel, and the host operations that reduce its per-row output to the result.
   Below: what the core's unscoped buffers hold at each of the six boundaries (a fold from the launch memory), the
   arguments read back through that fold, each item as a segment entered from one boundary's contents and left at the
   next one's, and the run of the segments from the launch to the last boundary. -/
import proofs.«127180_j53961969107141_2_alg».proof.Proof.FrameA
import proofs.«127180_j53961969107141_2_alg».proof.Proof.FrameR
import proofs.«127180_j53961969107141_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Boundary 0, the launch: the memory the program is started on. -/
abbrev W0 : Dev nD → Valuation τ sig (Elt F) := fun c b => (s₀ m ρ).mem ((c : Dev nD), b)
/-- Boundary 0 read at the TensorCore's references: the contents the first kernel is entered at. -/
abbrev V0 : (c : Dev nD) → (b : Ref sig .tc) → Buf (Elt F) ((c : Thread nD τ).loc b) := fun c b => W0 m ρ c b
/-- Boundary 1, after the first kernel: its two arrays hold what its write-backs leave after the last grid point
    (the input as entered, the output every block written), every other buffer is as at boundary 0. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Boundary 1 read at the TensorCore's references: the contents the second kernel is entered at. -/
abbrev V1 : (c : Dev nD) → (b : Ref sig .tc) → Buf (Elt F) ((c : Thread nD τ).loc b) := fun c b => W1 m ρ c b
/-- Boundary 1 has the first kernel's arrays at their final contents -/
theorem hF0 (c : Dev nD) (w : Fin cfg0.W) : (dat0 (V0 m ρ) c).arrAt w cfg0.N = V1 m ρ c (Pipeline.arrRef spec0 w) :=
  (W1_arr m ρ c w).symm
/-- and agrees with boundary 0 at every other reference. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- Boundary 2, after the second kernel: its two arrays at their final contents, the rest as at boundary 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- Boundary 2 read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- Boundary 3, after the host operation stacking the two normalised arrays. -/
abbrev W3 : Dev nD → Valuation τ sig (Elt F) := fun c => StableHlo.after hostOps2 (W2 m ρ c)
/-- Boundary 3 read at the TensorCore's references: the contents the third kernel is entered at. -/
abbrev V3 : (c : Dev nD) → (b : Ref sig .tc) → Buf (Elt F) ((c : Thread nD τ).loc b) := fun c b => W3 m ρ c b
/-- Boundary 4, after the third kernel. Its two input windows read one array, which no write-back touches; its two
    output arrays are distinct buffers, each at what its write-backs leave after the last grid point. So the contents
    are boundary 3's updated at those two buffers. -/
def W4 (c : Dev nD) : Valuation τ sig (Elt F) :=
  Function.update (Function.update (W3 m ρ c) (Proc.devRef .tc main_v3_0) ((dat2 (V3 m ρ) c).arrAt 2 cfg2.N))
    (Proc.devRef .tc main_v3_1) ((dat2 (V3 m ρ) c).arrAt 3 cfg2.N)
theorem W4_v3_0 (c : Dev nD) : W4 m ρ c (Proc.devRef .tc main_v3_0) = (dat2 (V3 m ρ) c).arrAt 2 cfg2.N := by
  unfold W4
  rw [Function.update_of_ne (StableHlo.devRef_ne_of_ne (by decide : main_v3_0 ≠ main_v3_1)), Function.update_self]
theorem W4_v3_1 (c : Dev nD) : W4 m ρ c (Proc.devRef .tc main_v3_1) = (dat2 (V3 m ρ) c).arrAt 3 cfg2.N := by
  unfold W4; rw [Function.update_self]
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1), Function.update_of_ne (StableHlo.devRef_ne_of_ne h0)]
/-- Boundary 4 read at the TensorCore's references. -/
abbrev V4 : (c : Dev nD) → (b : Ref sig .tc) → Buf (Elt F) ((c : Thread nD τ).loc b) := fun c b => W4 m ρ c b
/-- Boundary 5, the return: after the host operations that follow the third kernel. -/
abbrev W5 : Dev nD → Valuation τ sig (Elt F) := fun c => StableHlo.after hostOps3 (W4 m ρ c)

/-! ### The arguments end as launched

No host operation writes an argument and no kernel has one as an output array (a kernel reads it through an input
window or does not touch it), so the fold at an argument's buffer walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide) (by decide)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide) (by decide)
    _ = W2 m ρ c (Proc.devRef .tc main_arg1) := StableHlo.after_of_writes_sub hostOps2 _ hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide) (by decide)
    _ = W2 m ρ c (Proc.devRef .tc main_arg2) := StableHlo.after_of_writes_sub hostOps2 _ hostOps2_writes (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-! ## The proof data of the three pipelines and what rides beside the buffers -/

/-- No pipeline has a prefetched table. -/
abbrev adm : (p : Fin 3) → (pcfgs (F := F) p).Adm := fun p => (cfgs p).toPCfg_adm
/-- Each pipeline's proof data at the contents its kernel is entered at: boundaries 0, 1 and 3. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over all the unscoped buffers: entered at the contents `W`, left at
    `StableHlo.after ops (W c)`, `R` unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at boundary 5's contents and the generator register. -/
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- The first kernel, from boundary 0 to boundary 1. At entry its two arrays are split out of the unscoped buffers
    and the rest bypasses the region; the generator register goes into the region's invariant and comes back; at exit
    the arrays, at their final contents, rejoin the rest as the unscoped buffers at boundary 1's contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel, from boundary 1 to boundary 2, by the same steps. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third kernel's arrays among the unscoped buffers

Its four windows name three buffers: the stacked array, read by both input windows, and the two output arrays. -/

/-- The buffers behind the third kernel's arrays. -/
theorem arrImage2 : Finset.univ.image (Pipeline.arrRef spec2) = ({main_v2, main_v3_0, main_v3_1} : Finset (Ref sig .tc)) := by decide

/-- The pipeline's arrays at contents `G`, window by window: the stacked array's left half share at the first input
    window's contents and its right half at the second's, each output array whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v2) ↦{fullShare.left} G 0) ∗ (((c : Thread nD τ).loc main_v2) ↦{fullShare.right} G 1)
          ∗ (((c : Thread nD τ).loc main_v3_0) ↦{fullShare} G 2) ∗ (((c : Thread nD τ).loc main_v3_1) ↦{fullShare} G 3)) := by
  unfold Pipeline.Dat.arrays
  rw [bigSep_W2, (arr_whole2 0).set_eq_univ, (arr_whole2 2).set_eq_univ, (arr_whole2 3).set_eq_univ]
  rfl

/-- The three buffers, each whole at contents `V`, one by one. -/
theorem arrBufs2_eq (c : Dev nD) (V : (b : Ref sig .tc) → Buf (Elt F) ((c : Thread nD τ).loc b)) :
    (Pipeline.arrBufs spec2 c V : sProp 𝕄)
      = iprop((((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs
  rw [arrImage2, bigSep_insert (by decide), bigSep_insert (by decide), bigSep_singleton]
  rfl

/-- ENTRY. The three buffers whole at boundary 3's contents make the pipeline's arrays at their entry contents: the
    stacked array's full share splits into its two halves, one per input window, both at the same contents. -/
theorem arrays2_entry (c : Dev nD) :
    (Pipeline.arrBufs spec2 c (V3 m ρ c) : sProp 𝕄) ⊢ (dat2 (V3 m ρ) c).arrays ((dat2 (V3 m ρ) c).arrAt · 0) := by
  rw [arrays2_eq, arrBufs2_eq]
  iintro ⟨H2, H30, H31⟩
  ihave H2 := (pointsTo_share (PosShare.mem_left_op_right fullShare)).1 $$ H2
  icases H2 with ⟨H2l, H2r⟩
  isplitl [H2l]; · iexact H2l
  isplitl [H2r]; · iexact H2r
  isplitl [H30]; · iexact H30
  iexact H31

/-- What the third kernel leaves in its arrays is what boundary 4 holds at their buffers: an input window's array is
    never written, so both input windows end at the stacked array as entered, which boundary 4 keeps; each output
    array ends at its last write-back's contents, which is boundary 4's update there. -/
theorem arrAt2_0 (c : Dev nD) : (dat2 (V3 m ρ) c).arrAt 0 cfg2.N = V4 m ρ c main_v2 :=
  ((dat2 (V3 m ρ) c).arrAt_in 0 rfl _).trans ((A_eq2 (V3 m ρ) c 0).trans (W4_of_ne m ρ c main_v2 (by decide) (by decide)).symm)
theorem arrAt2_1 (c : Dev nD) : (dat2 (V3 m ρ) c).arrAt 1 cfg2.N = V4 m ρ c main_v2 :=
  ((dat2 (V3 m ρ) c).arrAt_in 1 rfl _).trans ((A_eq2 (V3 m ρ) c 1).trans (W4_of_ne m ρ c main_v2 (by decide) (by decide)).symm)

/-- EXIT. The pipeline's arrays at their final contents are the three buffers whole at boundary 4's contents: the two
    halves of the stacked array, at the same contents, rejoin to its full share. -/
theorem arrays2_exit (c : Dev nD) :
    ((dat2 (V3 m ρ) c).arrays ((dat2 (V3 m ρ) c).arrAt · cfg2.N) : sProp 𝕄) ⊢ Pipeline.arrBufs spec2 c (V4 m ρ c) := by
  rw [arrays2_eq, arrBufs2_eq, arrAt2_0, arrAt2_1, ← W4_v3_0, ← W4_v3_1]
  iintro ⟨H2l, H2r, H30, H31⟩
  ihave H2 := (pointsTo_share (PosShare.mem_left_op_right fullShare)).2 $$ [H2l H2r]
  · isplitl [H2l] <;> iassumption
  isplitl [H2]; · iexact H2
  isplitl [H30]; · iexact H30
  iexact H31

/-- Off those three buffers boundary 4 agrees with boundary 3. -/
theorem unscopedRest2_congr (c : Dev nD) :
    (Pipeline.unscopedRest spec2 c (V4 m ρ c) : sProp 𝕄) = Pipeline.unscopedRest spec2 c (V3 m ρ c) := by
  unfold Pipeline.unscopedRest
  refine bigSep_congr fun b hb => ?_
  have hb' := (Finset.mem_sdiff.mp hb).2
  rw [arrImage2] at hb'
  rw [show V4 m ρ c b = V3 m ρ c b from
    W4_of_ne m ρ c b (fun e => hb' (by subst e; decide)) (fun e => hb' (by subst e; decide))]

set_option backward.isDefEq.respectTransparency.types false in
/-- The third kernel, from boundary 3 to boundary 4. At entry the three buffers behind its arrays are split out of the
    unscoped buffers and made its arrays (`arrays2_entry`), the rest bypasses the region; the generator register goes
    into the region's invariant before the first point and comes back from the invariant after the last; at exit the
    arrays give the three buffers back at boundary 4's contents (`arrays2_exit`), which rejoin the rest, unchanged
    between the two boundaries (`unscopedRest2_congr`). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit : (unscopedBufs c (V3 m ρ c) : sProp 𝕄)
        = iprop(Pipeline.arrBufs spec2 c (V3 m ρ c) ∗ Pipeline.unscopedRest spec2 c (V3 m ρ c)) :=
      Pipeline.unscopedBufs_split₀ cfgs 2 winFacts₀2.arr_unscoped c (V3 m ρ c)
    rw [Pipeline.unscopedBufs_held] at hsplit
    iintro ⟨⟨Hub, Hp, HO⟩, -, -⟩
    ihave H := (Entails.of_eq hsplit) $$ Hub
    icases H with ⟨Ha, Hrest⟩
    ihave Ha := (arrays2_entry m ρ c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    rw [Pipeline.ownSems0_none]
    refine BIBase.Entails.trans (hout2 (V3 m ρ) c) ?_
    unfold Pipeline.ΦA
    iintro ⟨Hr, Hp⟩
    isplitl [Hp]; · iexact Hp
    isplitr; · iempintro
    iexact Hr
  hexit c := by
    have hjoin : (unscopedBufs c (V4 m ρ c) : sProp 𝕄)
        = iprop(Pipeline.arrBufs spec2 c (V4 m ρ c) ∗ Pipeline.unscopedRest spec2 c (V4 m ρ c)) :=
      Pipeline.unscopedBufs_split₀ cfgs 2 winFacts₀2.arr_unscoped c (V4 m ρ c)
    rw [Pipeline.unscopedBufs_held, unscopedRest2_congr] at hjoin
    iintro ⟨Ha, HO, HY, Hrest⟩
    ihave Ha := (show ((pdats m ρ 2 c).arrays (fun w => (pdats m ρ 2 c).arrAt w (Pipeline.pin (pcfgs (F := F)) adm 2).N) : sProp 𝕄)
        ⊢ Pipeline.arrBufs spec2 c (V4 m ρ c) from arrays2_exit m ρ c) $$ Ha
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- @main is the run of those segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final memory holds, at each unscoped buffer of each core, boundary 5's contents: each
    segment is entered from the thread state the one before it left, the launch makes the first, and the last is read
    against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME. Every weakly fair execution of @main terminates, nothing faulting, and the three argument arrays end as
    launched: each is an unscoped buffer, which the run leaves at boundary 5's contents, and those are the launch
    memory's there. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.ValueRun.lean ====
/- What the run leaves in the program's results. The last boundary's contents are a fold of host operations over
   the third kernel's exit contents, so each result is read off that fold: the loss as one closed function of the
   targets argument and the third kernel's per-row output, the labels as a closed term, the tile output as the third
   kernel leaves it. Also: what the kernels are entered at, and the run with all of these as its postcondition. -/
import proofs.«127180_j53961969107141_2_alg».proof.Proof.FrameRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg Window BodyObligation cellOf)

variable {F : FTy → Type} [FloatOps F] [Named F]

/-! ## The host operations after the third kernel, as functions -/

/-- The labels: row `i` of the first half is paired with row `i + 4096`, row `i` of the second half with row `i`. -/
def labels : (⟨S8192, .i32⟩ : BufTy).Contents (Elt F) :=
  concatenate S8192 0
    [⟨S4096, addi (iotaInDim S4096 32 0) (broadcastInDim S4096 ![] bcast_S_S4096 (constantI S_ 32 4096#32))⟩,
      ⟨S4096, iotaInDim S4096 32 0⟩]
    concatenates_S4096_S4096_S8192_d0

/-- The per-row weights: one minus the targets argument, stacked twice, as floats, gathered at the labels (a negative
    label wrapped around by the array's extent). -/
def rowWeights (a2 : (⟨S4096, .i32⟩ : BufTy).Contents (Elt F)) : (⟨S8192, .f32⟩ : BufTy).Contents (Elt F) :=
  Host.gather gather_S8192_S8192x1_S8192_n_0_n_n_0_1_1
    (sitofp .f32
      (subi (broadcastInDim S8192 ![] bcast_S_S8192 (constantI S_ 32 1#32))
        (concatenate S8192 0 [⟨S4096, a2⟩, ⟨S4096, a2⟩] concatenates_S4096_S4096_S8192_d0)))
    (broadcastInDim S8192x1 ![0] bcast_S8192_S8192x1_0
      (select
        (cmpi .slt (labels (F := F)) (broadcastInDim S8192 ![] bcast_S_S8192 (constantI S_ 32 0#32)))
        (addi (labels (F := F)) (broadcastInDim S8192 ![] bcast_S_S8192 (constantI S_ 32 8192#32)))
        (labels (F := F))))

/-- The loss from the targets argument `a2` and the third kernel's per-row output `col`: the weighted sum of the
    per-row values over the sum of the weights. -/
def lossTail (a2 : (⟨S4096, .i32⟩ : BufTy).Contents (Elt F)) (col : (⟨S8192x1, .f32⟩ : BufTy).Contents (Elt F)) :
    (⟨S_, .f32⟩ : BufTy).Contents (Elt F) :=
  Host.divf (F := F)
    (Host.reduceAdd (F := F) (mulf (rowWeights a2) (fun i => shapeCast S8192 col shapeCasts_S8192x1_S8192 i))
      (constant (F := F) S_ .f32 0x00000000#32) reducesTo_S8192_S_d0 h_S_)
    (Host.reduceAdd (F := F) (rowWeights a2) (constant (F := F) S_ .f32 0x00000000#32) reducesTo_S8192_S_d0 h_S_)

set_option maxHeartbeats 2000000 in
/-- From any contents `Vv`, the host operations leave in the loss's buffer `lossTail` of the targets argument's and
    the per-row output's contents: each operation's result at its own buffer is its function's value, at any other
    buffer what was there. -/
theorem after3_v23 (Vv : Valuation τ sig (Elt F)) :
    StableHlo.after hostOps3 Vv (Proc.devRef .tc main_v23)
      = lossTail (Vv (Proc.devRef .tc main_arg2)) (Vv (Proc.devRef .tc main_v3_1)) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- From any contents, the host operations leave the labels in their buffer. -/
theorem after3_v8 (Vv : Valuation τ sig (Elt F)) :
    StableHlo.after hostOps3 Vv (Proc.devRef .tc main_v8) = labels (F := F) := by
  after_results
  rfl

variable (m : (ℓ : Loc nD τ sig) → Buf (Elt F) ℓ) (ρ : Dev nD → PrngReg)

/-! ## The results at the last boundary -/

/-- The targets argument is as launched when the third kernel has run. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide) (by decide)
    _ = W2 m ρ c (Proc.devRef .tc main_arg2) := StableHlo.after_of_writes_sub hostOps2 _ hostOps2_writes (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The loss at the last boundary. -/
theorem W5_v23 (c : Dev nD) : W5 m ρ c (Proc.devRef .tc main_v23)
    = lossTail (m ((c : Thread nD τ).loc main_arg2)) (W4 m ρ c (Proc.devRef .tc main_v3_1)) :=
  (after3_v23 (W4 m ρ c)).trans (by rw [W4_main_arg2])

/-- The labels at the last boundary. -/
theorem W5_v8 (c : Dev nD) : W5 m ρ c (Proc.devRef .tc main_v8) = labels (F := F) := after3_v8 (W4 m ρ c)

/-- The tile output at the last boundary: no host operation writes it, so it is as the third kernel left it. -/
theorem W5_v3_0 (c : Dev nD) : W5 m ρ c (Proc.devRef .tc main_v3_0) = (dat2 (V3 m ρ) c).arrAt 2 cfg2.N :=
  (StableHlo.after_of_writes_sub hostOps3 _ hostOps3_writes (by decide)).trans (W4_v3_0 m ρ c)

/-! ## What the kernels are entered at -/

/-- The first kernel reads the first argument as launched, -/
theorem V0_main_arg0 (c : Dev nD) : V0 m ρ c main_arg0 = m ((c : Thread nD τ).loc main_arg0) := rfl
/-- the second the second argument as launched (the first kernel does not touch it), -/
theorem V1_main_arg1 (c : Dev nD) : V1 m ρ c main_arg1 = m ((c : Thread nD τ).loc main_arg1) :=
  W1_of_ne m ρ c main_arg1 (by decide)
/-- and the third reads, through both its input windows, the first kernel's output array stacked on the second's,
    each as its kernel left it (the second kernel does not touch the first's output). -/
theorem V3_v2 (c : Dev nD) : V3 m ρ c main_v2
    = concatenate S8192x1024 0 [⟨S4096x1024, (dat0 (V0 m ρ) c).arrAt 1 cfg0.N⟩, ⟨S4096x1024, (dat1 (V1 m ρ) c).arrAt 1 cfg1.N⟩]
        concatenates_S4096x1024_S4096x1024_S8192x1024_d0 := by
  have h0 : W2 m ρ c (Proc.devRef .tc main_v0) = (dat0 (V0 m ρ) c).arrAt 1 cfg0.N :=
    (W2_of_ne m ρ c main_v0 (by decide)).trans (W1_arr m ρ c 1)
  have h1 : W2 m ρ c (Proc.devRef .tc main_v1) = (dat1 (V1 m ρ) c).arrAt 1 cfg1.N := W2_arr m ρ c 1
  show StableHlo.after hostOps2 (W2 m ρ c) (Proc.devRef .tc main_v2) = _
  after_results
  rw [h0, h1]

/-! ## The run, with the results -/

/-- THE RUN WITH ITS RESULTS. Every weakly fair execution of @main terminates, nothing faulting, and in every final
    memory the loss is `lossTail` of the targets argument as launched and the third kernel's per-row output array as
    its last write-back leaves it, the tile output is as the third kernel's last write-back leaves it, the labels are
    `labels`, and the three arguments are as launched. -/
theorem run_value : θ_run defs (onTc (τ := τ) (main (F := F))) ⟨m, fun _ => 0, ρ⟩ (fun r => ∀ c : Dev nD,
      r.2.mem ((c.tc : Thread nD τ).loc main_v23)
        = lossTail (m ((c.tc : Thread nD τ).loc main_arg2)) ((dat2 (V3 m ρ) c).arrAt 3 cfg2.N)
      ∧ r.2.mem ((c.tc : Thread nD τ).loc main_v3_0) = (dat2 (V3 m ρ) c).arrAt 2 cfg2.N
      ∧ r.2.mem ((c.tc : Thread nD τ).loc main_v8) = labels (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v23 (by decide))).trans ((W5_v23 m ρ c).trans (by rw [W4_v3_1])),
     (h c _ (mem_uc main_v3_0 (by decide))).trans (W5_v3_0 m ρ c),
     (h c _ (mem_uc main_v8 (by decide))).trans (W5_v8 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.Spec.lean ====
/- The mathematics both programs compute, on the extended reals, over plain index types: rows divided by their
   Euclidean length (kept at least a small constant), stacking two blocks of rows, and the matrix of inner products of
   the rows. -/
import Idealize.ShloMosaic.PureOps.Ideal

noncomputable section

namespace Cert.Spec

open Idealize.ShloMosaic

/-- The small constant the length is kept above (the f32 word both programs carry). -/
def eps : EReal := Ideal.ofBits .f32 0x322BCC77#32

/-- Row `r` of `X` divided by its Euclidean length, the length kept at least `eps`. -/
def nrm {n d : ℕ} (X : Fin n → Fin d → EReal) (r : Fin n) (k : Fin d) : EReal :=
  Ideal.div (X r k) (max (Ideal.sqrt (∑ l : Fin d, X r l * X r l)) eps)

/-- Two blocks of `a` rows, one above the other. -/
def stack {a d : ℕ} (X Y : Fin a → Fin d → EReal) (r : Fin (a + a)) (k : Fin d) : EReal :=
  if h : r.val < a then X ⟨r.val, h⟩ k else Y ⟨r.val - a, by omega⟩ k

/-- Dividing rows by their lengths and stacking commute: a row's length is its own. -/
theorem nrm_stack {a d : ℕ} (X Y : Fin a → Fin d → EReal) (r : Fin (a + a)) (k : Fin d) :
    nrm (stack X Y) r k = stack (nrm X) (nrm Y) r k := by
  unfold nrm stack
  by_cases h : r.val < a
  · simp only [dif_pos h]
  · simp only [dif_neg h]

/-- The inner product of rows `r` and `c`. -/
def sim {n d : ℕ} (N : Fin n → Fin d → EReal) (r c : Fin n) : EReal := ∑ l : Fin d, N r l * N c l

/-- The reciprocal of the temperature: exactly one over the rational the reference's f32 word for 0.05 encodes
    (13421773 / 2^28), which is what the kernel's multiplier 20.0 stands for. -/
def invTau : EReal := ((268435456 / 13421773 : ℝ) : EReal)

/-- The large constant pushed onto the diagonal (the f32 word both programs carry, 1e10). -/
def big : EReal := Ideal.ofBits .f32 0x501502F9#32

/-- Entry (r, s) of the scaled similarities: the inner product of rows r and s times `invTau`, the diagonal pushed
    down by `big`. -/
def logit {n d : ℕ} (N : Fin n → Fin d → EReal) (r s : Fin n) : EReal :=
  sim N r s * invTau - (if r = s then big else 0)

/-- The column of row r's positive pair among 2·h rows: the row h below, or h above. -/
def tgt (h : ℕ) (r : Fin (h + h)) : Fin (h + h) :=
  if hr : r.val < h then ⟨r.val + h, by omega⟩ else ⟨r.val - h, by omega⟩

/-- Row r's loss term for label column `y r`: minus the log-softmax of the row at that column, in the spelling
    entry − max − log Σ exp (entry − max). -/
def pe {n : ℕ} (Z : Fin n → Fin n → EReal) (y : Fin n → Fin n) (r : Fin n) : EReal :=
  - ((Z r (y r) - ⨆ s : Fin n, Z r s) - Ideal.log (∑ s : Fin n, Ideal.exp (Z r s - ⨆ s' : Fin n, Z r s')))

end Cert.Spec

end
-- ==== Proof.ValueA.lean ====
import proofs.«127180_j53961969107141_2_alg».proof.Proof.FrameA
import proofs.«127180_j53961969107141_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! The two row-normalisation regions read at the extended reals: the body's payload at an index is the
    input's entry divided by its row's Euclidean length (kept at least a small constant), and so the
    output array after each region's run is the input array with every row so divided. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! # Layout facts shared by both regions -/

/-- The zero offsets as a constant function. -/
theorem off_zero : (![0, 0] : Fin 2 → Nat) = fun _ => 0 := funext fun a => by fin_cases a <;> rfl

/-- Putting column `l` back into the reduced index `p` gives the index `(p, l)`. -/
theorem lift_row (h : S1024x1024.Reduces [1] S1024) (p : Fin 1024) (l : Fin 1024) :
    h.lift (ix1 p) l = ix2 p l := by
  funext c; apply Fin.ext
  fin_cases c <;> rfl

/-- Entry `p` of a length-1024 vector and entry `(p, 0)` of a 1024×1 column sit at the same row-major position. -/
theorem col_pos (p : Fin 1024) : (S1024.rowMajor (ix1 p)).val = (S1024x1.rowMajor (ix2 p (0 : Fin 1))).val := by
  rw [Shape.rowMajor_val_one, Shape.rowMajor_val_two]
  show p.val = p.val * 1 + 0
  omega

/-- The sum along axis 1 of the entrywise square, from the zero word, at row `p`: the sum of the row's squares. -/
theorem rowsum (x : FVec Ideal S1024x1024 .f32) (acc : BitVec FTy.f32.bits) (h : S1024x1024.Reduces [1] S1024) (hφ : FKind.Formats .f32)
    (hacc : acc = FKind.add.neutral .f32 hφ) (p : Fin 1024) :
    multiReduction .add [1] S1024 (mulf x x) acc h hφ hacc (ix1 p) = ∑ l : Fin 1024, x (ix2 p l) * x (ix2 p l) :=
  (Ideal.multiReduction_add_single (mulf x x) acc h hφ hacc (ix1 p)).trans
    (Finset.sum_congr rfl fun l _ => by rw [lift_row h p l]; rfl)

/-! # Region 0 -/

/-- The payload at `(p, q)`: the entry divided by the larger of its row's Euclidean length and the constant.
    The broadcast reads column 0 of the 1024×1 column at row `p`, the shape cast reads entry `p` of the
    row sums, and the narrowing is the identity on extended reals. -/
theorem pay0_apply (x : Vec Ideal S1024x1024 .f32) (p q : Fin 1024) :
    k0_pay1 (F := Ideal) x (ix2 p q) = Ideal.div (x (ix2 p q)) (max (Ideal.sqrt (∑ l : Fin 1024, x (ix2 p l) * x (ix2 p l))) Cert.Spec.eps) := by
  unfold k0_pay1
  show Ideal.div (x (ix2 p q)) (broadcastTo S1024x1024 _ broadcasts_S1024x1_S1024x1024 (ix2 p q)) = _
  rw [broadcastTo_apply _ _ (ix2 p q) (ix2 p (0 : Fin 1)) (by intro a; fin_cases a <;> simp)]
  show Ideal.div _ (max (Ideal.sqrt (shapeCast S1024x1 _ shapeCasts_S1024_S1024x1 (ix2 p 0))) _) = _
  rw [shapeCast_apply _ _ (ix2 p (0 : Fin 1)) (ix1 p) (col_pos p)]
  exact congrArg (fun s => Ideal.div (x (ix2 p q)) (max (Ideal.sqrt s) Cert.Spec.eps)) (rowsum x _ _ _ _ p)

/-- The input array of region 0 at entry, as a matrix. -/
abbrev X0 (c : Dev nD) : Fin 4096 → Fin 1024 → EReal := fun r' k' => V c (Pipeline.arrRef spec0 0) (ix2 r' k')

/-- The array the output window ends holding: the input with every row divided by its length. -/
abbrev G0 (c : Dev nD) : S4096x1024.Idx → Elt Ideal .bf16 := fun i => Cert.Spec.nrm (X0 V c) (i 0) (i 1)

/-- Decided over the four grid points: both windows are on the same block of rows, on block 0 of the
    columns, and the row block is one of the four. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Every one of the four row blocks is some point's. -/
theorem idx_onto0 : ∀ q0 : Fin 4, ∃ t : Fin cfg0.N, win0_1.index t = ![q0.val, 0] :=
  (by decide +kernel : ∀ q0 : Fin 4, ∃ t : Fin grid0.N, win0_1.index t = ![q0.val, 0])

/-- What point `t` writes back is block `t` of `G0`: a row of the block is a row of the array, whole, so
    its length in the block is its length in the array. -/
theorem flushed0_eq (c : Dev nD) (t : Fin cfg0.N) :
    (dat0 (F := Ideal) V c).flushed 1 t = ((cfg0.win 1).blk t).view.read (Elt Ideal) (G0 V c) := by
  show (cfg0.win 1).cut (grid0.coords t) ((dat0 V c).after 1 t) = _
  rw [after0_1]
  unfold out0_1
  rw [View.canon_unit_zero off_zero]
  simp only [View.ld_unit_zero (S := S1024x1024) off_zero]
  obtain ⟨e0, e1, e2, e3⟩ := idx_facts0 t
  refine funext fun (j : S1024x1024.Idx) => ?_
  obtain ⟨p, q, rfl⟩ : ∃ (p q : Fin 1024), j = ix2 p q := ⟨j 0, j 1, eq_ix2 j⟩
  have hp : p.val < 1024 := p.isLt
  obtain ⟨r, hr⟩ : ∃ r : Fin 4096, r.val = win0_1.index t (0 : Fin 2) * 1024 + p.val := ⟨⟨_, by omega⟩, rfl⟩
  have hin : ∀ l : Fin 1024, ((cfg0.win 0).blk t).view.emb (ix2 p l) = ix2 r l := fun l => by
    funext a; apply Fin.ext
    match a with
    | ⟨0, _⟩ => show win0_0.index t (0 : Fin 2) * 1024 + 1 * p.val = r.val; omega
    | ⟨1, _⟩ => show win0_0.index t (1 : Fin 2) * 1024 + 1 * l.val = l.val; omega
  have hout : ((cfg0.win 1).blk t).view.emb (ix2 p q) = ix2 r q := by
    funext a; apply Fin.ext
    match a with
    | ⟨0, _⟩ => show win0_1.index t (0 : Fin 2) * 1024 + 1 * p.val = r.val; omega
    | ⟨1, _⟩ => show win0_1.index t (1 : Fin 2) * 1024 + 1 * q.val = q.val; omega
  have hblk : ∀ l : Fin 1024, iblk0 (F := Ideal) V c 0 t (ix2 p l) = X0 V c r l := fun l => by
    show V c (Pipeline.arrRef spec0 0) (((cfg0.win 0).blk t).view.emb (ix2 p l)) = V c (Pipeline.arrRef spec0 0) (ix2 r l)
    rw [hin l]
  show k0_pay1 (F := Ideal) (iblk0 V c 0 t) (ix2 p q) = G0 V c (((cfg0.win 1).blk t).view.emb (ix2 p q))
  rw [pay0_apply, hout]
  simp only [hblk]
  rfl

/-- An index of the output array is in point `t`'s block iff each coordinate is in the block's range. -/
theorem mem_blk0 (t : Fin cfg0.N) (i : S4096x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- The four blocks cover the array: row `r` is in the block of the point on row block `r / 1024`. -/
theorem cover0 (i : S4096x1024.Idx) :
    ∃ t : Fin cfg0.N, (cfg0.win 1).flush t = true ∧ i ∈ ((cfg0.win 1).blk t).view.set := by
  have hi0 : (i 0).val < 4096 := (i 0).isLt
  have hi1 : (i 1).val < 1024 := (i 1).isLt
  obtain ⟨t, ht⟩ := idx_onto0 ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- The output array after region 0's run, entry by entry: the input's entry divided by its row's length. -/
theorem arr0 (c : Dev nD) (r : Fin 4096) (k : Fin 1024) :
    ((dat0 (F := Ideal) V c).arrAt 1 cfg0.N) (ix2 r k) = Cert.Spec.nrm (fun r' k' => V c (Pipeline.arrRef spec0 0) (ix2 r' k')) r k := by
  rw [(dat0 (F := Ideal) V c).arrAt_eq_of_cover 1 (G0 V c) (fun t _ => flushed0_eq V c t) (cover0)]

/-! # Region 1 -/

/-- The payload at `(p, q)`: the entry divided by the larger of its row's Euclidean length and the constant.
    The broadcast reads column 0 of the 1024×1 column at row `p`, the shape cast reads entry `p` of the
    row sums, and the narrowing is the identity on extended reals. -/
theorem pay1_apply (x : Vec Ideal S1024x1024 .f32) (p q : Fin 1024) :
    k1_pay1 (F := Ideal) x (ix2 p q) = Ideal.div (x (ix2 p q)) (max (Ideal.sqrt (∑ l : Fin 1024, x (ix2 p l) * x (ix2 p l))) Cert.Spec.eps) := by
  unfold k1_pay1
  show Ideal.div (x (ix2 p q)) (broadcastTo S1024x1024 _ broadcasts_S1024x1_S1024x1024 (ix2 p q)) = _
  rw [broadcastTo_apply _ _ (ix2 p q) (ix2 p (0 : Fin 1)) (by intro a; fin_cases a <;> simp)]
  show Ideal.div _ (max (Ideal.sqrt (shapeCast S1024x1 _ shapeCasts_S1024_S1024x1 (ix2 p 0))) _) = _
  rw [shapeCast_apply _ _ (ix2 p (0 : Fin 1)) (ix1 p) (col_pos p)]
  exact congrArg (fun s => Ideal.div (x (ix2 p q)) (max (Ideal.sqrt s) Cert.Spec.eps)) (rowsum x _ _ _ _ p)

/-- The input array of region 1 at entry, as a matrix. -/
abbrev X1 (c : Dev nD) : Fin 4096 → Fin 1024 → EReal := fun r' k' => V c (Pipeline.arrRef spec1 0) (ix2 r' k')

/-- The array the output window ends holding: the input with every row divided by its length. -/
abbrev G1 (c : Dev nD) : S4096x1024.Idx → Elt Ideal .bf16 := fun i => Cert.Spec.nrm (X1 V c) (i 0) (i 1)

/-- Decided over the four grid points: both windows are on the same block of rows, on block 0 of the
    columns, and the row block is one of the four. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 3 :=
  (by decide +kernel : ∀ t : Fin grid1.N, _)

/-- Every one of the four row blocks is some point's. -/
theorem idx_onto1 : ∀ q0 : Fin 4, ∃ t : Fin cfg1.N, win1_1.index t = ![q0.val, 0] :=
  (by decide +kernel : ∀ q0 : Fin 4, ∃ t : Fin grid1.N, win1_1.index t = ![q0.val, 0])

/-- What point `t` writes back is block `t` of `G1`: a row of the block is a row of the array, whole, so
    its length in the block is its length in the array. -/
theorem flushed1_eq (c : Dev nD) (t : Fin cfg1.N) :
    (dat1 (F := Ideal) V c).flushed 1 t = ((cfg1.win 1).blk t).view.read (Elt Ideal) (G1 V c) := by
  show (cfg1.win 1).cut (grid1.coords t) ((dat1 V c).after 1 t) = _
  rw [after1_1]
  unfold out1_1
  rw [View.canon_unit_zero off_zero]
  simp only [View.ld_unit_zero (S := S1024x1024) off_zero]
  obtain ⟨e0, e1, e2, e3⟩ := idx_facts1 t
  refine funext fun (j : S1024x1024.Idx) => ?_
  obtain ⟨p, q, rfl⟩ : ∃ (p q : Fin 1024), j = ix2 p q := ⟨j 0, j 1, eq_ix2 j⟩
  have hp : p.val < 1024 := p.isLt
  obtain ⟨r, hr⟩ : ∃ r : Fin 4096, r.val = win1_1.index t (0 : Fin 2) * 1024 + p.val := ⟨⟨_, by omega⟩, rfl⟩
  have hin : ∀ l : Fin 1024, ((cfg1.win 0).blk t).view.emb (ix2 p l) = ix2 r l := fun l => by
    funext a; apply Fin.ext
    match a with
    | ⟨0, _⟩ => show win1_0.index t (0 : Fin 2) * 1024 + 1 * p.val = r.val; omega
    | ⟨1, _⟩ => show win1_0.index t (1 : Fin 2) * 1024 + 1 * l.val = l.val; omega
  have hout : ((cfg1.win 1).blk t).view.emb (ix2 p q) = ix2 r q := by
    funext a; apply Fin.ext
    match a with
    | ⟨0, _⟩ => show win1_1.index t (0 : Fin 2) * 1024 + 1 * p.val = r.val; omega
    | ⟨1, _⟩ => show win1_1.index t (1 : Fin 2) * 1024 + 1 * q.val = q.val; omega
  have hblk : ∀ l : Fin 1024, iblk1 (F := Ideal) V c 0 t (ix2 p l) = X1 V c r l := fun l => by
    show V c (Pipeline.arrRef spec1 0) (((cfg1.win 0).blk t).view.emb (ix2 p l)) = V c (Pipeline.arrRef spec1 0) (ix2 r l)
    rw [hin l]
  show k1_pay1 (F := Ideal) (iblk1 V c 0 t) (ix2 p q) = G1 V c (((cfg1.win 1).blk t).view.emb (ix2 p q))
  rw [pay1_apply, hout]
  simp only [hblk]
  rfl

/-- An index of the output array is in point `t`'s block iff each coordinate is in the block's range. -/
theorem mem_blk1 (t : Fin cfg1.N) (i : S4096x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1).slice (win1_1.rect t)).set ↔ _
  rw [View.set_slice_whole, Rect.mem_set_unit]
  exact Iff.rfl

/-- The four blocks cover the array: row `r` is in the block of the point on row block `r / 1024`. -/
theorem cover1 (i : S4096x1024.Idx) :
    ∃ t : Fin cfg1.N, (cfg1.win 1).flush t = true ∧ i ∈ ((cfg1.win 1).blk t).view.set := by
  have hi0 : (i 0).val < 4096 := (i 0).isLt
  have hi1 : (i 1).val < 1024 := (i 1).isLt
  obtain ⟨t, ht⟩ := idx_onto1 ⟨(i 0).val / 1024, by omega⟩
  have q0 : win1_1.index t (0 : Fin 2) = (i 0).val / 1024 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1024 ≤ (i 1).val ∧ (i 1).val < win1_1.index t (1 : Fin 2) * 1024 + 1024; omega

/-- The output array after region 1's run, entry by entry: the input's entry divided by its row's length. -/
theorem arr1 (c : Dev nD) (r : Fin 4096) (k : Fin 1024) :
    ((dat1 (F := Ideal) V c).arrAt 1 cfg1.N) (ix2 r k) = Cert.Spec.nrm (fun r' k' => V c (Pipeline.arrRef spec1 0) (ix2 r' k')) r k := by
  rw [(dat1 (F := Ideal) V c).arrAt_eq_of_cover 1 (G1 V c) (fun t _ => flushed1_eq V c t) (cover1)]

end Cert.KernelIdeal.HandValue

end
-- ==== Proof.ValueT.lean ====
import proofs.«127180_j53961969107141_2_alg».proof.Proof.FrameR0
import proofs.«127180_j53961969107141_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! The third region's first output read at the extended reals: a tile at an index is the inner product of a row of
    each of its two blocks times the reciprocal temperature, the large constant taken off where the row number is
    the column number; and so the output array after the run is the scaled similarities of the rows of the array
    both input windows read, the diagonal pushed down. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! # The named scalar -/

/-- The named multiplier is the reciprocal of the temperature. -/
theorem inv_tau_eq : Named.named (F := Ideal) Cert.KernelIdeal.κ "inv_tau" (φ := .f32) 0x41A00000#32 = Cert.Spec.invTau := by
  unfold Cert.Spec.invTau
  exact IdealRules.named_const.ideal_named_scalar _ _ _ _ rfl

/-! # The tile at an index -/

local notation "dotT" => dot_S1024x1024_S1024x1024_S1024x1024_1_0_0_1_n_n

/-- The product of a block with the transpose of another, into a zero accumulator, at `(p, q)`: the inner
    product of row `p` of the first with row `q` of the second. -/
theorem rows_dot (h1 : S1024x1024.ShapeCasts S1024x1024) (h2 : S1024x1024.Transposes [1, 0] S1024x1024)
    (A B : FVec Ideal S1024x1024 .bf16) (p q : Fin 1024) :
    FloatOps.matmul dotT none (shapeCast S1024x1024 A h1)
        (transpose S1024x1024 [1, 0] (shapeCast S1024x1024 B h1) h2) (constant S1024x1024 .f32 0x00000000#32) (ix2 p q)
      = ∑ l : Fin 1024, A (ix2 p l) * B (ix2 q l) := by
  rw [Ideal.matmul_constant_zero_apply, ← Equiv.sum_comp (contrEquiv1 dotT 1024 rfl rfl).symm]
  refine Finset.sum_congr rfl fun l _ => ?_
  have c2 := contrEquiv1_symm_val dotT 1024 rfl rfl l
  have l2 : DotDims.lhsIdx dotT (ix2 p q) ((contrEquiv1 dotT 1024 rfl rfl).symm l) = ix2 p l := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact c2
  have r2 : DotDims.rhsIdx dotT (ix2 p q) ((contrEquiv1 dotT 1024 rfl rfl).symm l) = ix2 l q := by
    funext ax; apply Fin.ext
    match ax with
    | ⟨0, _⟩ => simp [DotDims.rhsIdx, dot_S1024x1024_S1024x1024_S1024x1024_1_0_0_1_n_n]; exact c2
    | ⟨1, _⟩ => simp [DotDims.rhsIdx, dot_S1024x1024_S1024x1024_S1024x1024_1_0_0_1_n_n]; rfl
  rw [l2, r2, transpose_apply [1, 0] _ h2 (ix2 l q) (ix2 q l) (by intro b; fin_cases b <;> rfl),
    shapeCast_apply A h1 (ix2 p l) (ix2 p l) rfl, shapeCast_apply B h1 (ix2 q l) (ix2 q l) rfl]

/-- Two 32-bit words `1024·a + p` and `1024·b + q` with `a, b < 8` and `p, q < 1024` are equal exactly when
    the numbers are: nothing wraps. -/
theorem word_eq_iff (a b : ℕ) (ha : a < 8) (hb : b < 8) (p q : Fin 1024) :
    (IntOp.addi (Scalar.muli (BitVec.ofNat 32 a) 1024#32) (BitVec.ofNat 32 p.val)
      = IntOp.addi (Scalar.muli (BitVec.ofNat 32 b) 1024#32) (BitVec.ofNat 32 q.val))
      ↔ 1024 * a + p.val = 1024 * b + q.val := by
  have hp := p.isLt
  have hq := q.isLt
  unfold IntOp.addi Scalar.muli IntOp.muli
  rw [← BitVec.toNat_inj]
  simp only [BitVec.toNat_add, BitVec.toNat_mul, BitVec.toNat_ofNat]
  omega

/-- The mask of the diagonal at `(p, q)` of the tile at grid coordinates `i`: the row number
    `1024·(i 0) + p` against the column number `1024·(i 1) + q`. -/
theorem diag_apply (i : grid2.Coords) (hb1 : S1024x1.Broadcasts S1024x1024) (hb2 : S1x1024.Broadcasts S1024x1024) (p q : Fin 1024) :
    IntOp.cmpi .eq (broadcastTo S1024x1024 (k2_pay9 i) hb1 (ix2 p q)) (broadcastTo S1024x1024 (k2_pay10 i) hb2 (ix2 p q))
      = if 1024 * (i 0).val + p.val = 1024 * (i 1).val + q.val then 1#1 else 0#1 := by
  have h0 : (i 0).val < 8 := (i 0).isLt
  have h1 : (i 1).val < 8 := (i 1).isLt
  rw [broadcastTo_apply _ hb1 (ix2 p q) (ix2 p (0 : Fin 1)) (by intro a; fin_cases a <;> simp),
    broadcastTo_apply _ hb2 (ix2 p q) (ix2 (0 : Fin 1) q) (by intro a; fin_cases a <;> simp)]
  unfold k2_pay9 k2_pay10
  show IntOp.cmpi .eq (IntOp.addi (Scalar.muli (BitVec.ofNat 32 (i 0).val) 1024#32) (iota .tc S1024x1 32 [0] _ (ix2 p 0)))
      (IntOp.addi (Scalar.muli (BitVec.ofNat 32 (i 1).val) 1024#32) (iota .tc S1x1024 32 [1] _ (ix2 0 q))) = _
  rw [iota_single_apply, iota_single_apply]
  show BitVec.ofBool (_ == _) = _
  by_cases h : 1024 * (i 0).val + p.val = 1024 * (i 1).val + q.val
  · rw [if_pos h, beq_iff_eq.mpr ((word_eq_iff _ _ h0 h1 p q).mpr h)]; rfl
  · rw [if_neg h, beq_eq_false_iff_ne.mpr (fun e => h ((word_eq_iff _ _ h0 h1 p q).mp e))]; rfl

/-- The tile at `(p, q)`: the inner product of row `p` of the first block with row `q` of the second, times the
    reciprocal temperature, less the large constant where the row number equals the column number. -/
theorem tile_apply (i : grid2.Coords) (x0 x1 : Vec Ideal S1024x1024 .bf16) (p q : Fin 1024) :
    k2_pay11 (F := Ideal) i x0 x1 (ix2 p q) = (∑ l : Fin 1024, x0 (ix2 p l) * x1 (ix2 q l)) * Cert.Spec.invTau
      - (if 1024 * (i 0).val + p.val = 1024 * (i 1).val + q.val then Cert.Spec.big else 0) := by
  unfold k2_pay11
  show (FloatOps.matmul _ _ _ _ _ (ix2 p q)) * _
      - Scalar.select (IntOp.cmpi .eq (broadcastTo S1024x1024 _ _ (ix2 p q)) (broadcastTo S1024x1024 _ _ (ix2 p q))) _ _ = _
  refine congr (congrArg HSub.hSub (congr (congrArg HMul.hMul (rows_dot _ _ x0 x1 p q)) inv_tau_eq)) ?_
  rw [diag_apply]
  by_cases h : 1024 * (i 0).val + p.val = 1024 * (i 1).val + q.val
  · rw [if_pos h, if_pos h]; rfl
  · rw [if_neg h, if_neg h]; exact Ideal.ofBits_zero_f32

/-! # From the tiles to the array -/

variable (V : (c : Dev nD) → (b : Ref sig .tc) → Buf (Elt Ideal) ((c : Thread nD τ).loc b))

/-- The two input windows read one array. -/
theorem arr_same : Pipeline.arrRef spec2 1 = Pipeline.arrRef spec2 0 := rfl

/-- The tile a point leaves is the tile of its own two blocks, whatever the running columns were. -/
theorem tile_at (c : Dev nD) (t : Fin cfg2.N) :
    (outsAt2 (F := Ideal) V c t.val t.isLt).tile = k2_pay11 (grid2.coords t) (iblk2 V c 0 t) (iblk2 V c 1 t) := by
  by_cases h0 : t.val % 8 = 0
  · rw [outsAt2_first V c t h0]; rfl
  · rw [outsAt2_next V c t h0]; rfl

/-- The array of rows region 2 reads, at entry, as a matrix. -/
abbrev X2 (c : Dev nD) : Fin 8192 → Fin 1024 → EReal := fun r' k' => V c (Pipeline.arrRef spec2 0) (ix2 r' k')

/-- The array the first output window ends holding: the scaled similarities of the rows, the diagonal pushed down. -/
abbrev G2 (c : Dev nD) : S8192x8192.Idx → Elt Ideal .f32 := fun i => Cert.Spec.logit (X2 V c) (i 0) (i 1)

/-- Decided over the 64 grid points: the first input window is on the row block of the output's row block, the
    second on the row block of the output's column block, both on column block 0; the output's block is the
    point's coordinates, each below 8. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7 ∧ win2_2.index t (1 : Fin 2) ≤ 7
    ∧ ((grid2.coords t) 0).val = win2_2.index t (0 : Fin 2) ∧ ((grid2.coords t) 1).val = win2_2.index t (1 : Fin 2) :=
  (by decide +kernel : ∀ t : Fin grid2.N, _)

/-- Every one of the 8 × 8 blocks is some point's. -/
theorem idx_onto2 : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What point `t` writes back is block `t` of `G2`: row `p` of the first block is a whole row of the array,
    row `q` of the second another, and the tile's row and column numbers are the array's. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2, tile_at]
  obtain ⟨e0, e1, e2, e3, e4, e5, g0, g1⟩ := idx_facts2 t
  refine funext fun (j : S1024x1024.Idx) => ?_
  obtain ⟨p, q, rfl⟩ : ∃ (p q : Fin 1024), j = ix2 p q := ⟨j 0, j 1, eq_ix2 j⟩
  have hp : p.val < 1024 := p.isLt
  have hq : q.val < 1024 := q.isLt
  obtain ⟨r, hr⟩ : ∃ r : Fin 8192, r.val = win2_2.index t (0 : Fin 2) * 1024 + p.val := ⟨⟨_, by omega⟩, rfl⟩
  obtain ⟨s, hs⟩ : ∃ s : Fin 8192, s.val = win2_2.index t (1 : Fin 2) * 1024 + q.val := ⟨⟨_, by omega⟩, rfl⟩
  have hin0 : ∀ l : Fin 1024, ((cfg2.win 0).blk t).view.emb (ix2 p l) = ix2 r l := fun l => by
    funext a; apply Fin.ext
    match a with
    | ⟨0, _⟩ => show win2_0.index t (0 : Fin 2) * 1024 + 1 * p.val = r.val; omega
    | ⟨1, _⟩ => show win2_0.index t (1 : Fin 2) * 1024 + 1 * l.val = l.val; omega
  have hin1 : ∀ l : Fin 1024, ((cfg2.win 1).blk t).view.emb (ix2 q l) = ix2 s l := fun l => by
    funext a; apply Fin.ext
    match a with
    | ⟨0, _⟩ => show win2_1.index t (0 : Fin 2) * 1024 + 1 * q.val = s.val; omega
    | ⟨1, _⟩ => show win2_1.index t (1 : Fin 2) * 1024 + 1 * l.val = l.val; omega
  have hout : ((cfg2.win 2).blk t).view.emb (ix2 p q) = ix2 r s := by
    funext a; apply Fin.ext
    match a with
    | ⟨0, _⟩ => show win2_2.index t (0 : Fin 2) * 1024 + 1 * p.val = r.val; omega
    | ⟨1, _⟩ => show win2_2.index t (1 : Fin 2) * 1024 + 1 * q.val = s.val; omega
  have hblk0 : ∀ l : Fin 1024, iblk2 (F := Ideal) V c 0 t (ix2 p l) = X2 V c r l := fun l => by
    show V c (Pipeline.arrRef spec2 0) (((cfg2.win 0).blk t).view.emb (ix2 p l)) = V c (Pipeline.arrRef spec2 0) (ix2 r l)
    rw [hin0 l]
  have hblk1 : ∀ l : Fin 1024, iblk2 (F := Ideal) V c 1 t (ix2 q l) = X2 V c s l := fun l => by
    show V c (Pipeline.arrRef spec2 0) (((cfg2.win 1).blk t).view.emb (ix2 q l)) = V c (Pipeline.arrRef spec2 0) (ix2 s l)
    rw [hin1 l]
  have hiff : (1024 * ((grid2.coords t) 0).val + p.val = 1024 * ((grid2.coords t) 1).val + q.val) ↔ r = s := by
    constructor
    · intro h; apply Fin.ext; omega
    · intro h; have hv := congrArg Fin.val h; omega
  show k2_pay11 (F := Ideal) (grid2.coords t) (iblk2 V c 0 t) (iblk2 V c 1 t) (ix2 p q) = G2 V c (((cfg2.win 2).blk t).view.emb (ix2 p q))
  rw [tile_apply, hout]
  simp only [hblk0, hblk1]
  show _ = Cert.Spec.logit (X2 V c) r s
  unfold Cert.Spec.logit Cert.Spec.sim
  rw [if_congr hiff rfl rfl]

/-- An index of the output array is in point `t`'s block iff each coordinate is in the block's range. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v3_0).slice (win2_2.rect t)).set ↔ _
  rw [View.set_slice_whole, Rect.mem_set_unit]
  exact Iff.rfl

/-- The 64 blocks cover the array: entry `(r, s)` is in the block of the point on row block `r / 1024` and
    column block `s / 1024`. -/
theorem cover2 (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The first output array after region 2's run, whole: the scaled similarities of the rows it read. -/
theorem logits_whole (c : Dev nD) : (dat2 (F := Ideal) V c).arrAt 2 cfg2.N = G2 V c :=
  (dat2 (F := Ideal) V c).arrAt_eq_of_cover 2 (G2 V c) (fun t _ => flushed2_eq V c t) cover2

/-- The same, entry by entry. -/
theorem logits_arr (c : Dev nD) (r s : Fin 8192) :
    ((dat2 (F := Ideal) V c).arrAt 2 cfg2.N) (ix2 r s) = Cert.Spec.logit (fun r' k' => V c (Pipeline.arrRef spec2 0) (ix2 r' k')) r s := by
  rw [logits_whole V c]

end Cert.KernelIdeal.HandValue

end
-- ==== Proof.LibStackedRows.lean ====
/-
  Blocks stacked along the rows, and a sum taken over two halves.

  General lemmas, for any extents and any element type.  Two blocks of equal height `w` and equal width `b` set one
  above the other make a matrix of `w + w` rows: its row `i < w` is row `i` of the upper block, and its row
  `w + i` is row `i` of the lower block.  A sum over `w + w` positions, in any additive commutative monoid, is
  the sum over the first `w` positions plus the sum over the last `w`.  Indices are built from their coordinates
  (`ix2`), so each lemma rewrites a term at a literal position.
-/
import Idealize.ShloMosaic.Lib.ValueIdx
import Idealize.ShloMosaic.Lib.Pipeline.Value

noncomputable section

open Idealize.ShloMosaic Idealize.ShloMosaic.ValueIdx
open scoped BigOperators

namespace Cert.StackedRows

variable {α : Type}

/-- Two `w × b` blocks stacked into an `n × b` matrix, `n = w + w`: row `i < w` of the result is row `i` of the
    upper block. -/
theorem stacked_upper {w b n : Nat} (hn : n = w + w) (x y : (⟨2, ![w, b]⟩ : Shape).Idx → α)
    (h : Shape.Concatenates (([⟨⟨2, ![w, b]⟩, x⟩, ⟨⟨2, ![w, b]⟩, y⟩] : List ((s : Shape) × (s.Idx → α))).map (·.1)) ⟨2, ![n, b]⟩ 0)
    (i : Fin w) (i' : Fin n) (j : Fin b) (hi : i'.val = i.val) :
    concatenate ⟨2, ![n, b]⟩ 0 [⟨⟨2, ![w, b]⟩, x⟩, ⟨⟨2, ![w, b]⟩, y⟩] h (ix2 i' j) = x (ix2 i j) := by
  subst hn
  exact concatenate_ofFn_apply (t := ⟨2, ![w + w, b]⟩) (s₁ := ⟨2, ![w, b]⟩) 0 (N := 2) (fun n => (![x, y] : Fin 2 → _) n) h rfl w rfl
    (ix2 i' j) 0 (by show i'.val / w = 0; rw [hi]; exact Nat.div_eq_of_lt i.isLt) (ix2 i j)
    (by show i.val = i'.val % w; rw [hi, Nat.mod_eq_of_lt i.isLt])
    (fun c hc => by
      match c with
      | ⟨0, _⟩ => exact absurd rfl hc
      | ⟨1, _⟩ => rfl)

/-- … and row `w + i` of the result is row `i` of the lower block. -/
theorem stacked_lower {w b n : Nat} (hn : n = w + w) (x y : (⟨2, ![w, b]⟩ : Shape).Idx → α)
    (h : Shape.Concatenates (([⟨⟨2, ![w, b]⟩, x⟩, ⟨⟨2, ![w, b]⟩, y⟩] : List ((s : Shape) × (s.Idx → α))).map (·.1)) ⟨2, ![n, b]⟩ 0)
    (i : Fin w) (i' : Fin n) (j : Fin b) (hi : i'.val = w + i.val) :
    concatenate ⟨2, ![n, b]⟩ 0 [⟨⟨2, ![w, b]⟩, x⟩, ⟨⟨2, ![w, b]⟩, y⟩] h (ix2 i' j) = y (ix2 i j) := by
  subst hn
  have hw : 0 < w := by have := i.isLt; omega
  exact concatenate_ofFn_apply (t := ⟨2, ![w + w, b]⟩) (s₁ := ⟨2, ![w, b]⟩) 0 (N := 2) (fun n => (![x, y] : Fin 2 → _) n) h rfl w rfl
    (ix2 i' j) 1 (by show i'.val / w = 1; rw [hi, Nat.add_div_left _ hw, Nat.div_eq_of_lt i.isLt]) (ix2 i j)
    (by show i.val = i'.val % w; rw [hi, Nat.add_mod_left, Nat.mod_eq_of_lt i.isLt])
    (fun c hc => by
      match c with
      | ⟨0, _⟩ => exact absurd rfl hc
      | ⟨1, _⟩ => rfl)

/-- A sum over `n = w + w` positions is the sum over the first `w` of them plus the sum over the last `w`. -/
theorem sum_two_halves {M : Type} [AddCommMonoid M] {w n : Nat} (hn : n = w + w) (f : Fin n → M) :
    ∑ l : Fin n, f l
      = ∑ k : Fin w, f ⟨k.val, by have := k.isLt; omega⟩ + ∑ k : Fin w, f ⟨w + k.val, by have := k.isLt; omega⟩ := by
  subst hn
  rw [Fin.sum_univ_add]
  rfl

end Cert.StackedRows

end
-- ==== Proof.KLogits.lean ====
/- The kernel's array of scaled similarities as one function of the two float arguments: the third region reads the
   stacked rows; each half of the stack is what a normalizing region left, the argument's rows divided by their
   lengths; dividing rows by their lengths commutes with stacking. -/
import proofs.«127180_j53961969107141_2_alg».proof.Proof.ValueRun
import proofs.«127180_j53961969107141_2_alg».proof.Proof.ValueA
import proofs.«127180_j53961969107141_2_alg».proof.Proof.ValueT
import proofs.«127180_j53961969107141_2_alg».proof.Proof.LibStackedRows
import proofs.«127180_j53961969107141_2_alg».proof.Proof.Spec

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The two float arguments as matrices of extended reals. -/
abbrev A0 (c : Dev nD) : Fin 4096 → Fin 1024 → EReal := fun r k => m ((c : Thread nD τ).loc main_arg0) (ix2 r k)
abbrev A1 (c : Dev nD) : Fin 4096 → Fin 1024 → EReal := fun r k => m ((c : Thread nD τ).loc main_arg1) (ix2 r k)

/-- The rows the third region reads: the two arguments' rows, each divided by its length, stacked. -/
theorem rows_v2 (c : Dev nD) (r : Fin 8192) (k : Fin 1024) :
    X2 (V3 m ρ) c r k = Cert.Spec.stack (Cert.Spec.nrm (A0 m c)) (Cert.Spec.nrm (A1 m c)) r k := by
  show V3 m ρ c main_v2 (ix2 r k) = _
  rw [V3_v2]
  unfold Cert.Spec.stack
  by_cases h : r.val < 4096
  · rw [dif_pos h]
    refine (Cert.StackedRows.stacked_upper (w := 4096) (b := 1024) (n := 8192) rfl _ _ _ ⟨r.val, h⟩ r k rfl).trans ?_
    exact arr0 (V0 m ρ) c ⟨r.val, h⟩ k
  · rw [dif_neg h]
    have hr := r.isLt
    refine (Cert.StackedRows.stacked_lower (w := 4096) (b := 1024) (n := 8192) rfl _ _ _ ⟨r.val - 4096, by omega⟩ r k (by show r.val = 4096 + (r.val - 4096); omega)).trans ?_
    refine (arr1 (V1 m ρ) c ⟨r.val - 4096, by omega⟩ k).trans ?_
    show Cert.Spec.nrm (fun r' k' => V1 m ρ c main_arg1 (ix2 r' k')) _ _ = _
    rw [V1_main_arg1]

/-- The kernel's first output array, entry by entry: the scaled similarities of the stacked arguments' normalized
    rows. -/
theorem kernel_logits (c : Dev nD) (r s : Fin 8192) :
    ((dat2 (F := Ideal) (V3 m ρ) c).arrAt 2 cfg2.N) (ix2 r s)
      = Cert.Spec.logit (Cert.Spec.nrm (Cert.Spec.stack (A0 m c) (A1 m c))) r s := by
  rw [logits_arr]
  have e : (fun r' k' => V3 m ρ c (Pipeline.arrRef spec2 0) (ix2 r' k')) = Cert.Spec.nrm (Cert.Spec.stack (A0 m c) (A1 m c)) := by
    funext r' k'
    exact (rows_v2 m ρ c r' k').trans (Cert.Spec.nrm_stack (A0 m c) (A1 m c) r' k').symm
  rw [e]

end Cert.KernelIdeal.HandValue

end
-- ==== Proof.LibStreamingLse.lean ====
import Idealize.ShloMosaic.PureOps.Ideal

/-!
# Streaming log-sum-exp over the extended reals

A row of real numbers `x` is consumed tile by tile.  A running maximum `m` (starting at `⊥`)
and a running rescaled sum `l` (starting at `0`) are updated by

  `m' = max m (max of the tile)`,   `l' = l * exp (m - m') + ∑ over the tile of exp (x i - m')`.

The invariant `Rep x s m l` says that after the index set `s` has been consumed, `m` is the
maximum of `x` over `s` and `l = ∑ i ∈ s, exp (x i - m)` (both as coerced reals), or nothing
has been consumed yet.  One step preserves the invariant, and at the end `m + log l` is the
log-sum-exp `M + log (∑ exp (x i - M))` computed in one pass.
-/

namespace LibStreamingLse
open Idealize.ShloMosaic

/-- On a real number the extended exponential is the real exponential. -/
theorem exp_coe (r : ℝ) : Ideal.exp (r : EReal) = ((Real.exp r : ℝ) : EReal) := rfl

/-- The extended exponential of `-∞` is `0`. -/
theorem exp_bot : Ideal.exp (⊥ : EReal) = 0 := rfl

/-- On a real number the extended logarithm is `-∞` on `r ≤ 0` and the real logarithm otherwise. -/
theorem log_coe (r : ℝ) :
    Ideal.log (r : EReal) = if r ≤ 0 then ⊥ else ((Real.log r : ℝ) : EReal) := rfl

/-- On a positive real number the extended logarithm is the real logarithm. -/
theorem log_coe_of_pos {r : ℝ} (hr : 0 < r) :
    Ideal.log (r : EReal) = ((Real.log r : ℝ) : EReal) := by
  rw [log_coe, if_neg (not_le.mpr hr)]

/-- `exp (a - b)` for real `a b`, computed in the extended reals, is the real `exp (a - b)`. -/
theorem exp_coe_sub (a b : ℝ) :
    Ideal.exp ((a : EReal) - (b : EReal)) = ((Real.exp (a - b) : ℝ) : EReal) := by
  rw [← EReal.coe_sub]; rfl

/-- `exp (-∞ - b) = 0` for real `b`. -/
theorem exp_bot_sub (b : ℝ) : Ideal.exp ((⊥ : EReal) - (b : EReal)) = 0 := by
  rw [EReal.bot_sub]; rfl

/-- The coercion `ℝ → EReal` commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The coercion `ℝ → EReal` commutes with `max`. -/
theorem coe_max (a b : ℝ) : ((max a b : ℝ) : EReal) = max (a : EReal) (b : EReal) :=
  EReal.coe_strictMono.monotone.map_max

variable {ι : Type*} [DecidableEq ι] (x : ι → ℝ)

/-- A tile sum of extended exponentials `exp (x i - c)` with real `c` is the coerced real sum. -/
theorem sum_exp_coe_sub (t : Finset ι) (c : ℝ) :
    (∑ i ∈ t, Ideal.exp ((x i : EReal) - (c : EReal)))
      = ((∑ i ∈ t, Real.exp (x i - c) : ℝ) : EReal) := by
  rw [← coe_sum]
  exact Finset.sum_congr rfl (fun i _ => exp_coe_sub (x i) c)

/-- The streaming invariant: either nothing has been consumed (`s = ∅`, `m = -∞`, `l = 0`), or
    `m` is the maximum of `x` over `s` and `l = ∑ i ∈ s, exp (x i - m)`. -/
def Rep (x : ι → ℝ) (s : Finset ι) (m l : EReal) : Prop :=
  (s = ∅ ∧ m = ⊥ ∧ l = 0) ∨
    (∃ hs : s.Nonempty, m = ((s.sup' hs x : ℝ) : EReal) ∧
      l = ((∑ i ∈ s, Real.exp (x i - s.sup' hs x) : ℝ) : EReal))

/-- The initial state `(-∞, 0)` represents the empty index set. -/
theorem rep_empty : Rep x ∅ ⊥ 0 := Or.inl ⟨rfl, rfl, rfl⟩

/-- The sum `∑ i ∈ s, exp (x i - c)` over a nonempty set is positive. -/
theorem sum_exp_pos {s : Finset ι} (hs : s.Nonempty) (c : ℝ) :
    0 < ∑ i ∈ s, Real.exp (x i - c) :=
  Finset.sum_pos (fun i _ => Real.exp_pos _) hs

/-- Rescaling: `(∑ i ∈ s, exp (x i - a)) * exp (a - b) = ∑ i ∈ s, exp (x i - b)`. -/
theorem sum_exp_rescale (s : Finset ι) (a b : ℝ) :
    (∑ i ∈ s, Real.exp (x i - a)) * Real.exp (a - b) = ∑ i ∈ s, Real.exp (x i - b) := by
  rw [Finset.sum_mul]
  refine Finset.sum_congr rfl (fun i _ => ?_)
  rw [← Real.exp_add]; congr 1; ring

/-- One streaming step preserves the invariant: consuming a nonempty tile `t` disjoint from `s`,
    with tile maximum `mt`, the new state `m' = max m mt`,
    `l' = l * exp (m - m') + ∑ i ∈ t, exp (x i - m')` represents `s ∪ t`.  On the first step
    `m = -∞`, `l = 0`, and `0 * exp (-∞ - m') = 0 * 0 = 0`. -/
theorem rep_step {s t : Finset ι} {m l : EReal} (h : Rep x s m l) (hd : Disjoint s t)
    (ht : t.Nonempty) (mt : EReal) (hmt : mt = ((t.sup' ht x : ℝ) : EReal)) :
    Rep x (s ∪ t) (max m mt)
      (l * Ideal.exp (m - max m mt) + ∑ i ∈ t, Ideal.exp ((x i : EReal) - max m mt)) := by
  subst hmt
  rcases h with ⟨rfl, rfl, rfl⟩ | ⟨hs, rfl, rfl⟩
  · rw [Finset.empty_union, max_eq_right bot_le, exp_bot_sub, zero_mul, zero_add,
      sum_exp_coe_sub]
    exact Or.inr ⟨ht, rfl, rfl⟩
  · refine Or.inr ⟨hs.mono Finset.subset_union_left, ?_, ?_⟩
    · rw [Finset.sup'_union hs ht x, ← coe_max]
    · rw [Finset.sup'_union hs ht x, ← coe_max, exp_coe_sub, sum_exp_coe_sub, ← EReal.coe_mul,
        ← EReal.coe_add, sum_exp_rescale, Finset.sum_union hd]

/-- The coercion `ℝ → EReal` commutes with the maximum over a nonempty finite set. -/
theorem coe_sup' {t : Finset ι} (ht : t.Nonempty) :
    ((t.sup' ht x : ℝ) : EReal) = t.sup' ht (fun i => (x i : EReal)) :=
  Finset.comp_sup'_eq_sup'_comp ht (fun r : ℝ => (r : EReal)) coe_max

/-- The streaming step with the rescaling factor written on the left:
    `l' = exp (m - m') * l + ∑ i ∈ t, exp (x i - m')`. -/
theorem rep_step_comm {s t : Finset ι} {m l : EReal} (h : Rep x s m l) (hd : Disjoint s t)
    (ht : t.Nonempty) (mt : EReal) (hmt : mt = ((t.sup' ht x : ℝ) : EReal)) :
    Rep x (s ∪ t) (max m mt)
      (Ideal.exp (m - max m mt) * l + ∑ i ∈ t, Ideal.exp ((x i : EReal) - max m mt)) := by
  rw [mul_comm]; exact rep_step x h hd ht mt hmt

/-- Once a nonempty set has been consumed, the state is the pair of coerced reals
    `(M, ∑ i ∈ s, exp (x i - M))` with `M` the maximum over `s`. -/
theorem rep_of_nonempty {s : Finset ι} {m l : EReal} (h : Rep x s m l) (hs : s.Nonempty) :
    m = ((s.sup' hs x : ℝ) : EReal) ∧
      l = ((∑ i ∈ s, Real.exp (x i - s.sup' hs x) : ℝ) : EReal) := by
  rcases h with ⟨rfl, -, -⟩ | ⟨_, hm, hl⟩
  · exact absurd hs Finset.not_nonempty_empty
  · exact ⟨hm, hl⟩

/-- At the end, `m + log l` is the one-pass log-sum-exp `M + log (∑ i ∈ s, exp (x i - M))` with
    `M` the maximum over `s`; the sum is positive, so the logarithm is the real one. -/
theorem rep_final {s : Finset ι} {m l : EReal} (h : Rep x s m l) (hs : s.Nonempty) :
    m + Ideal.log l
      = ((s.sup' hs x + Real.log (∑ i ∈ s, Real.exp (x i - s.sup' hs x)) : ℝ) : EReal) := by
  rcases h with ⟨rfl, -, -⟩ | ⟨hs', rfl, rfl⟩
  · exact absurd hs Finset.not_nonempty_empty
  · rw [log_coe_of_pos (sum_exp_pos x hs' _), ← EReal.coe_add]

/-- `(M + log S) - x_y = -((x_y - M) - log S)` in the extended reals, where `M` is the maximum
    over `s` and `S = ∑ i ∈ s, exp (x i - M) > 0`; every term is a real number. -/
theorem lse_sub_target {s : Finset ι} (hs : s.Nonempty) (y : ι) :
    (((s.sup' hs x + Real.log (∑ i ∈ s, Real.exp (x i - s.sup' hs x)) : ℝ) : EReal)
        - (x y : EReal))
      = - ((((x y : ℝ) : EReal) - ((s.sup' hs x : ℝ) : EReal))
          - Ideal.log ((∑ i ∈ s, Real.exp (x i - s.sup' hs x) : ℝ) : EReal)) := by
  rw [log_coe_of_pos (sum_exp_pos x hs _), ← EReal.coe_sub, ← EReal.coe_sub, ← EReal.coe_sub,
    ← EReal.coe_neg]
  congr 1; ring

end LibStreamingLse
-- ==== Proof.LibWordAccumulators.lean ====
/-
  Reductions of a single-precision matrix whose accumulator is a WRITTEN-OUT word, read at an index, on the
  extended reals (general: any extents).

  A printed reduction carries, as its evidence that the accumulator is the operation's neutral element, a proof of
  an equation between two numerals (`0x00000000#32 = 0x00000000#32`, `0xFF800000#32 = 0xFF800000#32`).  The lemmas
  here are stated with the evidence typed exactly so, and therefore rewrite such a term where it stands:
  * `laneSum_zero_apply`: the sum along the rows of an [a, b] matrix from the zero word, read at row `i`, is the sum
    of row `i`;
  * `rowsSum_zero_apply`: the sum over the row axis from the zero word, read at column `j`, is the sum of column `j`;
  * `laneMax_negInf_apply`: the maximum along the rows from the word of `−∞`, read at row `i`, is the fold of `max`
    from that word's value over row `i`.
-/
import Idealize.ShloMosaic.PureOps.Ideal.Laws
import Idealize.ShloMosaic.Lib.ValueIdx

noncomputable section

open scoped BigOperators

open Idealize.ShloMosaic Idealize.ShloMosaic.ValueIdx

namespace Cert.WordAccumulators

/-- The sum of an `a × b` matrix along its rows from the zero word, read at `i`: the sum of row `i`. -/
theorem laneSum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  show (∑ k : Fin b, src (h.lift (ix1 i) k)) = _
  refine Finset.sum_congr rfl fun k _ => congrArg src ?_
  funext d; apply Fin.ext
  match d with
  | ⟨0, _⟩ => rfl
  | ⟨1, _⟩ => rfl

/-- The sum of an `a × b` matrix over its row axis from the zero word, read at column `j`: the sum of column `j`. -/
theorem rowsSum_zero_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  show (∑ r : Fin a, src (h.lift (ix1 j) r)) = _
  refine Finset.sum_congr rfl fun r _ => congrArg src ?_
  funext d; apply Fin.ext
  match d with
  | ⟨0, _⟩ => rfl
  | ⟨1, _⟩ => rfl

/-- The maximum of an `a × b` matrix along its rows from the word of `−∞`, read at `i`: the fold of `max`, from that
    word's value, over row `i`. -/
theorem laneMax_negInf_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  show (Finset.univ : Finset (Fin b)).fold max (Ideal.ofBits .f32 0xFF800000#32) (fun k => src (h.lift (ix1 i) k)) = _
  refine congrArg (fun f => Finset.fold max (Ideal.ofBits .f32 0xFF800000#32) f (Finset.univ : Finset (Fin b))) ?_
  funext k
  refine congrArg src ?_
  funext d; apply Fin.ext
  match d with
  | ⟨0, _⟩ => rfl
  | ⟨1, _⟩ => rfl

end Cert.WordAccumulators

end
-- ==== Proof.ValueL.lean ====
import proofs.«127180_j53961969107141_2_alg».proof.Proof.FrameR0
import proofs.«127180_j53961969107141_2_alg».proof.Proof.LibStreamingLse
import proofs.«127180_j53961969107141_2_alg».proof.Proof.LibWordAccumulators
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-!
# The running columns of the third region at the extended reals

Each grid point of the third region holds a 1024 × 1024 tile and three 1024 × 1 columns carried along a block of
rows: a running maximum, a running sum of exponentials rescaled to that maximum, and a running sum of the
entries a mask selects.  Here each value the region computes from them is read at a row: the fresh columns are
`-∞`, `0` and `0`; the new maximum is the larger of the old one and the tile's row maximum; the new sum is the
old one rescaled to the new maximum plus the tile's row sum of exponentials against it; the new masked sum is the
old one plus the tile's row sum of the selected entries; and the per-row output is maximum plus logarithm of the
sum, minus the masked sum.
-/

namespace Cert.KernelIdeal.HandValue

open Cert.KernelIdeal Cert.KernelIdeal.Gen Cert.KernelIdeal.Hand
open Idealize.ShloMosaic Idealize.ShloMosaic.TcCoe Idealize.ShloMosaic.ValueIdx
open scoped BigOperators

/-! ## The payloads read at a row -/

/-- Entry `p` of a length-1024 vector and entry `(p, 0)` of a 1024 × 1 column sit at the same row-major position. -/
theorem colL_pos (p : Fin 1024) :
    (S1024.rowMajor (ix1 p)).val = (S1024x1.rowMajor (ix2 p (0 : Fin 1))).val := by
  rw [Shape.rowMajor_val_one, Shape.rowMajor_val_two]
  show p.val = p.val * 1 + 0
  omega

/-- A length-1024 vector cast to a 1024 × 1 column reads, at `(p, 0)`, the vector's entry `p`. -/
theorem castColL_apply {α : Type} (v : S1024.Idx → α) (p : Fin 1024) :
    shapeCast S1024x1 v shapeCasts_S1024_S1024x1 (ix2 p (0 : Fin 1)) = v (ix1 p) :=
  shapeCast_apply v shapeCasts_S1024_S1024x1 (ix2 p (0 : Fin 1)) (ix1 p) (colL_pos p)

/-- A 1024 × 1 column broadcast along the rows reads, at `(p, q)`, the column's entry `(p, 0)`. -/
theorem bcastColL_apply {α : Type} (v : S1024x1.Idx → α) (p q : Fin 1024) :
    broadcastTo S1024x1024 v broadcasts_S1024x1_S1024x1024 (ix2 p q) = v (ix2 p (0 : Fin 1)) :=
  broadcastTo_apply v broadcasts_S1024x1_S1024x1024 (ix2 p q) (ix2 p (0 : Fin 1))
    (by intro a; fin_cases a <;> simp)

/-- The single-precision word `0xFF800000` denotes `-∞`. -/
theorem negInfL_word : Ideal.ofBits .f32 0xFF800000#32 = (⊥ : EReal) := by
  simp [Ideal.ofBits, Ideal.ieee]

/-- The fresh running maximum is `-∞` at every row. -/
theorem pay6_apply (p : Fin 1024) : k2_pay6 (F := Ideal) (ix2 p (0 : Fin 1)) = (⊥ : EReal) := by
  unfold k2_pay6
  rw [shapeCast_self]
  exact negInfL_word

/-- The fresh running sum is `0` at every row. -/
theorem pay7_apply (p : Fin 1024) : k2_pay7 (F := Ideal) (ix2 p (0 : Fin 1)) = (0 : EReal) := by
  unfold k2_pay7
  rw [shapeCast_self]
  exact Ideal.ofBits_zero_f32

/-- The fresh running masked sum is `0` at every row. -/
theorem pay8_apply (p : Fin 1024) : k2_pay8 (F := Ideal) (ix2 p (0 : Fin 1)) = (0 : EReal) := by
  unfold k2_pay8
  rw [shapeCast_self]
  exact Ideal.ofBits_zero_f32

/-- The tile of zeros is `0` at every entry. -/
theorem pay13_apply (j : S1024x1024.Idx) : k2_pay13 (F := Ideal) j = (0 : EReal) :=
  Ideal.ofBits_zero_f32

/-- The stored new maximum is the new maximum itself (the cast to the same shape is the identity). -/
theorem pay3_eq_pay1 (P : Vec Ideal S1024x1024 .f32) (m : Vec Ideal S1024x1 .f32) :
    k2_pay3 (F := Ideal) P m = k2_pay1 (F := Ideal) P m := by
  unfold k2_pay3
  exact shapeCast_self _ _

/-- The maximum folded from the word of `-∞` over a row is the row's maximum. -/
theorem foldMaxL_word (f : Fin 1024 → EReal) :
    (Finset.univ : Finset (Fin 1024)).fold max (Ideal.ofBits .f32 0xFF800000#32) f
      = Finset.univ.sup' Finset.univ_nonempty f := by
  rw [negInfL_word, Finset.sup'_eq_sup]
  rfl

/-- The new running maximum at row `p`: the larger of the old one and the tile's row maximum. -/
theorem pay3_apply (P : Vec Ideal S1024x1024 .f32) (m : Vec Ideal S1024x1 .f32) (p : Fin 1024) :
    (k2_pay3 (F := Ideal) P m (ix2 p (0 : Fin 1)) : EReal)
      = max (m (ix2 p (0 : Fin 1)) : EReal)
          ((Finset.univ : Finset (Fin 1024)).sup' Finset.univ_nonempty (fun q => (P (ix2 p q) : EReal))) := by
  rw [pay3_eq_pay1]
  unfold k2_pay1
  refine (maximumf_apply _ _ _).trans ?_
  refine congrArg (max (m (ix2 p (0 : Fin 1)) : EReal)) ?_
  refine (castColL_apply _ p).trans ?_
  exact (Cert.WordAccumulators.laneMax_negInf_apply P _ _ _ p).trans (foldMaxL_word _)

/-- The new running sum at row `p`: the old one rescaled from the old maximum to the new, plus the tile's row sum
    of exponentials taken against the new maximum. -/
theorem pay2_apply (P : Vec Ideal S1024x1024 .f32) (m l : Vec Ideal S1024x1 .f32) (p : Fin 1024) :
    (k2_pay2 (F := Ideal) P m l m (ix2 p (0 : Fin 1)) : EReal)
      = (l (ix2 p (0 : Fin 1)) : EReal)
          * Ideal.exp ((m (ix2 p (0 : Fin 1)) : EReal) - k2_pay3 (F := Ideal) P m (ix2 p (0 : Fin 1)))
        + ∑ q : Fin 1024, Ideal.exp ((P (ix2 p q) : EReal) - k2_pay3 (F := Ideal) P m (ix2 p (0 : Fin 1))) := by
  rw [pay3_eq_pay1]
  unfold k2_pay2
  rw [shapeCast_self]
  refine (addf_apply _ _ _).trans ?_
  refine congrArg (fun s : EReal => (l (ix2 p (0 : Fin 1)) : EReal)
      * Ideal.exp ((m (ix2 p (0 : Fin 1)) : EReal) - k2_pay1 (F := Ideal) P m (ix2 p (0 : Fin 1))) + s) ?_
  refine (castColL_apply _ p).trans ?_
  refine (Cert.WordAccumulators.laneSum_zero_apply _ _ _ _ p).trans ?_
  refine Finset.sum_congr rfl fun q _ => ?_
  exact congrArg (fun y : EReal => Ideal.exp ((P (ix2 p q) : EReal) - y)) (bcastColL_apply _ p q)

/-- The new running masked sum at row `p`: the old one plus the tile's row sum of the entries the mask selects. -/
theorem pay4_apply (P : Vec Ideal S1024x1024 .f32) (mask : IVec S1024x1024 1) (t : Vec Ideal S1024x1 .f32)
    (p : Fin 1024) :
    (k2_pay4 (F := Ideal) P mask (k2_pay13 (F := Ideal)) t (ix2 p (0 : Fin 1)) : EReal)
      = (t (ix2 p (0 : Fin 1)) : EReal)
        + ∑ q : Fin 1024, (if mask (ix2 p q) = 1#1 then (P (ix2 p q) : EReal) else 0) := by
  unfold k2_pay4
  rw [shapeCast_self]
  refine (addf_apply _ _ _).trans ?_
  refine congrArg (fun s : EReal => (t (ix2 p (0 : Fin 1)) : EReal) + s) ?_
  refine (castColL_apply _ p).trans ?_
  refine (Cert.WordAccumulators.laneSum_zero_apply _ _ _ _ p).trans ?_
  refine Finset.sum_congr rfl fun q _ => ?_
  rw [select_apply, pay13_apply]
  rfl

/-- The per-row output at row `p`: maximum plus logarithm of the sum, minus the masked sum. -/
theorem pay5_apply (m l t : Vec Ideal S1024x1 .f32) (p : Fin 1024) :
    (k2_pay5 (F := Ideal) m l t (ix2 p (0 : Fin 1)) : EReal)
      = ((m (ix2 p (0 : Fin 1)) : EReal) + Ideal.log (l (ix2 p (0 : Fin 1)))) - (t (ix2 p (0 : Fin 1)) : EReal) :=
  rfl

end Cert.KernelIdeal.HandValue

end
-- ==== Proof.ValueC.lean ====
import proofs.«127180_j53961969107141_2_alg».proof.Proof.FrameR0
import proofs.«127180_j53961969107141_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! The third region's second output, the per-row column: a row block's column is written back once, at the
    last of the row block's eight column steps, and holds what that step stored; so after the run, entry
    `1024·a + p` of the array is entry `p` of what point `8·a + 7` left there. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

section Column
variable {F : FTy → Type} [FloatOps F] [Named F]
variable (V : (c : Dev nD) → (b : Ref sig .tc) → Buf (Elt F) ((c : Thread nD τ).loc b))

/-- The per-row entry a point leaves depends only on the point's position and the row. -/
theorem loss_congr (c : Dev nD) {n n' : ℕ} (hn : n < cfg2.N) (hn' : n' < cfg2.N) (e : n = n') {p p' : Fin 1024} (ep : p = p')
    (z z' : Fin 1) : (outsAt2 V c n hn).loss (ix2 p z) = (outsAt2 V c n' hn').loss (ix2 p' z') := by
  subst e; subst ep; rw [Subsingleton.elim z z']

/-- Decided over the 64 grid points: the per-row window is on row block `t / 8`, column block 0. -/
theorem idx_facts3 : ∀ t : Fin cfg2.N, win2_3.index t (0 : Fin 2) = t.val / 8 ∧ win2_3.index t (1 : Fin 2) = 0 :=
  (by decide +kernel : ∀ t : Fin grid2.N, _)

/-- The array the per-row window ends holding: row `i` holds entry `i mod 1024` of what the last column step of
    row block `i / 1024` left. -/
def G3 (c : Dev nD) : S8192x1.Idx → Elt F .f32 := fun i =>
  (outsAt2 V c (8 * ((i 0).val / 1024) + 7)
      (by have h : (i 0).val < 8192 := (i 0).isLt; have hN : cfg2.N = 64 := N_2; omega)).loss
    (ix2 (⟨(i 0).val % 1024, Nat.mod_lt _ (by norm_num)⟩ : Fin 1024) (0 : Fin 1))

/-- What a flushing point writes back is its block of `G3`: it is the last column step of its row block. -/
theorem flushed3_eq (c : Dev nD) (t : Fin cfg2.N) (hf : (cfg2.win 3).flush t = true) :
    (dat2 V c).flushed 3 t = ((cfg2.win 3).blk t).view.read (Elt F) (G3 V c) := by
  have h7 : t.val % 8 = 7 := (flush2_3 t).mp hf
  have hN : cfg2.N = 64 := N_2
  have ht := t.isLt
  obtain ⟨e0, e1⟩ := idx_facts3 t
  show (cfg2.win 3).cut (grid2.coords t) ((dat2 V c).after 3 t) = _
  rw [after2_3]
  refine funext fun (j : S1024x1.Idx) => ?_
  obtain ⟨p, z, rfl⟩ : ∃ (p : Fin 1024) (z : Fin 1), j = ix2 p z := ⟨j 0, j 1, eq_ix2 j⟩
  have hp := p.isLt
  have hz : z.val = 0 := by have := z.isLt; omega
  obtain ⟨r, hr⟩ : ∃ r : Fin 8192, r.val = win2_3.index t (0 : Fin 2) * 1024 + p.val := ⟨⟨_, by omega⟩, rfl⟩
  have hout : ((cfg2.win 3).blk t).view.emb (ix2 p z) = ix2 r (0 : Fin 1) := by
    funext a; apply Fin.ext
    match a with
    | ⟨0, _⟩ => show win2_3.index t (0 : Fin 2) * 1024 + 1 * p.val = r.val; omega
    | ⟨1, _⟩ => show win2_3.index t (1 : Fin 2) * 1 + 1 * z.val = 0; omega
  show (outsAt2 V c t.val t.isLt).loss (ix2 p z) = G3 V c (((cfg2.win 3).blk t).view.emb (ix2 p z))
  rw [hout]
  unfold G3
  exact loss_congr V c _ _ (by show t.val = 8 * (r.val / 1024) + 7; omega)
    (Fin.ext (by show p.val = r.val % 1024; omega)) _ _

/-- An index of the per-row array is in point `t`'s block iff each coordinate is in the block's range. -/
theorem mem_blk3 (t : Fin cfg2.N) (i : S8192x1.Idx) :
    i ∈ ((cfg2.win 3).blk t).view.set ↔ ∀ a : Fin 2, win2_3.index t a * S1024x1.size a ≤ (i a).val ∧ (i a).val < win2_3.index t a * S1024x1.size a + S1024x1.size a := by
  show i ∈ ((View.whole main_v3_1).slice (win2_3.rect t)).set ↔ _
  rw [View.set_slice_whole, Rect.mem_set_unit]
  exact Iff.rfl

/-- The eight flushing points' blocks cover the array: row `i` is in the block of the last column step of row
    block `i / 1024`. -/
theorem cover3 (i : S8192x1.Idx) :
    ∃ t : Fin cfg2.N, (cfg2.win 3).flush t = true ∧ i ∈ ((cfg2.win 3).blk t).view.set := by
  have hi0 : (i 0).val < 8192 := (i 0).isLt
  have hi1 : (i 1).val < 1 := (i 1).isLt
  have hN : cfg2.N = 64 := N_2
  obtain ⟨t, tv⟩ : ∃ t : Fin cfg2.N, t.val = 8 * ((i 0).val / 1024) + 7 := ⟨⟨_, by omega⟩, rfl⟩
  obtain ⟨e0, e1⟩ := idx_facts3 t
  refine ⟨t, (flush2_3 t).mpr (by omega), ?_⟩
  rw [mem_blk3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1 ≤ (i 1).val ∧ (i 1).val < win2_3.index t (1 : Fin 2) * 1 + 1; omega

/-- The per-row array after region 2's run, whole. -/
theorem loss_whole (c : Dev nD) : (dat2 V c).arrAt 3 cfg2.N = G3 V c :=
  (dat2 V c).arrAt_eq_of_cover 3 (G3 V c) (fun t hf => flushed3_eq V c t hf) cover3

/-- Entry `1024·a + p` of the per-row array after the run is entry `p` of what the last column step of row block
    `a` left. -/
theorem loss_arr (c : Dev nD) (a : Fin 8) (p : Fin 1024) :
    ((dat2 V c).arrAt 3 cfg2.N) (ix2 (⟨1024 * a.val + p.val, by have := a.isLt; have := p.isLt; omega⟩ : Fin 8192) (0 : Fin 1))
      = (outsAt2 V c (8 * a.val + 7) (by have := a.isLt; have hN : cfg2.N = 64 := N_2; omega)).loss (ix2 p (0 : Fin 1)) := by
  have ha := a.isLt
  have hp := p.isLt
  rw [loss_whole V c]
  unfold G3
  exact loss_congr V c _ _ (by show 8 * ((1024 * a.val + p.val) / 1024) + 7 = 8 * a.val + 7; omega)
    (Fin.ext (by show (1024 * a.val + p.val) % 1024 = p.val; omega)) _ _

end Column

end Cert.KernelIdeal.HandValue

end
-- ==== Proof.Mask.lean ====
/-
  The third kernel's target mask, read at an index, and the sums a one-hot mask collapses.

  Block (i₀, i₁) of the grid holds rows 1024·i₀ + p and columns 1024·i₁ + q of the 8192 × 8192 matrix of scaled
  similarities, p, q < 1024.  The mask is one exactly where the column is the row's positive pair: the row 4096 below
  for a row of the upper half, the row 4096 above for a row of the lower half.  Every word involved is below 2¹³ (an
  index) or below 2¹⁴ (an index plus 4096), so 32-bit arithmetic does not wrap, the signed comparison with 4096 is the
  comparison of naturals, and equality of words is equality of naturals.
-/
import proofs.«127180_j53961969107141_2_alg».proof.Proof.Gen.KernelIdeal.Skeleton
import proofs.«127180_j53961969107141_2_alg».proof.Proof.Spec
import Idealize.ShloMosaic.Lib.ValueIdx
import Idealize.ShloMosaic.Lib.ValueLayout
import Idealize.ShloMosaic.Lib.Pipeline.Value

noncomputable section

namespace Cert.KernelIdeal.HandValue

open Idealize.ShloMosaic Cert.KernelIdeal Cert.KernelIdeal.Gen ValueIdx

/-! ## Words -/

/-- The word of `a` times the word 1024, plus the word of `p`, is the word of `1024·a + p` (32-bit arithmetic is
    arithmetic modulo 2³², and taking the word of a natural is a ring homomorphism). -/
theorem word_index (a p : ℕ) :
    IntOp.addi (Scalar.muli (BitVec.ofNat 32 a) 1024#32) (BitVec.ofNat 32 p) = BitVec.ofNat 32 (1024 * a + p) := by
  show BitVec.ofNat 32 a * BitVec.ofNat 32 1024 + BitVec.ofNat 32 p = _
  rw [← BitVec.ofNat_mul, ← BitVec.ofNat_add, Nat.mul_comm]

/-- Below 2³² the word of a natural determines it. -/
theorem ofNat_inj_of_lt {x y : ℕ} (hx : x < 2 ^ 32) (hy : y < 2 ^ 32) : BitVec.ofNat 32 x = BitVec.ofNat 32 y ↔ x = y := by
  constructor
  · intro h
    have := congrArg BitVec.toNat h
    rwa [BitVec.toNat_ofNat, BitVec.toNat_ofNat, Nat.mod_eq_of_lt hx, Nat.mod_eq_of_lt hy] at this
  · intro h; rw [h]

/-- For a row index `r < 8192`, the signed comparison of its word with the word 4096 is the comparison of naturals. -/
theorem slt_4096 (r : ℕ) (hr : r < 8192) : (BitVec.ofNat 32 r).slt 4096#32 = decide (r < 4096) := by
  have hx : (BitVec.ofNat 32 r).toNat = r := by rw [BitVec.toNat_ofNat]; exact Nat.mod_eq_of_lt (by omega)
  have h1 : (BitVec.ofNat 32 r).toInt = (r : ℤ) := by
    rw [BitVec.toInt_eq_toNat_of_lt (by rw [hx]; omega), hx]
  have h2 : (4096#32 : BitVec 32).toInt = (4096 : ℤ) := by decide
  rw [BitVec.slt_eq_decide, h1, h2]
  exact decide_eq_decide.mpr Int.ofNat_lt

/-- The mask on words: for a row index `r` and a column index `c`, both below 8192, the word of `c` equals the selected
    word (`r + 4096` when `r <ₛ 4096`, else `r − 4096`) exactly when `c` is `r + 4096`, resp. `r − 4096`. -/
theorem word_mask (r c : ℕ) (hr : r < 8192) (hc : c < 8192) :
    IntOp.cmpi .eq (BitVec.ofNat 32 c)
        (Scalar.select (IntOp.cmpi .slt (BitVec.ofNat 32 r) 4096#32) (IntOp.addi (BitVec.ofNat 32 r) 4096#32)
          (IntOp.subi (BitVec.ofNat 32 r) 4096#32)) = 1#1
      ↔ c = if r < 4096 then r + 4096 else r - 4096 := by
  have hadd : IntOp.addi (BitVec.ofNat 32 r) 4096#32 = BitVec.ofNat 32 (r + 4096) := by
    show BitVec.ofNat 32 r + BitVec.ofNat 32 4096 = _
    rw [← BitVec.ofNat_add]
  have heq : ∀ x y : BitVec 32, IntOp.cmpi .eq x y = 1#1 ↔ x = y := by
    intro x y
    show BitVec.ofBool (x == y) = 1#1 ↔ x = y
    by_cases h : x = y
    · simp [h]
    · have hb : (x == y) = false := beq_eq_false_iff_ne.mpr h
      rw [hb]
      exact ⟨fun hc => absurd hc (by decide), fun hc => absurd hc h⟩
  have hs : IntOp.cmpi .slt (BitVec.ofNat 32 r) 4096#32 = BitVec.ofBool (decide (r < 4096)) := by
    show BitVec.ofBool ((BitVec.ofNat 32 r).slt 4096#32) = _
    rw [slt_4096 r hr]
  by_cases h : r < 4096
  · have hsel : Scalar.select (IntOp.cmpi .slt (BitVec.ofNat 32 r) 4096#32) (IntOp.addi (BitVec.ofNat 32 r) 4096#32)
        (IntOp.subi (BitVec.ofNat 32 r) 4096#32) = BitVec.ofNat 32 (r + 4096) := by
      rw [hs, decide_eq_true h, hadd]; rfl
    rw [hsel, heq, if_pos h]
    exact ofNat_inj_of_lt (by omega) (by omega)
  · have hsub : IntOp.subi (BitVec.ofNat 32 r) 4096#32 = BitVec.ofNat 32 (r - 4096) := by
      apply BitVec.eq_of_toNat_eq
      show (BitVec.ofNat 32 r - BitVec.ofNat 32 4096).toNat = _
      rw [BitVec.toNat_sub, BitVec.toNat_ofNat, BitVec.toNat_ofNat, BitVec.toNat_ofNat]
      omega
    have hsel : Scalar.select (IntOp.cmpi .slt (BitVec.ofNat 32 r) 4096#32) (IntOp.addi (BitVec.ofNat 32 r) 4096#32)
        (IntOp.subi (BitVec.ofNat 32 r) 4096#32) = BitVec.ofNat 32 (r - 4096) := by
      rw [hs, decide_eq_false h, hsub]; rfl
    rw [hsel, heq, if_neg h]
    exact ofNat_inj_of_lt (by omega) (by omega)

/-! ## The index vectors at an index -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The grid's two coordinates are below 8. -/
theorem coord0_lt (i : grid2.Coords) : (i 0).val < 8 := (i 0).isLt
theorem coord1_lt (i : grid2.Coords) : (i 1).val < 8 := (i 1).isLt

/-- Row `1024·i₀ + p` is one of the 8192 rows. -/
theorem row_lt (i : grid2.Coords) (p : Fin 1024) : 1024 * (i 0).val + p.val < 4096 + 4096 := by
  have := coord0_lt i; have := p.isLt; omega

/-- The row-index column of block `i` reads, at row `p`, the word of `1024·i₀ + p`. -/
theorem pay9_apply (i : grid2.Coords) (p : Fin 1024) :
    k2_pay9 i (ix2 p (0 : Fin 1)) = BitVec.ofNat 32 (1024 * (i 0).val + p.val) := by
  unfold k2_pay9
  show IntOp.addi (Scalar.muli (BitVec.ofNat 32 (i 0).val) 1024#32) (iota .tc S1024x1 32 [0] _ (ix2 p (0 : Fin 1))) = _
  rw [iota_single_apply]
  exact word_index _ _

/-- The column-index row of block `i` reads, at column `q`, the word of `1024·i₁ + q`. -/
theorem pay10_apply (i : grid2.Coords) (q : Fin 1024) :
    k2_pay10 i (ix2 (0 : Fin 1) q) = BitVec.ofNat 32 (1024 * (i 1).val + q.val) := by
  unfold k2_pay10
  show IntOp.addi (Scalar.muli (BitVec.ofNat 32 (i 1).val) 1024#32) (iota .tc S1x1024 32 [1] _ (ix2 (0 : Fin 1) q)) = _
  rw [iota_single_apply]
  exact word_index _ _

/-! ## The mask -/

/-- The positive pair of row `r` among 8192 rows, as a natural. -/
theorem tgt_val (r : ℕ) (h : r < 4096 + 4096) :
    (Cert.Spec.tgt 4096 ⟨r, h⟩).val = if r < 4096 then r + 4096 else r - 4096 := by
  unfold Cert.Spec.tgt
  by_cases hr : r < 4096
  · rw [dif_pos (show (⟨r, h⟩ : Fin (4096 + 4096)).val < 4096 from hr), if_pos hr]
  · rw [dif_neg (show ¬ (⟨r, h⟩ : Fin (4096 + 4096)).val < 4096 from hr), if_neg hr]

/-- The mask of block `i` is one at `(p, q)` exactly when column `1024·i₁ + q` is the positive pair of row
    `1024·i₀ + p`. -/
theorem mask_iff (i : grid2.Coords) (p q : Fin 1024) :
    k2_pay12 i (ix2 p q) = 1#1 ↔
      (1024 * (i 1).val + q.val) = (Cert.Spec.tgt 4096 ⟨1024 * (i 0).val + p.val, row_lt i p⟩).val := by
  have h0 := coord0_lt i
  have h1 := coord1_lt i
  have hp := p.isLt
  have hq := q.isLt
  have e : k2_pay12 i (ix2 p q) =
      IntOp.cmpi .eq (k2_pay10 i (ix2 (0 : Fin 1) q))
        (Scalar.select (IntOp.cmpi .slt (k2_pay9 i (ix2 p (0 : Fin 1))) 4096#32)
          (IntOp.addi (k2_pay9 i (ix2 p (0 : Fin 1))) 4096#32) (IntOp.subi (k2_pay9 i (ix2 p (0 : Fin 1))) 4096#32)) := by
    unfold k2_pay12
    show IntOp.cmpi .eq (broadcastTo S1024x1024 (k2_pay10 i) _ (ix2 p q)) (broadcastTo S1024x1024 _ _ (ix2 p q)) = _
    rw [broadcastTo_1b_ab_apply, broadcastTo_a1_ab_apply]
    rfl
  rw [e, pay9_apply, pay10_apply, word_mask _ _ (by omega) (by omega), tgt_val]

/-! ## The sums a one-hot mask collapses -/

/-- A sum masked to one index is the summand there. -/
theorem masked_sum_row {n : ℕ} (z : Fin n → EReal) (k : Fin n) : ∑ s : Fin n, (if s = k then z s else 0) = z k := by
  rw [Finset.sum_ite_eq' Finset.univ k z, if_pos (Finset.mem_univ k)]

/-- The same over 8 blocks of 1024: a double sum masked to one block and one place in it is the summand there. -/
theorem masked_sum_blocks (z : Fin 8 → Fin 1024 → EReal) (b0 : Fin 8) (q0 : Fin 1024) :
    ∑ b : Fin 8, ∑ q : Fin 1024, (if (b = b0 ∧ q = q0) then z b q else 0) = z b0 q0 := by
  have inner : ∀ b : Fin 8,
      ∑ q : Fin 1024, (if (b = b0 ∧ q = q0) then z b q else 0) = if b = b0 then z b q0 else 0 := by
    intro b
    by_cases hb : b = b0
    · rw [if_pos hb]
      simp only [hb, true_and]
      exact masked_sum_row (z b0) q0
    · rw [if_neg hb]
      simp only [hb, false_and, if_false]
      exact Finset.sum_const_zero
  simp only [inner]
  exact masked_sum_row (fun b => z b q0) b0

end Cert.KernelIdeal.HandValue

end
-- ==== Proof.ValueC2.lean ====
import proofs.«127180_j53961969107141_2_alg».proof.Proof.ValueT
import proofs.«127180_j53961969107141_2_alg».proof.Proof.ValueC
import proofs.«127180_j53961969107141_2_alg».proof.Proof.Mask
import proofs.«127180_j53961969107141_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! The third region at the grid point of row block `a` and column step `b`: the point's coordinates, the tile's
    entries as scaled similarities of the array's rows, and where the target mask is set. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! # Bounds -/

/-- The position of the point of row block `a`, column step `b`, is one of the 64. -/
theorem pt_lt (a b : Fin 8) : 8 * a.val + b.val < cfg2.N := by
  have := a.isLt; have := b.isLt; have hN : cfg2.N = 64 := N_2; omega

/-- Row `1024·a + p` is one of the 8192. -/
theorem row8 (a : Fin 8) (p : Fin 1024) : 1024 * a.val + p.val < 8192 := by
  have := a.isLt; have := p.isLt; omega

/-- The grid point of row block `a`, column step `b`. -/
abbrev pt (a b : Fin 8) : Fin cfg2.N := ⟨8 * a.val + b.val, pt_lt a b⟩

/-! # The point's coordinates -/

/-- Decided over the 64 grid points: point `t` has coordinates `(t / 8, t mod 8)`. -/
theorem coords_div : ∀ t : Fin cfg2.N, ((grid2.coords t) 0).val = t.val / 8 ∧ ((grid2.coords t) 1).val = t.val % 8 :=
  (by decide +kernel : ∀ t : Fin grid2.N, _)

/-- The point of row block `a`, column step `b`, has coordinates `(a, b)`. -/
theorem coords_at (a b : Fin 8) :
    ((grid2.coords (⟨8 * a.val + b.val, pt_lt a b⟩ : Fin cfg2.N)) 0).val = a.val
      ∧ ((grid2.coords (⟨8 * a.val + b.val, pt_lt a b⟩ : Fin cfg2.N)) 1).val = b.val := by
  have ha := a.isLt
  have hb := b.isLt
  obtain ⟨d0, d1⟩ := coords_div (pt a b)
  have tv : (pt a b).val = 8 * a.val + b.val := rfl
  exact ⟨by rw [d0, tv]; omega, by rw [d1, tv]; omega⟩

/-! # The tile's entries -/

section Tile
variable (V : (c : Dev nD) → (b : Ref sig .tc) → Buf (Elt Ideal) ((c : Thread nD τ).loc b))

/-- Entry `(p, q)` of the tile the point of row block `a`, column step `b`, leaves is the scaled similarity of
    rows `1024·a + p` and `1024·b + q` of the array, the diagonal pushed down. -/
theorem tile_entry (c : Dev nD) (a b : Fin 8) (p q : Fin 1024) :
    (outsAt2 (F := Ideal) V c (8 * a.val + b.val) (pt_lt a b)).tile (ix2 p q)
      = Cert.Spec.logit (X2 V c) ⟨1024 * a.val + p.val, row8 a p⟩ ⟨1024 * b.val + q.val, row8 b q⟩ := by
  have ha := a.isLt
  have hb := b.isLt
  obtain ⟨e0, e1, e2, e3, e4, e5, g0, g1⟩ := idx_facts2 (pt a b)
  have d0 : ((grid2.coords (pt a b)) 0).val = a.val := (coords_at a b).1
  have d1 : ((grid2.coords (pt a b)) 1).val = b.val := (coords_at a b).2
  have hout : ((cfg2.win 2).blk (pt a b)).view.emb (ix2 p q)
      = ix2 (⟨1024 * a.val + p.val, row8 a p⟩ : Fin 8192) (⟨1024 * b.val + q.val, row8 b q⟩ : Fin 8192) := by
    funext ax; apply Fin.ext
    match ax with
    | ⟨0, _⟩ => show win2_2.index (pt a b) (0 : Fin 2) * 1024 + 1 * p.val = 1024 * a.val + p.val; omega
    | ⟨1, _⟩ => show win2_2.index (pt a b) (1 : Fin 2) * 1024 + 1 * q.val = 1024 * b.val + q.val; omega
  have h : (dat2 (F := Ideal) V c).after 2 (pt a b) (ix2 p q) = G2 V c (((cfg2.win 2).blk (pt a b)).view.emb (ix2 p q)) :=
    congrFun (flushed2_eq V c (pt a b)) (ix2 p q)
  rw [after2_2, hout] at h
  exact h

end Tile

/-! # Where the target mask is set -/

/-- At the point of row block `a`, column step `b`, the mask is one at `(p, q)` exactly when column
    `1024·b + q` is the positive pair of row `1024·a + p`. -/
theorem mask_entry (a b : Fin 8) (p q : Fin 1024) :
    k2_pay12 (grid2.coords (⟨8 * a.val + b.val, pt_lt a b⟩ : Fin cfg2.N)) (ix2 p q) = 1#1
      ↔ (⟨1024 * b.val + q.val, row8 b q⟩ : Fin 8192) = Cert.Spec.tgt 4096 ⟨1024 * a.val + p.val, row8 a p⟩ := by
  obtain ⟨d0, d1⟩ := coords_at a b
  rw [mask_iff, tgt_val, d0, d1]
  constructor
  · intro h; apply Fin.ext; rw [tgt_val]; exact h
  · intro h; have hv := congrArg Fin.val h; rw [tgt_val] at hv; exact hv

end Cert.KernelIdeal.HandValue

end
-- ==== Proof.PeBridge.lean ====
/-
  From the streaming form of a row's loss term to the flat form.

  A row of 8192 scaled similarities, all real, is read as 8 tiles of 1024 columns: column `1024·b + q` is place `q` of
  tile `b`.  The streaming side ends with `M + log (Σ exp (z − M)) − z_target` over the pairs (tile, place), `M` the
  maximum; the flat side is `−((Z_target − sup Z) − log Σ exp (Z − sup Z))` over the 8192 columns.  The two index sets
  are in bijection, the supremum of finitely many reals inside the extended reals is their maximum, a sum over one index
  set is the sum over the other, and the remaining identity is arithmetic of reals.
-/
import proofs.«127180_j53961969107141_2_alg».proof.Proof.Spec
import proofs.«127180_j53961969107141_2_alg».proof.Proof.LibStreamingLse
import Mathlib.Logic.Equiv.Fin.Basic
import Mathlib.Algebra.BigOperators.Group.Finset.Basic
import Mathlib.Order.CompleteLattice.Basic
import Mathlib.Data.Finset.Lattice.Fold

noncomputable section

namespace Cert.PeBridge

open Idealize.ShloMosaic LibStreamingLse

/-- The supremum, in the extended reals, of finitely many reals is their maximum: every one is below the maximum, and
    the maximum is one of them. -/
theorem iSup_coe_eq_coe_sup' {ι : Type} [Fintype ι] [Nonempty ι] (z : ι → ℝ) :
    (⨆ i : ι, (z i : EReal)) = ((Finset.univ.sup' Finset.univ_nonempty z : ℝ) : EReal) := by
  apply le_antisymm
  · exact iSup_le fun i => EReal.coe_le_coe_iff.mpr (Finset.le_sup' z (Finset.mem_univ i))
  · obtain ⟨i, -, hi⟩ := Finset.exists_mem_eq_sup' (Finset.univ_nonempty (α := ι)) z
    rw [hi]
    exact le_iSup (fun i => (z i : EReal)) i

/-- The bridge over any bijection of a finite non-empty index set with the columns: if column `e i` holds the real
    `z i`, the streaming form over `i` is the flat form over the columns. -/
theorem pe_bridge_equiv {n : ℕ} {ι : Type} [Fintype ι] [Nonempty ι] [DecidableEq ι] (e : ι ≃ Fin n)
    (Zr : Fin n → EReal) (z : ι → ℝ) (hz : ∀ i, Zr (e i) = ((z i : ℝ) : EReal)) (y : Fin n) (i0 : ι) (hy : y = e i0) :
    (((Finset.univ.sup' Finset.univ_nonempty z
          + Real.log (∑ i, Real.exp (z i - Finset.univ.sup' Finset.univ_nonempty z)) : ℝ) : EReal)
        - ((z i0 : ℝ) : EReal))
      = - ((Zr y - ⨆ s : Fin n, Zr s) - Ideal.log (∑ s : Fin n, Ideal.exp (Zr s - ⨆ s' : Fin n, Zr s'))) := by
  have hsup : (⨆ s : Fin n, Zr s) = ((Finset.univ.sup' Finset.univ_nonempty z : ℝ) : EReal) := by
    rw [← e.iSup_comp (g := Zr), ← iSup_coe_eq_coe_sup' z]
    exact iSup_congr hz
  have hsum : (∑ s : Fin n, Ideal.exp (Zr s - ((Finset.univ.sup' Finset.univ_nonempty z : ℝ) : EReal)))
      = ((∑ i, Real.exp (z i - Finset.univ.sup' Finset.univ_nonempty z) : ℝ) : EReal) := by
    rw [← Equiv.sum_comp e, ← sum_exp_coe_sub z Finset.univ]
    exact Finset.sum_congr rfl fun i _ => by rw [hz i]
  rw [hsup, hsum, hy, hz i0]
  exact lse_sub_target z Finset.univ_nonempty i0

/-- Tile `b`, place `q` is column `1024·b + q`: the bijection of the 8 × 1024 pairs with the 8192 columns. -/
def tileEquiv : Fin 8 × Fin 1024 ≃ Fin 8192 := (finProdFinEquiv : Fin 8 × Fin 1024 ≃ Fin (8 * 1024))

theorem tileEquiv_val (b : Fin 8) (q : Fin 1024) : (tileEquiv (b, q)).val = 1024 * b.val + q.val :=
  Nat.add_comm _ _

/-- The bridge for a row of 8192 columns read as 8 tiles of 1024. -/
theorem pe_bridge (Zr : Fin 8192 → EReal) (z : Fin 8 × Fin 1024 → ℝ)
    (hz : ∀ (b : Fin 8) (q : Fin 1024),
      Zr ⟨1024 * b.val + q.val, by have := b.isLt; have := q.isLt; omega⟩ = ((z (b, q) : ℝ) : EReal))
    (y : Fin 8192) (b0 : Fin 8) (q0 : Fin 1024) (hy : y.val = 1024 * b0.val + q0.val) :
    (((Finset.univ.sup' Finset.univ_nonempty z
          + Real.log (∑ i, Real.exp (z i - Finset.univ.sup' Finset.univ_nonempty z)) : ℝ) : EReal)
        - ((z (b0, q0) : ℝ) : EReal))
      = - ((Zr y - ⨆ s : Fin 8192, Zr s)
          - Ideal.log (∑ s : Fin 8192, Ideal.exp (Zr s - ⨆ s' : Fin 8192, Zr s'))) := by
  refine pe_bridge_equiv tileEquiv Zr z ?_ y (b0, q0) (Fin.ext ?_)
  · rintro ⟨b, q⟩
    rw [← hz b q]
    exact congrArg Zr (Fin.ext (tileEquiv_val b q))
  · rw [hy, tileEquiv_val]

/-- The same with the flat side spelled as the row's loss term: for a matrix `Z` whose row `r` holds the reals `z` and
    labels `y` with `y r` at tile `b0`, place `q0`. -/
theorem pe_bridge_pe (Z : Fin 8192 → Fin 8192 → EReal) (y : Fin 8192 → Fin 8192) (r : Fin 8192)
    (z : Fin 8 × Fin 1024 → ℝ)
    (hz : ∀ (b : Fin 8) (q : Fin 1024),
      Z r ⟨1024 * b.val + q.val, by have := b.isLt; have := q.isLt; omega⟩ = ((z (b, q) : ℝ) : EReal))
    (b0 : Fin 8) (q0 : Fin 1024) (hy : (y r).val = 1024 * b0.val + q0.val) :
    (((Finset.univ.sup' Finset.univ_nonempty z
          + Real.log (∑ i, Real.exp (z i - Finset.univ.sup' Finset.univ_nonempty z)) : ℝ) : EReal)
        - ((z (b0, q0) : ℝ) : EReal))
      = Cert.Spec.pe Z y r :=
  pe_bridge (Z r) z hz (y r) b0 q0 hy

end Cert.PeBridge

end
-- ==== Proof.LibIsReal.lean ====
/-
  Extended reals that are reals.

  The exact instance computes on the extended reals; under a precondition that every input is finite, every
  intermediate value of a program made of sums, products, differences, maxima and divisions by non-zero reals is a real.
  This file has the closure facts, and the two laws that need them: a quotient by the square root of a positive real is
  the product with its reciprocal square root, and the exact instance's division of reals is the real division.
-/
import Idealize.ShloMosaic.PureOps.Ideal

noncomputable section

namespace Cert.LibIsReal

open Idealize.ShloMosaic

/-- `x` is (the image of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact division of reals with a non-zero divisor is the real division. -/
theorem div_coe_coe (a : ℝ) {b : ℝ} (hb : b ≠ 0) : Ideal.div (a : EReal) (b : EReal) = ((a / b : ℝ) : EReal) := by
  rw [Ideal.div_coe hb, ← EReal.coe_mul]; congr 1; field_simp

theorem IsReal.div_coe {x : EReal} (hx : IsReal x) {b : ℝ} (hb : b ≠ 0) : IsReal (Ideal.div x (b : EReal)) := by
  obtain ⟨a, rfl⟩ := hx; exact ⟨a / b, div_coe_coe a hb⟩

/-- A quotient by the square root of a positive real is the product with the reciprocal square root. -/
theorem div_sqrt_eq_mul_rsqrt (a : EReal) {v : ℝ} (hv : 0 < v) :
    Ideal.div a (Ideal.sqrt (v : EReal)) = a * Ideal.rsqrt (v : EReal) := by
  have hs : 0 < Real.sqrt v := Real.sqrt_pos.mpr hv
  have e1 : Ideal.sqrt (v : EReal) = ((Real.sqrt v : ℝ) : EReal) := by
    show (if v < 0 then (⊥ : EReal) else (Real.sqrt v : EReal)) = _
    rw [if_neg (not_lt.mpr hv.le)]
  have e2 : Ideal.rsqrt (v : EReal) = (((Real.sqrt v)⁻¹ : ℝ) : EReal) := by
    show (if v < 0 then (⊥ : EReal) else if v = 0 then ⊤ else (((Real.sqrt v)⁻¹ : ℝ) : EReal)) = _
    rw [if_neg (not_lt.mpr hv.le), if_neg hv.ne']
  rw [e1, e2, Ideal.div_coe hs.ne', one_div]

end Cert.LibIsReal

end
-- ==== Proof.LibFiniteEntries.lean ====
/-
  Finite entries are real entries.

  A precondition "every entry of this array is finite" is, as a program, a reduction by `and` over all axes of the
  elementwise test `max x (−x) < w`, with `w` the word of `+∞` broadcast from a scalar; several such tests are joined by
  `and`s of one-bit words.  On the extended reals this reads back as: when the result is one, every element test is one,
  and an extended real whose magnitude is below `⊤` is neither `⊤` nor `⊥` (`max ⊤ _ = ⊤`, `max ⊥ (−⊥) = ⊤`), so it is
  a real.  The statements are for any shape, any axes and any evidence of the reduction to a shape of one index.
-/
import proofs.«127180_j53961969107141_2_alg».proof.Proof.LibIsReal
import Idealize.ShloMosaic.Lib.ReduceAll
import Idealize.ShloMosaic.Lib.ValueIdx
import Idealize.ShloMosaic.Lib.IdealHost

noncomputable section

namespace Cert.LibFiniteEntries

open Idealize.ShloMosaic Idealize.ShloMosaic.ValueIdx Cert.LibIsReal

/-- The shape of a scalar has exactly one index. -/
instance subsingleton_scalarIdx : Subsingleton (⟨0, ![]⟩ : Shape).Idx := ⟨fun a b => funext fun d => d.elim0⟩

/-- A conjunction of one-bit arrays is one at an index exactly when both arrays are one there. -/
theorem andi_apply_eq_one {s : Shape} (x y : IVec s 1) (i : s.Idx) : andi x y i = 1#1 ↔ x i = 1#1 ∧ y i = 1#1 :=
  IntOp.andi_eq_one

/-- An extended real whose magnitude `max x (−x)` compares below `⊤` is a real: the magnitude of `⊤` and of `⊥` is `⊤`. -/
theorem isReal_of_mag_lt_top (x : EReal) (h : Ideal.cmp .olt (max x (-x)) ⊤ = 1#1) : IsReal x := by
  have hlt : max x (-x) < ⊤ := by
    by_contra hn
    simp [Ideal.cmp, hn] at h
  induction x using EReal.rec with
  | bot => simp at hlt
  | coe r => exact ⟨r, rfl⟩
  | top => simp at hlt

/-- The single-precision word `0x7F800000` is `+∞`. -/
theorem ofBits_f32_inf : Ideal.ofBits .f32 0x7F800000#32 = (⊤ : EReal) := by simp [Ideal.ofBits, Ideal.ieee]

/-- An extended real whose magnitude compares below the single-precision word of `+∞` is a real. -/
theorem isReal_of_mag_lt_inf (x : EReal)
    (h : Ideal.cmp .olt (max x (-x)) (Ideal.ofBits .f32 0x7F800000#32) = 1#1) : IsReal x :=
  isReal_of_mag_lt_top x (ofBits_f32_inf ▸ h)

/-- If the reduction by `and`, over all axes, of the elementwise tests `|a i| < w` is one, `w` a word of `+∞` in the
    array's format broadcast from a scalar, then every entry of `a` is a real. -/
theorem real_of_all_lt_word {S T u : Shape} [Subsingleton T.Idx] {φ : FTy} {axes : List (Fin S.rank)} (a : FVec Ideal S φ)
    (w : BitVec φ.bits) (hw : Ideal.ofBits φ w = (⊤ : EReal))
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ φ w))) init hr hu j = 1#1)
    (i : S.Idx) : IsReal (a i) := by
  have hi := Host.reduce_andi_all _ init hr hu j e i
  rw [cmpf_apply, broadcastInDim_scalar_apply] at hi
  refine isReal_of_mag_lt_top (a i) ?_
  rw [← hw]; exact hi

/-- The single-precision case: if the reduction by `and`, over all axes, of the tests `|a i| < +∞` is one, every entry of
    `a` is a real. -/
theorem real_of_all_lt_inf {S T u : Shape} [Subsingleton T.Idx] {axes : List (Fin S.rank)} (a : FVec Ideal S .f32)
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ .f32 0x7F800000#32)))
          init hr hu j = 1#1)
    (i : S.Idx) : IsReal (a i) :=
  real_of_all_lt_word a _ ofBits_f32_inf hb hr hu init j e i

end Cert.LibFiniteEntries

end
-- ==== Proof.Reals.lean ====
/-
  From "every input is finite" to "every scaled similarity is a real number".

  The exact instance computes on the extended reals.  Under the precondition that every float input is finite, every
  entry of the two input arrays is a real; dividing a row of reals by its Euclidean length kept above a positive real
  constant gives reals (a sum of squares of reals is a non-negative real, its square root is a real, the maximum with a
  positive real is a positive real, and a real divided by a non-zero real is a real); stacking two arrays of reals gives
  an array of reals; and an inner product of rows of reals, times a real, minus a real, is a real.
-/
import proofs.«127180_j53961969107141_2_alg».proof.Proof.Spec
import proofs.«127180_j53961969107141_2_alg».proof.Pre_finite_inputs
import proofs.«127180_j53961969107141_2_alg».proof.Proof.Gen.Pre_finite_inputs
import proofs.«127180_j53961969107141_2_alg».proof.Proof.LibIsReal
import proofs.«127180_j53961969107141_2_alg».proof.Proof.LibFiniteEntries
import Idealize.ShloMosaic.Lib.ReduceAll
import Idealize.ShloMosaic.Lib.ValueIdx

noncomputable section

namespace Cert.Reals

open Idealize.ShloMosaic Cert.LibIsReal Cert.LibFiniteEntries

/-! ## The inputs -/

/-- When the finiteness test of the two float inputs is one, every entry of both is a real: the test is the conjunction
    of two reductions by `and`, over all of an array, of the elementwise tests `|x| < +∞`. -/
theorem real_entries (a0 a1 : (⟨Cert.Pre_finite_inputs.S4096x1024, .f32⟩ : BufTy).Contents (Elt Ideal))
    (a2 : (⟨Cert.Pre_finite_inputs.S4096, .i32⟩ : BufTy).Contents (Elt Ideal)) [Cert.Pre_finite_inputs.Facts]
    (h : Cert.Pre_finite_inputs.fn (F := Ideal) a0 a1 a2 = fun _ => 1#1) :
    (∀ i, ∃ x : ℝ, a0 i = (x : EReal)) ∧ (∀ i, ∃ x : ℝ, a1 i = (x : EReal)) := by
  have h0 := congrFun h ValueIdx.ix0
  dsimp only [Cert.Pre_finite_inputs.fn] at h0
  rw [andi_apply_eq_one] at h0
  obtain ⟨h3, h7⟩ := h0
  exact ⟨fun i => real_of_all_lt_inf a0 _ _ _ _ _ h3 i, fun i => real_of_all_lt_inf a1 _ _ _ _ _ h7 i⟩

/-! ## The constants -/

/-- The word `0x322BCC77` is the positive real `11258999 · 2⁻⁵⁰` (sign 0, exponent field 100, fraction 2870391). -/
theorem eps_eq : Cert.Spec.eps = (((11258999 : ℝ) * (2 : ℝ) ^ (-50 : ℤ) : ℝ) : EReal) := by
  simp [Cert.Spec.eps, Ideal.ofBits, Ideal.ieee, -EReal.coe_mul]

/-- The small constant is a positive real. -/
theorem eps_pos : ∃ e : ℝ, 0 < e ∧ Cert.Spec.eps = (e : EReal) :=
  ⟨(11258999 : ℝ) * (2 : ℝ) ^ (-50 : ℤ), by positivity, eps_eq⟩

/-- The word `0x501502F9` is the real `10¹⁰` (sign 0, exponent field 160, fraction 1377017: `9765625 · 2¹⁰`). -/
theorem big_eq : Cert.Spec.big = ((10000000000 : ℝ) : EReal) := by
  simp [Cert.Spec.big, Ideal.ofBits, Ideal.ieee, -EReal.coe_mul]
  norm_num

/-- The large constant is a real. -/
theorem big_real : ∃ b : ℝ, Cert.Spec.big = (b : EReal) := ⟨10000000000, big_eq⟩

/-- The reciprocal of the temperature is a real, by definition. -/
theorem invTau_real : ∃ t : ℝ, Cert.Spec.invTau = (t : EReal) := ⟨268435456 / 13421773, rfl⟩

/-! ## Two facts about reals inside the extended reals -/

/-- The maximum of two reals, taken in the extended reals, is their maximum: the inclusion is monotone. -/
theorem coe_max (a b : ℝ) : max (a : EReal) (b : EReal) = ((max a b : ℝ) : EReal) :=
  (EReal.coe_strictMono.monotone.map_max).symm

/-- A finite sum of squares of reals is a non-negative real. -/
theorem sum_sq_real {ι : Type} (s : Finset ι) (f : ι → EReal) (hf : ∀ l, ∃ x : ℝ, f l = (x : EReal)) :
    ∃ v : ℝ, 0 ≤ v ∧ ∑ l ∈ s, f l * f l = (v : EReal) := by
  classical
  choose g hg using hf
  refine ⟨∑ l ∈ s, g l * g l, Finset.sum_nonneg fun l _ => mul_self_nonneg (g l), ?_⟩
  induction s using Finset.induction_on with
  | empty => simp
  | insert a s ha ih =>
    rw [Finset.sum_insert ha, Finset.sum_insert ha, ih, hg a, EReal.coe_add, EReal.coe_mul]

/-! ## The target functions -/

/-- A row of reals divided by its Euclidean length, the length kept at least the small constant, is a row of reals. -/
theorem nrm_real {n d : ℕ} (X : Fin n → Fin d → EReal) (hX : ∀ r k, ∃ x : ℝ, X r k = (x : EReal)) :
    ∀ r k, ∃ y : ℝ, Cert.Spec.nrm X r k = (y : EReal) := by
  intro r k
  obtain ⟨e, he, hE⟩ := eps_pos
  obtain ⟨v, hv, hV⟩ := sum_sq_real Finset.univ (X r) (hX r)
  have hm : max (Ideal.sqrt (∑ l : Fin d, X r l * X r l)) Cert.Spec.eps = ((max (Real.sqrt v) e : ℝ) : EReal) := by
    rw [hV, Ideal.sqrt_coe, if_neg (not_lt.mpr hv), hE, coe_max]
  have hne : max (Real.sqrt v) e ≠ 0 := (lt_of_lt_of_le he (le_max_right _ _)).ne'
  unfold Cert.Spec.nrm
  rw [hm]
  exact IsReal.div_coe (hX r k) hne

/-- Two blocks of rows of reals, one above the other, are rows of reals. -/
theorem stack_real {a d : ℕ} (X Y : Fin a → Fin d → EReal) (hX : ∀ r k, ∃ x : ℝ, X r k = (x : EReal))
    (hY : ∀ r k, ∃ y : ℝ, Y r k = (y : EReal)) : ∀ r k, ∃ y : ℝ, Cert.Spec.stack X Y r k = (y : EReal) := by
  intro r k
  unfold Cert.Spec.stack
  by_cases h : r.val < a
  · rw [dif_pos h]; exact hX _ _
  · rw [dif_neg h]; exact hY _ _

/-- The inner product of two rows of reals is a real. -/
theorem sim_real {n d : ℕ} (N : Fin n → Fin d → EReal) (hN : ∀ r k, ∃ y : ℝ, N r k = (y : EReal)) :
    ∀ r c, ∃ z : ℝ, Cert.Spec.sim N r c = (z : EReal) := fun r c =>
  IsReal.sum Finset.univ _ fun l _ => IsReal.mul (hN r l) (hN c l)

/-- Every scaled similarity of rows of reals is a real. -/
theorem logit_real {n d : ℕ} (N : Fin n → Fin d → EReal) (hN : ∀ r k, ∃ y : ℝ, N r k = (y : EReal)) :
    ∀ r s, ∃ z : ℝ, Cert.Spec.logit N r s = (z : EReal) := by
  intro r s
  unfold Cert.Spec.logit
  refine IsReal.sub (IsReal.mul (sim_real N hN r s) invTau_real) ?_
  by_cases h : r = s
  · rw [if_pos h]; exact big_real
  · rw [if_neg h]; exact isReal_zero

/-- Every scaled similarity of the length-divided stack of two arrays of reals is a real. -/
theorem logit_nrm_stack_real (X0 X1 : Fin 4096 → Fin 1024 → EReal) (h0 : ∀ r k, ∃ x : ℝ, X0 r k = (x : EReal))
    (h1 : ∀ r k, ∃ x : ℝ, X1 r k = (x : EReal)) :
    ∀ r s : Fin (4096 + 4096), ∃ z : ℝ,
      Cert.Spec.logit (Cert.Spec.nrm (Cert.Spec.stack X0 X1)) r s = (z : EReal) :=
  logit_real _ (nrm_real _ (stack_real X0 X1 h0 h1))

end Cert.Reals

end
-- ==== Proof.ValueC3.lean ====
import proofs.«127180_j53961969107141_2_alg».proof.Proof.ValueL
import proofs.«127180_j53961969107141_2_alg».proof.Proof.ValueC2
import proofs.«127180_j53961969107141_2_alg».proof.Proof.PeBridge
import proofs.«127180_j53961969107141_2_alg».proof.Proof.Reals
import proofs.«127180_j53961969107141_2_alg».proof.Proof.LibStreamingLse
import Idealize.ShloMosaic.Lib.Pipeline.Value
import Idealize.ShloMosaic.Lib.ValueIdx
import Idealize.ShloMosaic.Lib.ValueLayout
import Idealize.ShloMosaic.PureOps.Ideal.Laws

/-! The third region's per-row column at the extended reals, end to end. Along a block of rows the eight column
    steps are eight steps of the one-pass log-sum-exp over the row's 8 · 1024 scaled similarities, and the masked
    sum picks out the one entry at the row's positive pair; so the last step stores the row's loss term, and the
    per-row array after the run holds it row by row. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## One column step read at a row -/

section Step

variable (i : grid2.Coords) (x0 x1 : Vec Ideal S1024x1024 .bf16) (prev : Outs2 Ideal) (p : Fin 1024)

/-- The maximum one column step leaves at row `p`. -/
theorem step2_mx :
    ((step2 (F := Ideal) i x0 x1 prev).mx (ix2 p (0 : Fin 1)) : EReal)
      = max (prev.mx (ix2 p (0 : Fin 1)) : EReal)
          ((Finset.univ : Finset (Fin 1024)).sup' Finset.univ_nonempty
            (fun q => ((step2 (F := Ideal) i x0 x1 prev).tile (ix2 p q) : EReal))) :=
  pay3_apply _ _ p

/-- The rescaled sum one column step leaves at row `p`. -/
theorem step2_sm :
    ((step2 (F := Ideal) i x0 x1 prev).sm (ix2 p (0 : Fin 1)) : EReal)
      = (prev.sm (ix2 p (0 : Fin 1)) : EReal)
          * Ideal.exp ((prev.mx (ix2 p (0 : Fin 1)) : EReal) - (step2 (F := Ideal) i x0 x1 prev).mx (ix2 p (0 : Fin 1)))
        + ∑ q : Fin 1024, Ideal.exp (((step2 (F := Ideal) i x0 x1 prev).tile (ix2 p q) : EReal)
            - (step2 (F := Ideal) i x0 x1 prev).mx (ix2 p (0 : Fin 1))) :=
  pay2_apply _ _ _ p

/-- The masked sum one column step leaves at row `p`. -/
theorem step2_tg :
    ((step2 (F := Ideal) i x0 x1 prev).tg (ix2 p (0 : Fin 1)) : EReal)
      = (prev.tg (ix2 p (0 : Fin 1)) : EReal)
        + ∑ q : Fin 1024, (if k2_pay12 i (ix2 p q) = 1#1
            then ((step2 (F := Ideal) i x0 x1 prev).tile (ix2 p q) : EReal) else 0) :=
  pay4_apply _ _ _ p

/-- The per-row value one column step computes at row `p`, from the three columns the same step leaves. -/
theorem step2_loss :
    ((step2 (F := Ideal) i x0 x1 prev).loss (ix2 p (0 : Fin 1)) : EReal)
      = (((step2 (F := Ideal) i x0 x1 prev).mx (ix2 p (0 : Fin 1)) : EReal)
          + Ideal.log ((step2 (F := Ideal) i x0 x1 prev).sm (ix2 p (0 : Fin 1))))
        - ((step2 (F := Ideal) i x0 x1 prev).tg (ix2 p (0 : Fin 1)) : EReal) :=
  rfl

end Step

/-! ## The index sets: column blocks of a row of 8 · 1024 entries -/

/-- The entries of column block `b`. -/
def blkL (b : Fin 8) : Finset (Fin 8 × Fin 1024) := {b} ×ˢ Finset.univ

/-- The entries of the column blocks `0, …, b`. -/
def seenL (b : ℕ) : Finset (Fin 8 × Fin 1024) := (Finset.univ.filter fun j : Fin 8 => j.val ≤ b) ×ˢ Finset.univ

theorem mem_blkL {b : Fin 8} {jq : Fin 8 × Fin 1024} : jq ∈ blkL b ↔ jq.1 = b := by
  rw [blkL, Finset.mem_product, Finset.mem_singleton]
  exact ⟨fun h => h.1, fun h => ⟨h, Finset.mem_univ _⟩⟩

theorem mem_seenL {b : ℕ} {jq : Fin 8 × Fin 1024} : jq ∈ seenL b ↔ jq.1.val ≤ b := by
  rw [seenL, Finset.mem_product, Finset.mem_filter]
  exact ⟨fun h => h.1.2, fun h => ⟨⟨Finset.mem_univ _, h⟩, Finset.mem_univ _⟩⟩

theorem blkL_nonempty (b : Fin 8) : (blkL b).Nonempty := ⟨(b, 0), mem_blkL.mpr rfl⟩

theorem seenL_zero (h : 0 < 8) : seenL 0 = ∅ ∪ blkL ⟨0, h⟩ := by
  ext jq
  rw [Finset.empty_union, mem_seenL, mem_blkL, Fin.ext_iff]
  show jq.1.val ≤ 0 ↔ jq.1.val = 0
  omega

theorem seenL_succ (b : ℕ) (hb : b + 1 < 8) : seenL (b + 1) = seenL b ∪ blkL ⟨b + 1, hb⟩ := by
  ext jq
  rw [Finset.mem_union, mem_seenL, mem_seenL, mem_blkL, Fin.ext_iff]
  show jq.1.val ≤ b + 1 ↔ jq.1.val ≤ b ∨ jq.1.val = b + 1
  omega

theorem seenL_disjoint (b : ℕ) (hb : b + 1 < 8) : Disjoint (seenL b) (blkL ⟨b + 1, hb⟩) := by
  rw [Finset.disjoint_left]
  intro jq h1 h2
  rw [mem_seenL] at h1
  rw [mem_blkL, Fin.ext_iff] at h2
  have h2' : jq.1.val = b + 1 := h2
  omega

theorem seenL_last : seenL 7 = Finset.univ := by
  ext jq
  rw [mem_seenL]
  have := jq.1.isLt
  simp only [Finset.mem_univ, iff_true]
  omega

/-- The maximum over one column block is the maximum over its 1024 positions. -/
theorem sup'_blkL (x : Fin 8 × Fin 1024 → ℝ) (b : Fin 8) :
    (blkL b).sup' (blkL_nonempty b) x = Finset.univ.sup' Finset.univ_nonempty (fun q : Fin 1024 => x (b, q)) := by
  apply le_antisymm
  · refine Finset.sup'_le _ _ fun jq h => ?_
    obtain ⟨j, q⟩ := jq
    have hj : j = b := mem_blkL.mp h
    subst hj
    exact Finset.le_sup' (fun q : Fin 1024 => x (j, q)) (Finset.mem_univ q)
  · refine Finset.sup'_le _ _ fun q _ => ?_
    exact Finset.le_sup' x (mem_blkL.mpr rfl : (b, q) ∈ blkL b)

/-- A sum over one column block is the sum over its 1024 positions. -/
theorem sum_blkL {M : Type*} [AddCommMonoid M] (g : Fin 8 × Fin 1024 → M) (b : Fin 8) :
    ∑ jq ∈ blkL b, g jq = ∑ q : Fin 1024, g (b, q) := by
  rw [blkL, Finset.sum_product, Finset.sum_singleton]

/-! ## One column step preserves the streaming invariant -/

/-- One column step, read at row `p`, is one step of the streaming log-sum-exp: if the running maximum and sum
    represent the entries `s` seen so far and the new tile's row `p` holds the real numbers `z b ·`, the new
    maximum and sum represent `s` together with column block `b`. -/
theorem rep_step2 (i : grid2.Coords) (x0 x1 : Vec Ideal S1024x1024 .bf16) (prev : Outs2 Ideal) (p : Fin 1024)
    (z : Fin 8 → Fin 1024 → ℝ) (b : Fin 8) (s : Finset (Fin 8 × Fin 1024)) (hd : Disjoint s (blkL b))
    (hT : ∀ q : Fin 1024, ((step2 (F := Ideal) i x0 x1 prev).tile (ix2 p q) : EReal) = ((z b q : ℝ) : EReal))
    (h : LibStreamingLse.Rep (fun jq : Fin 8 × Fin 1024 => z jq.1 jq.2) s
      (prev.mx (ix2 p (0 : Fin 1))) (prev.sm (ix2 p (0 : Fin 1)))) :
    LibStreamingLse.Rep (fun jq : Fin 8 × Fin 1024 => z jq.1 jq.2) (s ∪ blkL b)
      ((step2 (F := Ideal) i x0 x1 prev).mx (ix2 p (0 : Fin 1)))
      ((step2 (F := Ideal) i x0 x1 prev).sm (ix2 p (0 : Fin 1))) := by
  have hmt : ((Finset.univ : Finset (Fin 1024)).sup' Finset.univ_nonempty
        (fun q => ((step2 (F := Ideal) i x0 x1 prev).tile (ix2 p q) : EReal)))
      = (((blkL b).sup' (blkL_nonempty b) (fun jq : Fin 8 × Fin 1024 => z jq.1 jq.2) : ℝ) : EReal) := by
    rw [sup'_blkL, LibStreamingLse.coe_sup']
    exact congrArg (Finset.univ.sup' Finset.univ_nonempty) (funext hT)
  have e1 : ((step2 (F := Ideal) i x0 x1 prev).mx (ix2 p (0 : Fin 1)) : EReal)
      = max (prev.mx (ix2 p (0 : Fin 1)) : EReal)
          (((blkL b).sup' (blkL_nonempty b) (fun jq : Fin 8 × Fin 1024 => z jq.1 jq.2) : ℝ) : EReal) :=
    (step2_mx i x0 x1 prev p).trans (congrArg (max (prev.mx (ix2 p (0 : Fin 1)) : EReal)) hmt)
  have e2 : ((step2 (F := Ideal) i x0 x1 prev).sm (ix2 p (0 : Fin 1)) : EReal)
      = (prev.sm (ix2 p (0 : Fin 1)) : EReal)
          * Ideal.exp ((prev.mx (ix2 p (0 : Fin 1)) : EReal) - max (prev.mx (ix2 p (0 : Fin 1)) : EReal)
              (((blkL b).sup' (blkL_nonempty b) (fun jq : Fin 8 × Fin 1024 => z jq.1 jq.2) : ℝ) : EReal))
        + ∑ jq ∈ blkL b, Ideal.exp ((((fun jq : Fin 8 × Fin 1024 => z jq.1 jq.2) jq : ℝ) : EReal)
            - max (prev.mx (ix2 p (0 : Fin 1)) : EReal)
              (((blkL b).sup' (blkL_nonempty b) (fun jq : Fin 8 × Fin 1024 => z jq.1 jq.2) : ℝ) : EReal)) := by
    rw [step2_sm, e1, sum_blkL]
    congr 1
    exact Finset.sum_congr rfl fun q _ => by rw [hT q]
  rw [e1, e2]
  exact LibStreamingLse.rep_step _ h hd (blkL_nonempty b) _ rfl

/-! ## The recursion along a block of rows -/

section Run

variable (V : (c : Dev nD) → (b : Ref sig .tc) → Buf (Elt Ideal) ((c : Thread nD τ).loc b))

/-- Column step `b` of row block `a` is a point of the 8 × 8 grid. -/
theorem ltL_N (a : Fin 8) (b : ℕ) (hb : b < 8) : 8 * a.val + b < cfg2.N := by
  have h : cfg2.N = 64 := N_2
  omega

/-- The grid point of column step `b` of row block `a`. -/
abbrev ptL (a : Fin 8) (b : ℕ) (hb : b < 8) : Fin cfg2.N := ⟨8 * a.val + b, ltL_N a b hb⟩

/-- What column step `b` of row block `a` leaves. -/
abbrev outL (c : Dev nD) (a : Fin 8) (b : ℕ) (hb : b < 8) : Outs2 Ideal :=
  outsAt2 (F := Ideal) V c (8 * a.val + b) (ltL_N a b hb)

/-- The first column step of a row block starts from the fresh columns. -/
theorem outL_zero (c : Dev nD) (a : Fin 8) (hb : 0 < 8) :
    outL V c a 0 hb = step2 (grid2.coords (ptL a 0 hb)) (iblk2 V c 0 (ptL a 0 hb)) (iblk2 V c 1 (ptL a 0 hb)) init2 :=
  outsAt2_first V c (ptL a 0 hb) (by show (8 * a.val + 0) % 8 = 0; omega)

/-- Every later column step starts from what the step before left. -/
theorem outL_succ (c : Dev nD) (a : Fin 8) (b : ℕ) (hb : b + 1 < 8) :
    outL V c a (b + 1) hb = step2 (grid2.coords (ptL a (b + 1) hb)) (iblk2 V c 0 (ptL a (b + 1) hb))
      (iblk2 V c 1 (ptL a (b + 1) hb)) (outL V c a b (Nat.lt_of_succ_lt hb)) :=
  outsAt2_next V c (ptL a (b + 1) hb) (by show ¬(8 * a.val + (b + 1)) % 8 = 0; omega)

/-! ## The masked sum along a block of rows -/

/-- The entry a mask set at column `tg0` keeps: the row's entry at that column, nothing elsewhere. -/
def mskL (z : Fin 8 → Fin 1024 → ℝ) (tg0 : Fin 8192) (jq : Fin 8 × Fin 1024) : EReal :=
  if (⟨1024 * jq.1.val + jq.2.val, row8 jq.1 jq.2⟩ : Fin 8192) = tg0 then ((z jq.1 jq.2 : ℝ) : EReal) else 0

/-- One column step adds to the running masked sum the masked entries of its column block. -/
theorem tg_step2 (i : grid2.Coords) (x0 x1 : Vec Ideal S1024x1024 .bf16) (prev : Outs2 Ideal) (p : Fin 1024)
    (z : Fin 8 → Fin 1024 → ℝ) (b : Fin 8) (tg0 : Fin 8192) (s : Finset (Fin 8 × Fin 1024)) (hd : Disjoint s (blkL b))
    (hT : ∀ q : Fin 1024, ((step2 (F := Ideal) i x0 x1 prev).tile (ix2 p q) : EReal) = ((z b q : ℝ) : EReal))
    (hm : ∀ q : Fin 1024, k2_pay12 i (ix2 p q) = 1#1 ↔ (⟨1024 * b.val + q.val, row8 b q⟩ : Fin 8192) = tg0)
    (h : (prev.tg (ix2 p (0 : Fin 1)) : EReal) = ∑ jq ∈ s, mskL z tg0 jq) :
    ((step2 (F := Ideal) i x0 x1 prev).tg (ix2 p (0 : Fin 1)) : EReal) = ∑ jq ∈ s ∪ blkL b, mskL z tg0 jq := by
  rw [step2_tg, h, Finset.sum_union hd, sum_blkL]
  congr 1
  exact Finset.sum_congr rfl fun q _ => by rw [hT q]; exact if_congr (hm q) rfl rfl

/-- The per-row value a column step stores is the maximum plus the logarithm of the sum, less the masked sum, of
    the three columns the same step leaves. -/
theorem loss_outL (c : Dev nD) (a : Fin 8) (b : ℕ) (hb : b < 8) (p : Fin 1024) :
    ((outL V c a b hb).loss (ix2 p (0 : Fin 1)) : EReal)
      = (((outL V c a b hb).mx (ix2 p (0 : Fin 1)) : EReal) + Ideal.log ((outL V c a b hb).sm (ix2 p (0 : Fin 1))))
        - ((outL V c a b hb).tg (ix2 p (0 : Fin 1)) : EReal) := by
  cases b with
  | zero => rw [outL_zero V c a hb]; exact step2_loss _ _ _ _ p
  | succ b => rw [outL_succ V c a b hb]; exact step2_loss _ _ _ _ p

/-- Along row block `a`, at row `p`: if the tiles' row `p` holds the reals `z` and the masks are set at column
    `tg0`, then after column step `b` the running maximum and sum represent the column blocks `0 … b`, and the
    running masked sum is the sum of their masked entries. -/
theorem cols_outL (c : Dev nD) (a : Fin 8) (p : Fin 1024) (z : Fin 8 → Fin 1024 → ℝ) (tg0 : Fin 8192)
    (hT : ∀ (b : Fin 8) (q : Fin 1024), ((outL V c a b.val b.isLt).tile (ix2 p q) : EReal) = ((z b q : ℝ) : EReal))
    (hm : ∀ (b : Fin 8) (q : Fin 1024), k2_pay12 (grid2.coords (ptL a b.val b.isLt)) (ix2 p q) = 1#1
      ↔ (⟨1024 * b.val + q.val, row8 b q⟩ : Fin 8192) = tg0)
    (b : ℕ) (hb : b < 8) :
    LibStreamingLse.Rep (fun jq : Fin 8 × Fin 1024 => z jq.1 jq.2) (seenL b)
        ((outL V c a b hb).mx (ix2 p (0 : Fin 1))) ((outL V c a b hb).sm (ix2 p (0 : Fin 1)))
      ∧ ((outL V c a b hb).tg (ix2 p (0 : Fin 1)) : EReal) = ∑ jq ∈ seenL b, mskL z tg0 jq := by
  induction b with
  | zero =>
    have e := outL_zero V c a hb
    have hT0 : ∀ q : Fin 1024, ((outL V c a 0 hb).tile (ix2 p q) : EReal) = ((z ⟨0, hb⟩ q : ℝ) : EReal) := hT ⟨0, hb⟩
    have hm0 : ∀ q : Fin 1024, k2_pay12 (grid2.coords (ptL a 0 hb)) (ix2 p q) = 1#1
        ↔ (⟨1024 * (⟨0, hb⟩ : Fin 8).val + q.val, row8 ⟨0, hb⟩ q⟩ : Fin 8192) = tg0 := hm ⟨0, hb⟩
    rw [e] at hT0 ⊢
    rw [seenL_zero hb]
    have e1 : ((init2 (F := Ideal)).mx (ix2 p (0 : Fin 1)) : EReal) = ⊥ := pay6_apply p
    have e2 : ((init2 (F := Ideal)).sm (ix2 p (0 : Fin 1)) : EReal) = 0 := pay7_apply p
    have e3 : ((init2 (F := Ideal)).tg (ix2 p (0 : Fin 1)) : EReal) = 0 := pay8_apply p
    refine ⟨rep_step2 _ _ _ _ p z ⟨0, hb⟩ ∅ (Finset.disjoint_empty_left _) hT0 ?_,
      tg_step2 _ _ _ _ p z ⟨0, hb⟩ tg0 ∅ (Finset.disjoint_empty_left _) hT0 hm0 ?_⟩
    · rw [e1, e2]; exact LibStreamingLse.rep_empty _
    · rw [e3, Finset.sum_empty]
  | succ b ih =>
    obtain ⟨ih1, ih2⟩ := ih (Nat.lt_of_succ_lt hb)
    have e := outL_succ V c a b hb
    have hT1 : ∀ q : Fin 1024, ((outL V c a (b + 1) hb).tile (ix2 p q) : EReal) = ((z ⟨b + 1, hb⟩ q : ℝ) : EReal) :=
      hT ⟨b + 1, hb⟩
    have hm1 : ∀ q : Fin 1024, k2_pay12 (grid2.coords (ptL a (b + 1) hb)) (ix2 p q) = 1#1
        ↔ (⟨1024 * (⟨b + 1, hb⟩ : Fin 8).val + q.val, row8 ⟨b + 1, hb⟩ q⟩ : Fin 8192) = tg0 := hm ⟨b + 1, hb⟩
    rw [e] at hT1 ⊢
    rw [seenL_succ b hb]
    exact ⟨rep_step2 _ _ _ _ p z ⟨b + 1, hb⟩ _ (seenL_disjoint b hb) hT1 ih1,
      tg_step2 _ _ _ _ p z ⟨b + 1, hb⟩ tg0 _ (seenL_disjoint b hb) hT1 hm1 ih2⟩

/-! ## The last column step stores the row's loss term -/

/-- If every entry of the array region 2 reads is a real number, the per-row value the last column step of row
    block `a` stores at row `p` is the loss term of row `1024·a + p` of the scaled similarities, with the
    positive pair as label. -/
theorem loss_entry (c : Dev nD) (hreal : ∀ r k, ∃ x : ℝ, X2 V c r k = (x : EReal)) (a : Fin 8) (p : Fin 1024) :
    ((outL V c a 7 (by norm_num)).loss (ix2 p (0 : Fin 1)) : EReal)
      = Cert.Spec.pe (Cert.Spec.logit (X2 V c)) (Cert.Spec.tgt 4096) ⟨1024 * a.val + p.val, row8 a p⟩ := by
  have hlr := Cert.Reals.logit_real (X2 V c) hreal
  choose zf hzf using fun (b : Fin 8) (q : Fin 1024) =>
    hlr ⟨1024 * a.val + p.val, row8 a p⟩ ⟨1024 * b.val + q.val, row8 b q⟩
  obtain ⟨tg0, htg0⟩ : ∃ tg0 : Fin 8192, tg0 = Cert.Spec.tgt 4096 ⟨1024 * a.val + p.val, row8 a p⟩ := ⟨_, rfl⟩
  have hT : ∀ (b : Fin 8) (q : Fin 1024), ((outL V c a b.val b.isLt).tile (ix2 p q) : EReal) = ((zf b q : ℝ) : EReal) :=
    fun b q => (tile_entry V c a b p q).trans (hzf b q)
  have hm : ∀ (b : Fin 8) (q : Fin 1024), k2_pay12 (grid2.coords (ptL a b.val b.isLt)) (ix2 p q) = 1#1
      ↔ (⟨1024 * b.val + q.val, row8 b q⟩ : Fin 8192) = tg0 := fun b q => by rw [htg0]; exact mask_entry a b p q
  obtain ⟨hrep, htg⟩ := cols_outL V c a p zf tg0 hT hm 7 (by norm_num)
  rw [seenL_last] at hrep htg
  have hfin := LibStreamingLse.rep_final _ hrep Finset.univ_nonempty
  have hlt : tg0.val < 8192 := tg0.isLt
  obtain ⟨b0, hb0⟩ : ∃ b0 : Fin 8, b0.val = tg0.val / 1024 := ⟨⟨_, by omega⟩, rfl⟩
  obtain ⟨q0, hq0⟩ : ∃ q0 : Fin 1024, q0.val = tg0.val % 1024 := ⟨⟨_, Nat.mod_lt _ (by norm_num)⟩, rfl⟩
  have hy : tg0.val = 1024 * b0.val + q0.val := by omega
  have hmsk : ∀ jq : Fin 8 × Fin 1024,
      mskL zf tg0 jq = if jq = (b0, q0) then ((zf jq.1 jq.2 : ℝ) : EReal) else 0 := fun jq => by
    unfold mskL
    refine if_congr ?_ rfl rfl
    have h1 := jq.1.isLt
    have h2 := jq.2.isLt
    have h3 := q0.isLt
    constructor
    · intro h
      have hv : 1024 * jq.1.val + jq.2.val = tg0.val := congrArg Fin.val h
      exact Prod.ext (Fin.ext (by show jq.1.val = b0.val; omega)) (Fin.ext (by show jq.2.val = q0.val; omega))
    · intro h
      apply Fin.ext
      show 1024 * jq.1.val + jq.2.val = tg0.val
      rw [h, hy]
  have hsum : ∑ jq ∈ (Finset.univ : Finset (Fin 8 × Fin 1024)), mskL zf tg0 jq = ((zf b0 q0 : ℝ) : EReal) := by
    simp only [hmsk]
    rw [Finset.sum_ite_eq' Finset.univ (b0, q0) (fun jq : Fin 8 × Fin 1024 => ((zf jq.1 jq.2 : ℝ) : EReal)),
      if_pos (Finset.mem_univ _)]
  rw [loss_outL V c a 7 _ p, hfin, htg, hsum]
  exact Cert.PeBridge.pe_bridge_pe (Cert.Spec.logit (X2 V c)) (Cert.Spec.tgt 4096) ⟨1024 * a.val + p.val, row8 a p⟩
    (fun jq : Fin 8 × Fin 1024 => zf jq.1 jq.2) (fun b q => hzf b q) b0 q0 (by rw [← htg0]; exact hy)

/-! ## The per-row array, row by row -/

/-- The per-row array after region 2's run, reshaped to a vector, holds at `r` the loss term of row `r`. -/
theorem loss_vec (c : Dev nD) (hreal : ∀ r k, ∃ x : ℝ, X2 V c r k = (x : EReal)) (r : Fin 8192) :
    shapeCast S8192 ((dat2 (F := Ideal) V c).arrAt 3 cfg2.N) shapeCasts_S8192x1_S8192 (ix1 r)
      = Cert.Spec.pe (Cert.Spec.logit (X2 V c)) (Cert.Spec.tgt 4096) r := by
  have hr := r.isLt
  rw [shapeCast_apply _ shapeCasts_S8192x1_S8192 (ix1 r) (ix2 r (0 : Fin 1)) (by
    rw [Shape.rowMajor_val_two, Shape.rowMajor_val_one]
    show r.val * 1 + 0 = r.val
    omega)]
  obtain ⟨a, p, rfl⟩ : ∃ (a : Fin 8) (p : Fin 1024), r = ⟨1024 * a.val + p.val, row8 a p⟩ :=
    ⟨⟨r.val / 1024, by omega⟩, ⟨r.val % 1024, Nat.mod_lt _ (by norm_num)⟩,
      Fin.ext (by show r.val = 1024 * (r.val / 1024) + r.val % 1024; omega)⟩
  exact (loss_arr V c a p).trans (loss_entry V c hreal a p)

end Run

end Cert.KernelIdeal.HandValue

end
-- ==== Proof.RefSide.lean ====
/- The reference's results read at an index: entry (r, s) of its scaled similarities is the specification's entry for the
   two argument blocks stacked and each row divided by its length, and entry k of its labels is the word of the column
   of row k's positive pair. -/
import proofs.«127180_j53961969107141_2_alg».proof.Proof.RefRead
import proofs.«127180_j53961969107141_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A [4096, 1024] float argument as a matrix of extended reals: entry (r, k). -/
abbrev Rows (x : (⟨S4096x1024, .f32⟩ : BufTy).Contents (Elt Ideal)) : Fin 4096 → Fin 1024 → EReal :=
  fun r k => x (ix2 r k)

/-! ## The two constants as reals -/

/-- The word the reference divides the inner products by denotes the rational 13421773 / 2^28. -/
theorem ofBits_tau : Ideal.ofBits .f32 0x3D4CCCCD#32 = ((13421773 / 268435456 : ℝ) : EReal) := by
  simp [Ideal.ofBits, Ideal.ieee, -EReal.coe_mul]; norm_num

/-- Dividing by that word is multiplying by the reciprocal of the temperature. -/
theorem div_tau (x : EReal) : Ideal.div x (Ideal.ofBits .f32 0x3D4CCCCD#32) = x * Cert.Spec.invTau := by
  rw [ofBits_tau, Ideal.div_coe (by norm_num)]
  unfold Cert.Spec.invTau
  congr 2
  norm_num

/-- The diagonal test as a float times a constant: the constant on the diagonal, zero off it. -/
theorem diag_mul (r s : Fin 8192) (B : EReal) :
    (((IntOp.cmpi .eq (IntOp.addi (BitVec.ofNat 32 r.val) 0#32) (BitVec.ofNat 32 s.val)).toNat : ℝ) : EReal) * B
      = if r = s then B else 0 := by
  have hr : r.val < 2 ^ 32 := lt_trans r.isLt (by norm_num)
  have hs : s.val < 2 ^ 32 := lt_trans s.isLt (by norm_num)
  by_cases h : r = s
  · subst h
    rw [if_pos rfl]
    simp [IntOp.cmpi, IntOp.addi]
  · rw [if_neg h]
    have hne : ¬ (BitVec.ofNat 32 r.val = BitVec.ofNat 32 s.val) := by
      intro e
      apply h
      apply Fin.ext
      have := congrArg BitVec.toNat e
      simp only [BitVec.toNat_ofNat] at this
      rwa [Nat.mod_eq_of_lt hr, Nat.mod_eq_of_lt hs] at this
    simp [IntOp.cmpi, IntOp.addi, hne]

/-! ## The scaled similarities -/

section Rows
variable (x0 x1 : (⟨S4096x1024, .f32⟩ : BufTy).Contents (Elt Ideal))

/-- The two arguments stacked, read at row r and column k. -/
theorem stacked_apply (r : Fin 8192) (k : Fin 1024) :
    ReadP.val_main_v0 (F := Ideal) x0 x1 (ix2 r k) = Cert.Spec.stack (Rows x0) (Rows x1) r k := by
  unfold ReadP.val_main_v0 Cert.Spec.stack
  by_cases h : r.val < 4096
  · rw [dif_pos h]
    exact concatenate_pair_apply_left 0 x0 x1 _ (ix2 r k) rfl (ix2 ⟨r.val, h⟩ k) (fun b => by
      match b with
      | ⟨0, _⟩ => rfl
      | ⟨1, _⟩ => rfl)
  · rw [dif_neg h]
    exact concatenate_pair_apply_right 0 x0 x1 _ (ix2 r k) rfl rfl (ix2 ⟨r.val - 4096, by omega⟩ k)
      (fun b hb => by
        match b with
        | ⟨0, _⟩ => exact absurd rfl hb
        | ⟨1, _⟩ => rfl)
      (by show r.val - 4096 + 4096 = r.val; omega)

/-- The stacked rows, each divided by its length kept above the small constant, read at row r and column k. -/
theorem normed_apply (r : Fin 8192) (k : Fin 1024) :
    ReadP.val_main_v5 (F := Ideal) x0 x1 (ix2 r k)
      = Cert.Spec.nrm (Cert.Spec.stack (Rows x0) (Rows x1)) r k := by
  have e : ∀ l : Fin 1024,
      ReadP.idx_main_call0_v1 (ReadP.idx_main_call0_v2 (ReadP.idx_main_v4 (ix2 r k))) l = ix2 r l := fun l =>
    funext fun a => Fin.ext (by match a with | ⟨0, _⟩ => rfl | ⟨1, _⟩ => rfl)
  rw [ReadP.val_main_v5_apply, ReadP.val_main_v4_apply, ReadP.val_main_v3_apply, ReadP.val_main_v1_apply,
    ReadP.val_main_call0_v2_apply, ReadP.val_main_call0_v1_apply, ReadP.val_main_v2_apply, ReadP.val_main_cst_apply,
    ReadP.val_main_call0_cst_apply]
  simp only [ReadP.val_main_call0_v0_apply, e, stacked_apply, Ideal.hostDivf_def, Ideal.maximumf_def,
    Ideal.hostUnary_sqrt_def, Ideal.mulf_def, Ideal.ofBits_def, Ideal.ofBits_zero_f32, zero_add]
  rfl

/-- The inner product of the divided rows r and s. -/
theorem gram_apply (r s : Fin 8192) :
    ReadP.val_main_v7 (F := Ideal) x0 x1 (ix2 r s)
      = Cert.Spec.sim (Cert.Spec.nrm (Cert.Spec.stack (Rows x0) (Rows x1))) r s := by
  have el : ∀ l : Fin 1024, ReadP.lidx_main_v7 (ix2 r s) l = ix2 r l := fun l =>
    funext fun a => Fin.ext (by match a with | ⟨0, _⟩ => rfl | ⟨1, _⟩ => rfl)
  have er : ∀ l : Fin 1024, ReadP.idx_main_v6 (ReadP.ridx_main_v7 (ix2 r s) l) = ix2 s l := fun l =>
    funext fun a => Fin.ext (by match a with | ⟨0, _⟩ => rfl | ⟨1, _⟩ => rfl)
  rw [ReadP.val_main_v7_apply]
  simp only [ReadP.val_main_v6_apply, el, er, normed_apply]
  rfl

/-- ENTRY (r, s) OF THE REFERENCE'S SCALED SIMILARITIES: the inner product of the divided rows r and s times the
    reciprocal of the temperature, the diagonal pushed down by the large constant. -/
theorem ref_logits_apply (r s : Fin 8192) :
    ReadP.val_main_v18 (F := Ideal) x0 x1 (ix2 r s)
      = Cert.Spec.logit (Cert.Spec.nrm (Cert.Spec.stack (Rows x0) (Rows x1))) r s := by
  rw [ReadP.val_main_v18_apply, ReadP.val_main_v15_apply, ReadP.val_main_v17_apply, ReadP.val_main_v13_apply,
    ReadP.val_main_v12_apply, ReadP.val_main_v11_apply, ReadP.val_main_v8_apply, ReadP.val_main_v9_apply,
    ReadP.val_main_v10_apply, ReadP.val_main_c_apply, ReadP.val_main_v14_apply, ReadP.val_main_cst_0_apply,
    ReadP.val_main_v16_apply, ReadP.val_main_cst_1_apply, gram_apply]
  show Ideal.div (Cert.Spec.sim (Cert.Spec.nrm (Cert.Spec.stack (Rows x0) (Rows x1))) r s)
        (Ideal.ofBits .f32 0x3D4CCCCD#32)
      - (((IntOp.cmpi .eq (IntOp.addi (BitVec.ofNat 32 r.val) 0#32) (BitVec.ofNat 32 s.val)).toNat : ℝ) : EReal)
          * Ideal.ofBits .f32 0x501502F9#32 = _
  rw [div_tau, diag_mul]
  rfl

end Rows

/-! ## The labels -/

/-- ENTRY k OF THE REFERENCE'S LABELS: the 32-bit word of the column of row k's positive pair. -/
theorem ref_labels_apply (k : Fin 8192) :
    ReadP.val_main_v22 (F := Ideal) (ix1 k) = BitVec.ofNat 32 (Cert.Spec.tgt 4096 k).val := by
  have hk : k.val < 8192 := k.isLt
  unfold ReadP.val_main_v22 Cert.Spec.tgt
  by_cases h : k.val < 4096
  · rw [dif_pos h]
    refine (concatenate_pair_apply_left (t := S8192) (s₁ := S4096) (s₂ := S4096) 0
      (ReadP.val_main_v21 (F := Ideal)) (ReadP.val_main_v19 (F := Ideal)) concatenates_S4096_S4096_S8192_d0
      (ix1 k) rfl (ix1 (⟨k.val, h⟩ : Fin 4096)) (fun b => by match b with | ⟨0, _⟩ => rfl)).trans ?_
    rw [ReadP.val_main_v21_apply, ReadP.val_main_v19_apply, ReadP.val_main_v20_apply, ReadP.val_main_c_2_apply]
    show BitVec.ofNat 32 k.val + BitVec.ofNat 32 4096 = BitVec.ofNat 32 (k.val + 4096)
    rw [BitVec.ofNat_add]
  · rw [dif_neg h]
    have h2 : k.val - 4096 < 4096 := by omega
    refine (concatenate_pair_apply_right (t := S8192) (s₁ := S4096) (s₂ := S4096) 0
      (ReadP.val_main_v21 (F := Ideal)) (ReadP.val_main_v19 (F := Ideal)) concatenates_S4096_S4096_S8192_d0
      (ix1 k) rfl rfl (ix1 (⟨k.val - 4096, h2⟩ : Fin 4096))
      (fun b hb => absurd (Subsingleton.elim (α := Fin 1) _ _) hb)
      (by show k.val - 4096 + 4096 = k.val; omega)).trans ?_
    rfl

end Cert.ReferenceIdeal.RefValue

end
-- ==== Proof.RefColumn.lean ====
/- The reference's per-example column read at an index: entry r is minus the logarithm of the softmax of row r of the
   scaled similarities at the column of row r's positive pair. The row maximum is a fold from minus infinity, hence
   the row's supremum; every label lies in [0, 8191], so the bounds test passes everywhere and the row-wise gather
   reads the labelled column unclamped. -/
import proofs.«127180_j53961969107141_2_alg».proof.Proof.RefSide
import Idealize.ShloMosaic.PureOps.Reduce

noncomputable section

namespace Cert.ReferenceIdeal.RefValue

open Cert.ReferenceIdeal Cert.ReferenceIdeal.Gen Idealize.ShloMosaic Idealize.ShloMosaic.ValueIdx

/-! ## Words: a label below 8192 as a signed index -/

/-- A natural below 8192 as a 32-bit word, read signed, is itself. -/
theorem toInt_word (t : Fin 8192) : (BitVec.ofNat 32 t.val).toInt = (t.val : Int) := by
  have ht : t.val < 8192 := t.isLt
  rw [BitVec.toInt_eq_toNat_of_lt (by rw [BitVec.toNat_ofNat]; omega), BitVec.toNat_ofNat]
  congr 1
  omega

/-- Such a word is not negative, so the wrap-around select keeps it. -/
theorem select_word (t : Fin 8192) (A : BitVec 32) :
    Scalar.select (IntOp.cmpi .slt (BitVec.ofNat 32 t.val) 0#32) A (BitVec.ofNat 32 t.val) = BitVec.ofNat 32 t.val := by
  have h0 : (0#32 : BitVec 32).toInt = 0 := by decide
  have hs : BitVec.slt (BitVec.ofNat 32 t.val) 0#32 = false := by
    rw [BitVec.slt, toInt_word t, h0]; exact decide_eq_false (by omega)
  have h : IntOp.cmpi .slt (BitVec.ofNat 32 t.val) 0#32 = 0#1 := by
    show BitVec.ofBool (BitVec.slt (BitVec.ofNat 32 t.val) 0#32) = 0#1
    rw [hs]; rfl
  rw [h]
  exact select_zero _ _

/-- Such a word passes the bounds test 0 ≤ · ≤ 8191. -/
theorem word_in_range (t : Fin 8192) :
    IntOp.andi (IntOp.cmpi .sge (BitVec.ofNat 32 t.val) 0#32) (IntOp.cmpi .sle (BitVec.ofNat 32 t.val) 8191#32) = 1#1 := by
  have ht : t.val < 8192 := t.isLt
  have h0 : (0#32 : BitVec 32).toInt = 0 := by decide
  have h8 : (8191#32 : BitVec 32).toInt = 8191 := by decide
  have s1 : BitVec.sle 0#32 (BitVec.ofNat 32 t.val) = true := by
    rw [BitVec.sle, toInt_word t, h0]; exact decide_eq_true (by omega)
  have s2 : BitVec.sle (BitVec.ofNat 32 t.val) 8191#32 = true := by
    rw [BitVec.sle, toInt_word t, h8]; exact decide_eq_true (by omega)
  show IntOp.andi (BitVec.ofBool (BitVec.sle 0#32 (BitVec.ofNat 32 t.val)))
    (BitVec.ofBool (BitVec.sle (BitVec.ofNat 32 t.val) 8191#32)) = 1#1
  rw [s1, s2]
  decide

/-- The word read signed, as a natural, clamped at 8191, is the natural. -/
theorem clamp_word (t : Fin 8192) : min (BitVec.ofNat 32 t.val).toInt.toNat 8191 = t.val := by
  have ht : t.val < 8192 := t.isLt
  rw [toInt_word t, Int.toNat_natCast]
  omega
/-- A fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-! ## The gather of one entry per row -/

/-- Result entry (r, 0) of the row-wise gather is the operand's entry (r, col), the column the index word at (r, 0, 0)
    read signed and clamped into [0, 8191]. -/
theorem gather_row_apply {α : Type} (x : S8192x8192.Idx → α) (idx : IVec S8192x1x1 32) (r : Fin 8192) :
    Host.gather gather_S8192x8192_S8192x1x1_S8192x1_n_1_0_0_1_2_11 x idx (ix2 r (0 : Fin 1))
      = x (ix2 r (⟨min (idx (ix3 r (0 : Fin 1) (0 : Fin 1))).toInt.toNat 8191, by omega⟩ : Fin 8192)) := by
  unfold Host.gather
  congr 1
  funext a
  refine Fin.ext ?_
  match a with
  | ⟨0, _⟩ =>
    show gather_S8192x8192_S8192x1x1_S8192x1_n_1_0_0_1_2_11.start (ix2 r (0 : Fin 1)) idx 0
      + gather_S8192x8192_S8192x1x1_S8192x1_n_1_0_0_1_2_11.batchCoord (ix2 r (0 : Fin 1)) 0
      + gather_S8192x8192_S8192x1x1_S8192x1_n_1_0_0_1_2_11.offCoord (ix2 r (0 : Fin 1)) 0 = r.val
    have hb : (0 : Fin S8192x8192.rank) ∈ gather_S8192x8192_S8192x1x1_S8192x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S8192x8192_S8192x1x1_S8192x1_n_1_0_0_1_2_11.start (ix2 r (0 : Fin 1)) idx 1
      + gather_S8192x8192_S8192x1x1_S8192x1_n_1_0_0_1_2_11.batchCoord (ix2 r (0 : Fin 1)) 1
      + gather_S8192x8192_S8192x1x1_S8192x1_n_1_0_0_1_2_11.offCoord (ix2 r (0 : Fin 1)) 1 = _
    have hm : (1 : Fin S8192x8192.rank) ∈ gather_S8192x8192_S8192x1x1_S8192x1_n_1_0_0_1_2_11.startIndexMap :=
      List.mem_singleton.mpr rfl
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos hm]
    have hsi : gather_S8192x8192_S8192x1x1_S8192x1_n_1_0_0_1_2_11.siIdx (ix2 r (0 : Fin 1))
        ⟨List.idxOf (1 : Fin S8192x8192.rank) gather_S8192x8192_S8192x1x1_S8192x1_n_1_0_0_1_2_11.startIndexMap,
          List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The per-example column -/

section Column
variable (x0 x1 : (⟨S4096x1024, .f32⟩ : BufTy).Contents (Elt Ideal))

/-- The scaled similarities of the stacked, divided rows. -/
abbrev Z : Fin 8192 → Fin 8192 → EReal :=
  Cert.Spec.logit (Cert.Spec.nrm (Cert.Spec.stack (Rows x0) (Rows x1)))

/-- The word of minus infinity denotes the bottom of the extended reals. -/
theorem ofBits_negInf : Ideal.ofBits .f32 0xFF800000#32 = (⊥ : EReal) := by
  simp [Ideal.ofBits, Ideal.ieee]

/-- The maximum of row r, folded from minus infinity, is the supremum of the row. -/
theorem rowmax_apply (r : Fin 8192) :
    ReadP.val_main_call1_v0 (F := Ideal) x0 x1 (ix1 r) = ⨆ s : Fin 8192, Z x0 x1 r s := by
  have h : S8192x8192.Reduces [1] S8192 := by decide
  unfold ReadP.val_main_call1_v0
  rw [Host.reduce_eq_fold_single FloatOps.maximumf _ _ reducesTo_S8192x8192_S8192_d1 h h_S_]
  have hf : (ReadP.val_main_v18 (F := Ideal) x0 x1 ∘ h.lift (ix1 r)) = fun s : Fin 8192 => Z x0 x1 r s :=
    funext fun s => by
      show ReadP.val_main_v18 (F := Ideal) x0 x1 (h.lift (ix1 r) s) = _
      have e : h.lift (ix1 r) s = ix2 r (⟨s.val, s.isLt⟩ : Fin 8192) := by
        funext c; apply Fin.ext
        match c with
        | ⟨0, _⟩ => rfl
        | ⟨1, _⟩ => rfl
      rw [e, ref_logits_apply]
      rfl
  rw [hf, ReadP.val_main_call1_cst_apply, Ideal.ofBits_def, ofBits_negInf]
  exact Finset.sup_univ_eq_iSup _

/-- Entry (r, s) less the row's supremum. -/
theorem shifted_apply (r s : Fin 8192) :
    ReadP.val_main_call1_v5 (F := Ideal) x0 x1 (ix2 r s) = Z x0 x1 r s - ⨆ q : Fin 8192, Z x0 x1 r q := by
  have e : ReadP.idx_main_call1_v3 (ReadP.idx_main_call1_v4 (ix2 r s)) = ix1 r :=
    funext fun a => Fin.ext (by match a with | ⟨0, _⟩ => rfl)
  rw [ReadP.val_main_call1_v5_apply, ReadP.val_main_call1_v4_apply, ReadP.val_main_call1_v3_apply, e,
    ReadP.val_main_call1_v2_apply, ReadP.val_main_call1_v1_apply, ReadP.val_main_call1_cst_0_apply, rowmax_apply,
    ref_logits_apply, Ideal.ofBits_def, ofBits_negInf, Ideal.maximumf_def, Ideal.subf_def, max_eq_right bot_le]

/-- The sum over row r of the exponentials of the shifted entries. -/
theorem expsum_apply (r : Fin 8192) :
    ReadP.val_main_call1_v7 (F := Ideal) x0 x1 (ix1 r)
      = ∑ s : Fin 8192, Ideal.exp (Z x0 x1 r s - ⨆ q : Fin 8192, Z x0 x1 r q) := by
  have e : ∀ s : Fin 8192, ReadP.idx_main_call1_v7 (ix1 r) s = ix2 r s := fun s =>
    funext fun a => Fin.ext (by match a with | ⟨0, _⟩ => rfl | ⟨1, _⟩ => rfl)
  rw [ReadP.val_main_call1_v7_apply, ReadP.val_main_call1_cst_1_apply]
  simp only [ReadP.val_main_call1_v6_apply, e, shifted_apply, Ideal.hostUnary_exp_def, Ideal.ofBits_def,
    Ideal.ofBits_zero_f32, zero_add]

/-- Entry (r, s) of the logarithm of the softmax of the rows. -/
theorem logsoftmax_apply (r s : Fin 8192) :
    ReadP.val_main_v27 (F := Ideal) x0 x1 (ix2 r s)
      = (Z x0 x1 r s - ⨆ q : Fin 8192, Z x0 x1 r q)
        - Ideal.log (∑ k : Fin 8192, Ideal.exp (Z x0 x1 r k - ⨆ q : Fin 8192, Z x0 x1 r q)) := by
  have e : ReadP.idx_main_call1_v8 (ReadP.idx_main_call1_v10 (ix2 r s)) = ix1 r :=
    funext fun a => Fin.ext (by match a with | ⟨0, _⟩ => rfl)
  rw [ReadP.val_main_v27_apply, ReadP.val_main_call1_v10_apply, ReadP.val_main_call1_v9_apply,
    ReadP.val_main_call1_v8_apply, e, expsum_apply, shifted_apply, Ideal.hostUnary_log_def, Ideal.subf_def]

/-- The index word of a position in row q is the label of row q. -/
theorem index_word (i : S8192x1x1.Idx) (q : Fin 8192)
    (hq : ReadP.idx_main_v28 (ReadP.idx_main_call2_v5 i) = ix1 q) :
    ReadP.val_main_call2_v5 (F := Ideal) i = BitVec.ofNat 32 (Cert.Spec.tgt 4096 q).val := by
  rw [ReadP.val_main_call2_v5_apply, ReadP.val_main_call2_v4_apply, ReadP.val_main_call2_v1_apply,
    ReadP.val_main_v28_apply, ReadP.val_main_call2_v0_apply, ReadP.val_main_call2_c_apply, hq, ref_labels_apply]
  exact select_word _ _

/-- Every position passes the bounds test. -/
theorem in_range (i : S8192x1x1.Idx) : ReadP.val_main_call2_v11 (F := Ideal) i = 1#1 := by
  obtain ⟨q, hq⟩ : ∃ q : Fin 8192, ReadP.idx_main_v28 (ReadP.idx_main_call2_v5 i) = ix1 q :=
    ⟨_, eq_ix1 (n := 8192) _⟩
  rw [ReadP.val_main_call2_v11_apply, ReadP.val_main_call2_v7_apply, ReadP.val_main_call2_v10_apply,
    ReadP.val_main_call2_v6_apply, ReadP.val_main_call2_c_2_apply, ReadP.val_main_call2_v9_apply,
    ReadP.val_main_call2_v8_apply, ReadP.val_main_call2_c_1_apply, index_word i q hq]
  exact word_in_range _

/-- So the reduced bounds test is 1 everywhere. -/
theorem all_in_range (j : S8192x1.Idx) : ReadP.val_main_call2_v12 (F := Ideal) j = 1#1 := by
  unfold ReadP.val_main_call2_v12
  rw [Host.reduce_eq_foldl, ReadP.val_main_call2_c_3_apply]
  exact foldl_andi_ones _ (fun i => in_range i) _

/-- ENTRY r OF THE PER-EXAMPLE COLUMN: minus the logarithm of the softmax of row r at the column of its positive pair. -/
theorem ref_pe_apply (r : Fin 8192) :
    ReadP.val_main_v31 (F := Ideal) x0 x1 (ix1 r)
      = Cert.Spec.pe (Cert.Spec.logit (Cert.Spec.nrm (Cert.Spec.stack (Rows x0) (Rows x1)))) (Cert.Spec.tgt 4096) r := by
  unfold Cert.Spec.pe
  have e30 : ReadP.idx_main_v30 (ix1 r) = ix2 r (0 : Fin 1) :=
    funext fun a => Fin.ext (by
      match a with
      | ⟨0, _⟩ => exact Nat.div_one _
      | ⟨1, _⟩ => rfl)
  have hw : ReadP.val_main_call2_v5 (F := Ideal) (ix3 r (0 : Fin 1) (0 : Fin 1))
      = BitVec.ofNat 32 (Cert.Spec.tgt 4096 r).val :=
    index_word _ r (funext fun a => Fin.ext (by
      match a with
      | ⟨0, _⟩ =>
        show ((r.val * 1 + 0) * 1 + 0) / 1 = r.val
        simp))
  have hcol : (⟨min (ReadP.val_main_call2_v5 (F := Ideal) (ix3 r (0 : Fin 1) (0 : Fin 1))).toInt.toNat 8191, by omega⟩
      : Fin 8192) = Cert.Spec.tgt 4096 r := Fin.ext (by
    show min (ReadP.val_main_call2_v5 (F := Ideal) (ix3 r (0 : Fin 1) (0 : Fin 1))).toInt.toNat 8191 = _
    rw [hw]; exact clamp_word _)
  rw [ReadP.val_main_v31_apply, ReadP.val_main_v30_apply, e30, ReadP.val_main_v29_apply, all_in_range, select_one]
  unfold ReadP.val_main_call2_v13
  rw [gather_row_apply, hcol, logsoftmax_apply, Ideal.hostNegf_def, Ideal.negf_def]

end Column

end Cert.ReferenceIdeal.RefValue

end
-- ==== Proof.RefTail.lean ====
/- The reference program's scalar result, read back in stretches. @main is 92 host operations; the scalar is what
   the last of them leaves. Reading all 92 back in one pass is out of reach, so the list is cut into four stretches,
   each read back over an ARBITRARY entry valuation (the buffers a stretch reads at their stage values, as hypotheses),
   and the four readings are chained: the scaled similarities, the labels and the weights; the row-wise log-softmax;
   the entry picked per row, negated; the weighted mean. -/
import proofs.«127180_j53961969107141_2_alg».proof.Proof.RefRun
import proofs.«127180_j53961969107141_2_alg».proof.Proof.RefRead
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The four stretches -/

/-- Operations 0–36: the two arguments stacked and row-normalised, their scaled similarities with the diagonal pushed
    down (`main_v18`), the labels (`main_v22`), the weights (`main_v26`). -/
abbrev ops1 : List (HloOp τ sig (Elt F)) := (ops (F := F)).take 37
/-- Operations 37–51: the row-wise log-softmax of the similarities (`main_v27`). -/
abbrev ops2 : List (HloOp τ sig (Elt F)) := ((ops (F := F)).drop 37).take 15
/-- Operations 52–76: per row, the log-softmax entry at the row's label, negated (`main_v31`). -/
abbrev ops3 : List (HloOp τ sig (Elt F)) := ((ops (F := F)).drop 52).take 25
/-- Operations 77–91: the weights gathered at the labels, and the weighted mean (`main_v42`). -/
abbrev ops4 : List (HloOp τ sig (Elt F)) := (ops (F := F)).drop 77

/-- The program is the four stretches in order. -/
theorem ops_split : (ops (F := F)) = ops1 ++ (ops2 ++ (ops3 ++ ops4)) := rfl

/-- So the contents after the program are the contents after the fourth stretch from those after the third, and so on. -/
theorem after_split (V : Valuation τ sig (Elt F)) :
    after (ops (F := F)) V = after ops4 (after ops3 (after ops2 (after ops1 V))) :=
  (congrArg (fun l => after l V) ops_split).trans (by rw [after_append, after_append, after_append])

/-! ## The first stretch, from any contents -/

set_option maxHeartbeats 8000000 in
/-- The similarities are their stage value of the first two arguments' contents. -/
theorem read1_v18 (Vv : Valuation τ sig (Elt F)) :
    after ops1 Vv (Proc.devRef .tc main_v18) = val_main_v18 (F := F) (Vv (Proc.devRef .tc main_arg0)) (Vv (Proc.devRef .tc main_arg1)) := by
  simp only [ops1, ops, List.take_succ_cons, List.take_zero]
  after_results_simp <;> rfl

set_option maxHeartbeats 4000000 in
/-- The labels are their stage value. -/
theorem read1_v22 (Vv : Valuation τ sig (Elt F)) :
    after ops1 Vv (Proc.devRef .tc main_v22) = val_main_v22 (F := F) := by
  simp only [ops1, ops, List.take_succ_cons, List.take_zero]
  after_results_simp <;> rfl

set_option maxHeartbeats 4000000 in
/-- The weights are their stage value of the third argument's contents. -/
theorem read1_v26 (Vv : Valuation τ sig (Elt F)) :
    after ops1 Vv (Proc.devRef .tc main_v26) = val_main_v26 (F := F) (Vv (Proc.devRef .tc main_arg2)) := by
  simp only [ops1, ops, List.take_succ_cons, List.take_zero]
  after_results_simp <;> rfl

/-! ## The second stretch, in five pieces

A value of the program written by a called function's operation is carried at the buffer's type through a transport
along the (true by computation) equation between that type and the value's. Where such a transport sits on a fold over
a long axis, comparing the two sides by unfolding does not end; so the row maxima are read through a lemma about an
ARBITRARY binary function in the fold's place, and the pieces after it take the maxima as a variable. -/

/-- Operations 37–38: the row maxima of the similarities (`main_call1_v0`). -/
abbrev ops2a : List (HloOp τ sig (Elt F)) := ((ops (F := F)).drop 37).take 2
/-- Operations 39–41: the maxima floored at minus infinity (`main_call1_v2`). -/
abbrev ops2b : List (HloOp τ sig (Elt F)) := ((ops (F := F)).drop 39).take 3
/-- Operations 42–44: the similarities minus their row maxima (`main_call1_v5`). -/
abbrev ops2c : List (HloOp τ sig (Elt F)) := ((ops (F := F)).drop 42).take 3
/-- Operations 45–47: the row sums of their exponentials (`main_call1_v7`). -/
abbrev ops2d : List (HloOp τ sig (Elt F)) := ((ops (F := F)).drop 45).take 3
/-- Operations 48–51: minus the logarithms of the sums (`main_v27`). -/
abbrev ops2e : List (HloOp τ sig (Elt F)) := ((ops (F := F)).drop 48).take 4

theorem ops2_split : (ops2 (F := F)) = ops2a ++ (ops2b ++ (ops2c ++ (ops2d ++ ops2e))) := rfl

theorem after2_split (V : Valuation τ sig (Elt F)) :
    after (ops2 (F := F)) V = after ops2e (after ops2d (after ops2c (after ops2b (after ops2a V)))) :=
  (congrArg (fun l => after l V) ops2_split).trans (by rw [after_append, after_append, after_append, after_append])

/-- The transports around a binary function of the similarities and a scalar, written into the row maxima's buffer,
    are the identity — for ANY such function. -/
theorem strip_call1_v0
    (g : (⟨S8192x8192, .f32⟩ : BufTy).Contents (Elt F) → (⟨S_, .f32⟩ : BufTy).Contents (Elt F) → (⟨S8192, .f32⟩ : BufTy).Contents (Elt F))
    (y : (⟨S8192x8192, .f32⟩ : BufTy).Contents (Elt F)) (z : (⟨S_, .f32⟩ : BufTy).Contents (Elt F)) :
    (TRef.of (T := ⟨S8192, .f32⟩) (sig := sig) main_call1_v0).toBuf (Val := Elt F)
        (g ((TRef.of (T := ⟨S8192x8192, .f32⟩) (sig := sig) main_v18).ofBuf y)
          ((TRef.of (T := ⟨S_, .f32⟩) (sig := sig) main_call1_cst).ofBuf
            ((TRef.of (T := ⟨S_, .f32⟩) (sig := sig) main_call1_cst).toBuf z)))
      = g y z := rfl

set_option maxHeartbeats 4000000 in
/-- The row maxima, from the similarities at any contents `w`. -/
theorem read2a (Vv : Valuation τ sig (Elt F)) (w : (⟨S8192x8192, .f32⟩ : BufTy).Contents (Elt F))
    (h18 : Vv (Proc.devRef .tc main_v18) = w) :
    after ops2a Vv (Proc.devRef .tc main_call1_v0)
      = Host.reduce FloatOps.maximumf w (val_main_call1_cst (F := F)) reducesTo_S8192x8192_S8192_d1 h_S_ := by
  simp only [ops2a, ops, List.drop_succ_cons, List.drop_zero, List.take_succ_cons, List.take_zero]
  after_results_simp
  rw [h18]
  exact strip_call1_v0 (fun x v => Host.reduce FloatOps.maximumf x v reducesTo_S8192x8192_S8192_d1 h_S_) w _

set_option maxHeartbeats 4000000 in
/-- The floored maxima, from the maxima at any contents `v0`. -/
theorem read2b (Vv : Valuation τ sig (Elt F)) (v0 : (⟨S8192, .f32⟩ : BufTy).Contents (Elt F))
    (hv0 : Vv (Proc.devRef .tc main_call1_v0) = v0) :
    after ops2b Vv (Proc.devRef .tc main_call1_v2) = maximumf (val_main_call1_v1 (F := F)) v0 := by
  simp only [ops2b, ops, List.drop_succ_cons, List.drop_zero, List.take_succ_cons, List.take_zero]
  after_results_simp
  rw [hv0]
  rfl

set_option maxHeartbeats 4000000 in
theorem read2c (Vv : Valuation τ sig (Elt F)) (x0 x1 : (⟨S4096x1024, .f32⟩ : BufTy).Contents (Elt F))
    (h18 : Vv (Proc.devRef .tc main_v18) = val_main_v18 (F := F) x0 x1)
    (hv2 : Vv (Proc.devRef .tc main_call1_v2) = val_main_call1_v2 (F := F) x0 x1) :
    after ops2c Vv (Proc.devRef .tc main_call1_v5) = val_main_call1_v5 (F := F) x0 x1 := by
  simp only [ops2c, ops, List.drop_succ_cons, List.drop_zero, List.take_succ_cons, List.take_zero]
  after_results_simp
  rw [h18, hv2]
  rfl

set_option maxHeartbeats 4000000 in
theorem read2d (Vv : Valuation τ sig (Elt F)) (x0 x1 : (⟨S4096x1024, .f32⟩ : BufTy).Contents (Elt F))
    (hv5 : Vv (Proc.devRef .tc main_call1_v5) = val_main_call1_v5 (F := F) x0 x1) :
    after ops2d Vv (Proc.devRef .tc main_call1_v7) = val_main_call1_v7 (F := F) x0 x1 := by
  simp only [ops2d, ops, List.drop_succ_cons, List.drop_zero, List.take_succ_cons, List.take_zero]
  after_results_simp
  rw [hv5]
  rfl

set_option maxHeartbeats 4000000 in
theorem read2e (Vv : Valuation τ sig (Elt F)) (x0 x1 : (⟨S4096x1024, .f32⟩ : BufTy).Contents (Elt F))
    (hv5 : Vv (Proc.devRef .tc main_call1_v5) = val_main_call1_v5 (F := F) x0 x1)
    (hv7 : Vv (Proc.devRef .tc main_call1_v7) = val_main_call1_v7 (F := F) x0 x1) :
    after ops2e Vv (Proc.devRef .tc main_v27) = val_main_v27 (F := F) x0 x1 := by
  simp only [ops2e, ops, List.drop_succ_cons, List.drop_zero, List.take_succ_cons, List.take_zero]
  after_results_simp
  rw [hv5, hv7]
  rfl

set_option maxHeartbeats 4000000 in
/-- The first two pieces do not write the similarities, -/
theorem keep2a_v18 (Vv : Valuation τ sig (Elt F)) :
    after ops2a Vv (Proc.devRef .tc main_v18) = Vv (Proc.devRef .tc main_v18) := by
  simp only [ops2a, ops, List.drop_succ_cons, List.drop_zero, List.take_succ_cons, List.take_zero]
  after_results_simp
set_option maxHeartbeats 4000000 in
theorem keep2b_v18 (Vv : Valuation τ sig (Elt F)) :
    after ops2b Vv (Proc.devRef .tc main_v18) = Vv (Proc.devRef .tc main_v18) := by
  simp only [ops2b, ops, List.drop_succ_cons, List.drop_zero, List.take_succ_cons, List.take_zero]
  after_results_simp
set_option maxHeartbeats 4000000 in
/-- and the fourth does not write the shifted similarities. -/
theorem keep2d_v5 (Vv : Valuation τ sig (Elt F)) :
    after ops2d Vv (Proc.devRef .tc main_call1_v5) = Vv (Proc.devRef .tc main_call1_v5) := by
  simp only [ops2d, ops, List.drop_succ_cons, List.drop_zero, List.take_succ_cons, List.take_zero]
  after_results_simp

/-- Entered with the similarities at their stage value, the second stretch leaves the log-softmax at its stage value. -/
theorem read2_v27 (Vv : Valuation τ sig (Elt F)) (x0 x1 : (⟨S4096x1024, .f32⟩ : BufTy).Contents (Elt F))
    (h18 : Vv (Proc.devRef .tc main_v18) = val_main_v18 (F := F) x0 x1) :
    after ops2 Vv (Proc.devRef .tc main_v27) = val_main_v27 (F := F) x0 x1 := by
  rw [after2_split]
  have hv0 : after ops2a Vv (Proc.devRef .tc main_call1_v0) = val_main_call1_v0 (F := F) x0 x1 :=
    read2a Vv (val_main_v18 (F := F) x0 x1) h18
  have hv2 : after ops2b (after ops2a Vv) (Proc.devRef .tc main_call1_v2) = val_main_call1_v2 (F := F) x0 x1 :=
    read2b (after ops2a Vv) (val_main_call1_v0 (F := F) x0 x1) hv0
  have h18b : after ops2b (after ops2a Vv) (Proc.devRef .tc main_v18) = val_main_v18 (F := F) x0 x1 :=
    (keep2b_v18 (after ops2a Vv)).trans ((keep2a_v18 Vv).trans h18)
  have hv5 := read2c (after ops2b (after ops2a Vv)) x0 x1 h18b hv2
  have hv7 := read2d (after ops2c (after ops2b (after ops2a Vv))) x0 x1 hv5
  have hv5d := (keep2d_v5 (after ops2c (after ops2b (after ops2a Vv)))).trans hv5
  exact read2e (after ops2d (after ops2c (after ops2b (after ops2a Vv)))) x0 x1 hv5d hv7

set_option maxHeartbeats 4000000 in
/-- The second stretch, whole, writes neither the labels -/
theorem keep2_v22 (Vv : Valuation τ sig (Elt F)) :
    after ops2 Vv (Proc.devRef .tc main_v22) = Vv (Proc.devRef .tc main_v22) := by
  simp only [ops2, ops3, ops, List.drop_succ_cons, List.drop_zero, List.take_succ_cons, List.take_zero]
  after_results_simp
set_option maxHeartbeats 4000000 in
/-- nor the weights. -/
theorem keep2_v26 (Vv : Valuation τ sig (Elt F)) :
    after ops2 Vv (Proc.devRef .tc main_v26) = Vv (Proc.devRef .tc main_v26) := by
  simp only [ops2, ops3, ops, List.drop_succ_cons, List.drop_zero, List.take_succ_cons, List.take_zero]
  after_results_simp

/-! ## The third stretch -/

set_option maxHeartbeats 8000000 in
/-- Entered with the log-softmax and the labels at their stage values, the third stretch leaves the per-row vector at
    its stage value. -/
theorem read3_v31 (Vv : Valuation τ sig (Elt F)) (x0 x1 : (⟨S4096x1024, .f32⟩ : BufTy).Contents (Elt F))
    (h27 : Vv (Proc.devRef .tc main_v27) = val_main_v27 (F := F) x0 x1)
    (h22 : Vv (Proc.devRef .tc main_v22) = val_main_v22 (F := F)) :
    after ops3 Vv (Proc.devRef .tc main_v31) = val_main_v31 (F := F) x0 x1 := by
  simp only [ops2, ops3, ops, List.drop_succ_cons, List.drop_zero, List.take_succ_cons, List.take_zero]
  after_results_simp
  rw [h27, h22]
  rfl

set_option maxHeartbeats 4000000 in
/-- The third stretch writes neither the labels -/
theorem keep3_v22 (Vv : Valuation τ sig (Elt F)) :
    after ops3 Vv (Proc.devRef .tc main_v22) = Vv (Proc.devRef .tc main_v22) := by
  simp only [ops2, ops3, ops, List.drop_succ_cons, List.drop_zero, List.take_succ_cons, List.take_zero]
  after_results_simp
set_option maxHeartbeats 4000000 in
/-- nor the weights. -/
theorem keep3_v26 (Vv : Valuation τ sig (Elt F)) :
    after ops3 Vv (Proc.devRef .tc main_v26) = Vv (Proc.devRef .tc main_v26) := by
  simp only [ops2, ops3, ops, List.drop_succ_cons, List.drop_zero, List.take_succ_cons, List.take_zero]
  after_results_simp

/-! ## The fourth stretch -/

set_option maxHeartbeats 4000000 in
/-- Entered with the weights, the labels and the per-row vector at their stage values, the fourth stretch leaves the
    scalar at its stage value. -/
theorem read4_v42 (Vv : Valuation τ sig (Elt F)) (x0 x1 : (⟨S4096x1024, .f32⟩ : BufTy).Contents (Elt F))
    (x2 : (⟨S4096, .i32⟩ : BufTy).Contents (Elt F))
    (h26 : Vv (Proc.devRef .tc main_v26) = val_main_v26 (F := F) x2)
    (h22 : Vv (Proc.devRef .tc main_v22) = val_main_v22 (F := F))
    (h31 : Vv (Proc.devRef .tc main_v31) = val_main_v31 (F := F) x0 x1) :
    after ops4 Vv (Proc.devRef .tc main_v42) = val_main_v42 (F := F) x0 x1 x2 := by
  simp only [ops4, ops, List.drop_succ_cons, List.drop_zero]
  after_results_simp
  rw [h26, h22, h31]
  rfl

/-! ## The chain -/

/-- THE SCALAR. What the 92 operations leave in the scalar's buffer, from the launch contents, is its stage value of
    the three arguments: the first stretch's three readings carried through the stretches that do not write them,
    each later stretch entered with what it reads at stage values. -/
theorem ref_v42 (m : (ℓ : Loc nD τ sig) → Buf (Elt F) ℓ) (c : Dev nD) :
    after (ops (F := F)) (launchContents m c) (Proc.devRef .tc main_v42)
      = val_main_v42 (F := F) (m ((c.tc : Thread nD τ).loc main_arg0)) (m ((c.tc : Thread nD τ).loc main_arg1))
          (m ((c.tc : Thread nD τ).loc main_arg2)) := by
  rw [after_split]
  have h18 := read1_v18 (F := F) (launchContents m c)
  have h22 := read1_v22 (F := F) (launchContents m c)
  have h26 := read1_v26 (F := F) (launchContents m c)
  have h27 := read2_v27 (after ops1 (launchContents m c)) _ _ h18
  have h22' := (keep2_v22 (after ops1 (launchContents m c))).trans h22
  have h26' := (keep2_v26 (after ops1 (launchContents m c))).trans h26
  have h31 := read3_v31 (after ops2 (after ops1 (launchContents m c))) _ _ h27 h22'
  have h22'' := (keep3_v22 (after ops2 (after ops1 (launchContents m c)))).trans h22'
  have h26'' := (keep3_v26 (after ops2 (after ops1 (launchContents m c)))).trans h26'
  exact read4_v42 (after ops3 (after ops2 (after ops1 (launchContents m c)))) _ _ _ h26'' h22'' h31

/-! ## The run, with the results at their stage values -/

/-- THE REFERENCE'S RUN WITH ITS RESULTS. Every weakly fair execution of the reference's @main terminates, nothing
    faulting, and every final memory holds the scalar, the similarities and the labels at their stage values of the
    arguments as launched, and the arguments as launched. -/
theorem run_value_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v42)
        = val_main_v42 (F := F) (m ((c.tc : Thread nD τ).loc main_arg0)) (m ((c.tc : Thread nD τ).loc main_arg1))
            (m ((c.tc : Thread nD τ).loc main_arg2))
      ∧ r.2.mem ((c.tc : Thread nD τ).loc main_v18)
        = val_main_v18 (F := F) (m ((c.tc : Thread nD τ).loc main_arg0)) (m ((c.tc : Thread nD τ).loc main_arg1))
      ∧ r.2.mem ((c.tc : Thread nD τ).loc main_v22) = val_main_v22 (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (ref_v42 m c),
     (h c).2.1.trans (val_main_v18_eq _ _),
     (h c).2.2.1.trans val_main_v22_eq,
     (h c).2.2.2.1, (h c).2.2.2.2.1, (h c).2.2.2.2.2⟩) (ValueP.run m ρ)

end Cert.ReferenceIdeal.RefValue

end
-- ==== Proof.Algebraic.lean ====
/- At the exact instance the two programs end with equal results. The scaled similarities: the kernel's array is
   the scaled similarities of the stacked arguments' normalized rows, and so is the reference's. The labels are one
   closed term on both sides. The scalar: both programs apply the same weighted mean to a per-row vector, the kernel's
   read off its per-row output column — maximum plus log of the rescaled sum minus the target entry, streamed over the
   eight tiles of a row — and the reference's minus the log-softmax at the label; on a row of real numbers, which the
   finite inputs give, these are one number. -/
import proofs.«127180_j53961969107141_2_alg».proof.Defs
import proofs.«127180_j53961969107141_2_alg».proof.Proof.Gen.KernelIdeal
import proofs.«127180_j53961969107141_2_alg».proof.Proof.Gen.ReferenceIdeal
import proofs.«127180_j53961969107141_2_alg».proof.Proof.Gen.Pre_finite_inputs
import proofs.«127180_j53961969107141_2_alg».proof.Proof.ValueRun
import proofs.«127180_j53961969107141_2_alg».proof.Proof.KLogits
import proofs.«127180_j53961969107141_2_alg».proof.Proof.ValueC3
import proofs.«127180_j53961969107141_2_alg».proof.Proof.RefSide
import proofs.«127180_j53961969107141_2_alg».proof.Proof.RefColumn
import proofs.«127180_j53961969107141_2_alg».proof.Proof.RefTail
import proofs.«127180_j53961969107141_2_alg».proof.Proof.Reals
import proofs.«127180_j53961969107141_2_alg».proof.Proof.Spec

noncomputable section

namespace Cert.Proof

open Idealize.ShloMosaic Idealize.ShloMosaic.TcCoe Idealize.ShloMosaic.ValueIdx Idealize.SL.Sem

/-- The precondition's stated facts, as the claim takes them. -/
local instance : Cert.Pre_finite_inputs.Facts := Cert.Pre_finite_inputs.Gen.facts

variable (m : (ℓ : Loc Cert.KernelIdeal.nD Cert.KernelIdeal.τ Cert.KernelIdeal.sig) → Buf (Elt Ideal) ℓ) (ρ : Dev Cert.KernelIdeal.nD → PrngReg)

/-- The similarities: the reference's stage value of the two float arguments is the kernel's array. -/
theorem logits_eq (c : Dev Cert.KernelIdeal.nD) :
    Cert.ReferenceIdeal.ReadP.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = (Cert.KernelIdeal.Hand.dat2 (F := Ideal) (Cert.KernelIdeal.Hand.V3 m ρ) c).arrAt 2 Cert.KernelIdeal.cfg2.N := by
  funext i
  obtain ⟨r, s, rfl⟩ : ∃ (r : Fin 8192) (s : Fin 8192), i = ix2 r s := ⟨i 0, i 1, eq_ix2 i⟩
  rw [Cert.ReferenceIdeal.RefValue.ref_logits_apply]
  exact (Cert.KernelIdeal.HandValue.kernel_logits m ρ c r s).symm

/-- The labels: one closed term. -/
theorem labels_eq : Cert.ReferenceIdeal.ReadP.val_main_v22 (F := Ideal) = Cert.KernelIdeal.Hand.labels (F := Ideal) := rfl

/-- The gathered row weights: the same operations of the integer argument in both programs. -/
theorem weights_eq (a2 : (⟨Cert.KernelIdeal.S4096, .i32⟩ : BufTy).Contents (Elt Ideal)) :
    Cert.ReferenceIdeal.ReadP.val_main_v38 (F := Ideal) a2 = Cert.KernelIdeal.Hand.rowWeights (F := Ideal) a2 := rfl

/-- The rows the third region reads are real numbers when the inputs are finite. -/
theorem rows_real (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    ∀ r k, ∃ x : ℝ, Cert.KernelIdeal.HandValue.X2 (Cert.KernelIdeal.Hand.V3 m ρ) c r k = (x : EReal) := by
  obtain ⟨h0, h1⟩ := Cert.Reals.real_entries _ _ _ hpre
  intro r k
  rw [Cert.KernelIdeal.HandValue.rows_v2]
  exact Cert.Reals.stack_real (Cert.Spec.nrm (Cert.KernelIdeal.HandValue.A0 m c)) (Cert.Spec.nrm (Cert.KernelIdeal.HandValue.A1 m c))
    (Cert.Reals.nrm_real (Cert.KernelIdeal.HandValue.A0 m c) fun r' k' => h0 _)
    (Cert.Reals.nrm_real (Cert.KernelIdeal.HandValue.A1 m c) fun r' k' => h1 _) r k

/-- The per-row vector: the reference's stage value is the kernel's per-row column, reshaped. -/
theorem column_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    Cert.ReferenceIdeal.ReadP.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = fun i => shapeCast Cert.KernelIdeal.S8192 ((Cert.KernelIdeal.Hand.dat2 (F := Ideal) (Cert.KernelIdeal.Hand.V3 m ρ) c).arrAt 3 Cert.KernelIdeal.cfg2.N) Cert.KernelIdeal.Facts₀.shapeCasts_S8192x1_S8192 i := by
  funext i
  obtain ⟨r, rfl⟩ : ∃ r : Fin 8192, i = ix1 r := ⟨i 0, eq_ix1 i⟩
  rw [Cert.ReferenceIdeal.RefValue.ref_pe_apply, Cert.KernelIdeal.HandValue.loss_vec (Cert.KernelIdeal.Hand.V3 m ρ) c (rows_real m ρ c hpre) r]
  have e : Cert.KernelIdeal.HandValue.X2 (Cert.KernelIdeal.Hand.V3 m ρ) c
      = Cert.Spec.nrm (Cert.Spec.stack (Cert.KernelIdeal.HandValue.A0 m c) (Cert.KernelIdeal.HandValue.A1 m c)) := by
    funext r' k'
    exact (Cert.KernelIdeal.HandValue.rows_v2 m ρ c r' k').trans
      (Cert.Spec.nrm_stack (Cert.KernelIdeal.HandValue.A0 m c) (Cert.KernelIdeal.HandValue.A1 m c) r' k').symm
  rw [e]

/-- The scalar: the same weighted mean of the same per-row vector. -/
theorem loss_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    Cert.ReferenceIdeal.ReadP.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      = Cert.KernelIdeal.Hand.lossTail (F := Ideal) (m ((c.tc : Thread Cert.KernelIdeal.nD Cert.KernelIdeal.τ).loc Cert.KernelIdeal.main_arg2))
          ((Cert.KernelIdeal.Hand.dat2 (F := Ideal) (Cert.KernelIdeal.Hand.V3 m ρ) c).arrAt 3 Cert.KernelIdeal.cfg2.N) := by
  unfold Cert.ReferenceIdeal.ReadP.val_main_v42 Cert.ReferenceIdeal.ReadP.val_main_v40 Cert.ReferenceIdeal.ReadP.val_main_v41
    Cert.ReferenceIdeal.ReadP.val_main_v39 Cert.KernelIdeal.Hand.lossTail
  rw [weights_eq, column_eq m ρ c hpre]
  rfl

/-- THE ALGEBRAIC CLAIM. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.lossTail (F := Ideal) (m ((c.tc : Thread Cert.KernelIdeal.nD Cert.KernelIdeal.τ).loc Cert.KernelIdeal.main_arg2))
            ((Cert.KernelIdeal.Hand.dat2 (F := Ideal) (Cert.KernelIdeal.Hand.V3 m ρ) c).arrAt 3 Cert.KernelIdeal.cfg2.N),
          fun c => (Cert.KernelIdeal.Hand.dat2 (F := Ideal) (Cert.KernelIdeal.Hand.V3 m ρ) c).arrAt 2 Cert.KernelIdeal.cfg2.N,
          fun c => Cert.KernelIdeal.Hand.labels (F := Ideal),
          Cert.KernelIdeal.Hand.run_value m ρ, ?_⟩
  refine (θ_run Cert.ReferenceIdeal.defs _ _).mono (fun r h c => ?_) (Cert.ReferenceIdeal.RefValue.run_value_ref (F := Ideal) m' ρ')
  obtain ⟨h42, h18, h22, ha0, ha1, ha2⟩ := h c
  obtain ⟨e0, e1, e2⟩ := hagree c
  refine ⟨h42.trans ?_, h18.trans ?_, h22.trans ?_, ha0, ha1, ha2⟩
  · rw [e0, e1, e2]; exact loss_eq m ρ c (hpre c)
  · rw [e0, e1]; exact logits_eq m ρ c
  · exact labels_eq

end Cert.Proof

end
-- ==== Proof.lean ====
/- The five claims of this certificate.
   The three frames: the kernel program, printed at the word level and at the exact instance, is three pipelined
   regions among two stretches of host operations; each region's grid is walked by the library's pipeline rule from
   its per-point obligation (two row-normalizing kernels of one load, a lane sum and one store per point; the third
   kernel's tile of scaled similarities with a running maximum, a running rescaled sum and a running target entry per
   row carried across the eight column steps of a row block, its two input windows reading one array at half shares),
   and the regions are chained over the buffers' contents at each boundary. The reference is host operations only: its
   run is the library's straight-line run. The kernel's multiplier 20.0 is read as the reciprocal of the rational the
   reference's f32 word for 0.05 encodes, which is the one rewrite of the idealization. At the exact instance both
   programs compute, from finite inputs, the same scaled similarities, labels and weighted mean of
   log-sum-exp minus target entry: the streaming log-sum-exp over the eight tiles is the whole row's. -/
import proofs.«127180_j53961969107141_2_alg».proof.Defs
import proofs.«127180_j53961969107141_2_alg».proof.Proof.Gen.Kernel
import proofs.«127180_j53961969107141_2_alg».proof.Proof.Gen.KernelIdeal
import proofs.«127180_j53961969107141_2_alg».proof.Proof.Gen.ReferenceIdeal
import proofs.«127180_j53961969107141_2_alg».proof.Proof.Gen.Pre_finite_inputs
import proofs.«127180_j53961969107141_2_alg».proof.Proof.KFrameRun
import proofs.«127180_j53961969107141_2_alg».proof.Proof.FrameRun
import proofs.«127180_j53961969107141_2_alg».proof.Proof.RefRun
import proofs.«127180_j53961969107141_2_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.ValueP.run (F := Ideal) m ρ)

/-- The idealization's one rewrite: the multiplier's word 20.0 denotes, by the certificate's table, one over the
    rational that the reference's word for 0.05 encodes. -/
theorem preserves : Cert.preserves_Kernel_KernelIdeal :=
  IdealRules.named_const.statement Cert.KernelIdeal.κ "inv_tau" .f32 0x41A00000#32 ((268435456 / 13421773 : ℝ) : EReal) rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
